-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v147)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v147) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v161) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S2x1600000 : Shape := ⟨2, ![2, 1600000]⟩
abbrev S1600000 : Shape := ⟨1, ![1600000]⟩
abbrev S256x128 : Shape := ⟨2, ![256, 128]⟩
abbrev S128 : Shape := ⟨1, ![128]⟩
abbrev S128x128 : Shape := ⟨2, ![128, 128]⟩
abbrev S128x40 : Shape := ⟨2, ![128, 40]⟩
abbrev S40 : Shape := ⟨1, ![40]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x40 : S_.BroadcastsInDim S128x40 (![] : Fin 0 → Fin S128x40.rank)
  reducesTo_S128x40_S_d0_1 : S128x40.ReducesTo [0, 1] S_
  bcast_S_S40 : S_.BroadcastsInDim S40 (![] : Fin 0 → Fin S40.rank)
  reducesTo_S40_S_d0 : S40.ReducesTo [0] S_

variable [Facts]

def fn_part2 {F : FTy → Type} [FloatOps F] (main_arg10 : FVec F S128x40 .f32) (main_arg11 : FVec F S40 .f32) (main_v33 : IVec S_ 1) : IVec S_ 1 :=
  let main_v34 : FVec F S128x40 .f32 := Host.absf main_arg10
  let main_cst_12 : FVec F S_ .f32 := constant S_ .f32 0x7F800000#32
  let main_v35 : FVec F S128x40 .f32 := broadcastInDim S128x40 ![] bcast_S_S128x40 main_cst_12
  let main_v36 : IVec S128x40 1 := cmpf .olt main_v34 main_v35
  let main_c_13 : IVec S_ 1 := constantI S_ 1 1#1
  let main_v37 : IVec S_ 1 := (fun x v => Host.reduce IntOp.andi x v reducesTo_S128x40_S_d0_1 h_S_) main_v36 main_c_13
  let main_v38 : IVec S_ 1 := andi main_v33 main_v37
  let main_v39 : FVec F S40 .f32 := Host.absf main_arg11
  let main_cst_14 : FVec F S_ .f32 := constant S_ .f32 0x7F800000#32
  let main_v40 : FVec F S40 .f32 := broadcastInDim S40 ![] bcast_S_S40 main_cst_14
  let main_v41 : IVec S40 1 := cmpf .olt main_v39 main_v40
  let main_c_15 : IVec S_ 1 := constantI S_ 1 1#1
  let main_v42 : IVec S_ 1 := (fun x v => Host.reduce IntOp.andi x v reducesTo_S40_S_d0 h_S_) main_v41 main_c_15
  let main_v43 : IVec S_ 1 := andi main_v38 main_v42
  main_v43

def fn_part1 {F : FTy → Type} [FloatOps F] (main_arg7 : FVec F S128 .f32) (main_arg8 : FVec F S128x128 .f32) (main_arg9 : FVec F S128 .f32) (main_arg10 : FVec F S128x40 .f32) (main_arg11 : FVec F S40 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S128 .f32 := Host.absf main_arg7
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg8
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg9
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg10 main_arg11 main_v33

def fn {F : FTy → Type} [FloatOps F] (main_arg0 : FVec F S100000x256 .f32) (main_arg1 : IVec S2x1600000 32) (main_arg2 : IVec S2x1600000 32) (main_arg3 : IVec S2x1600000 32) (main_arg4 : FVec F S1600000 .f32) (main_arg5 : FVec F S1600000 .f32) (main_arg6 : FVec F S256x128 .f32) (main_arg7 : FVec F S128 .f32) (main_arg8 : FVec F S128x128 .f32) (main_arg9 : FVec F S128 .f32) (main_arg10 : FVec F S128x40 .f32) (main_arg11 : FVec F S40 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S1600000 .f32 := Host.absf main_arg4
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S1600000 .f32 := Host.absf main_arg5
  let main_cst_2 : FVec F S_ .f32 := constant S_ .f32 0x7F800000#32
  let main_v10 : FVec F S1600000 .f32 := broadcastInDim S1600000 ![] bcast_S_S1600000 main_cst_2
  let main_v11 : IVec S1600000 1 := cmpf .olt main_v9 main_v10
  let main_c_3 : IVec S_ 1 := constantI S_ 1 1#1
  let main_v12 : IVec S_ 1 := (fun x v => Host.reduce IntOp.andi x v reducesTo_S1600000_S_d0 h_S_) main_v11 main_c_3
  let main_v13 : IVec S_ 1 := andi main_v8 main_v12
  let main_v14 : FVec F S256x128 .f32 := Host.absf main_arg6
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg7 main_arg8 main_arg9 main_arg10 main_arg11 main_v13 main_v16
-- ==== Kernel.lean ====
abbrev S100000x256 : Shape := ⟨2, ![100000, 256]⟩
abbrev S2x1600000 : Shape := ⟨2, ![2, 1600000]⟩
abbrev S1600000 : Shape := ⟨1, ![1600000]⟩
abbrev S256x128 : Shape := ⟨2, ![256, 128]⟩
abbrev S128 : Shape := ⟨1, ![128]⟩
abbrev S128x128 : Shape := ⟨2, ![128, 128]⟩
abbrev S128x40 : Shape := ⟨2, ![128, 40]⟩
abbrev S40 : Shape := ⟨1, ![40]⟩
abbrev S100000x128 : Shape := ⟨2, ![100000, 128]⟩
abbrev S5000x256 : Shape := ⟨2, ![5000, 256]⟩
abbrev S5000x128 : Shape := ⟨2, ![5000, 128]⟩
abbrev S_ : Shape := ⟨0, ![]⟩
abbrev S1x1600000 : Shape := ⟨2, ![1, 1600000]⟩
abbrev S100000 : Shape := ⟨1, ![100000]⟩
abbrev S1700000 : Shape := ⟨1, ![1700000]⟩
abbrev S1700000x1 : Shape := ⟨2, ![1700000, 1]⟩
abbrev S1700000x128 : Shape := ⟨2, ![1700000, 128]⟩
abbrev S1x128 : Shape := ⟨2, ![1, 128]⟩
abbrev S100000x40 : Shape := ⟨2, ![100000, 40]⟩
abbrev S5000x40 : Shape := ⟨2, ![5000, 40]⟩
abbrev S1700000x40 : Shape := ⟨2, ![1700000, 40]⟩
abbrev S1x40 : Shape := ⟨2, ![1, 40]⟩
abbrev S5000 : Shape := ⟨1, ![5000]⟩
abbrev S5000x1 : Shape := ⟨2, ![5000, 1]⟩

abbrev nBuf : Space → Nat
  | .hbm => 204
  | .vmem => 34
  | .smem => 0
  | _ => 0

abbrev hbmTy0_0 (i : Nat) : BufTy := match i % 128 with
  | 0 => ⟨S100000x256, .f32⟩
  | 1 => ⟨S2x1600000, .i32⟩
  | 2 => ⟨S2x1600000, .i32⟩
  | 3 => ⟨S2x1600000, .i32⟩
  | 4 => ⟨S1600000, .f32⟩
  | 5 => ⟨S1600000, .f32⟩
  | 6 => ⟨S256x128, .f32⟩
  | 7 => ⟨S128, .f32⟩
  | 8 => ⟨S128x128, .f32⟩
  | 9 => ⟨S128, .f32⟩
  | 10 => ⟨S128x40, .f32⟩
  | 11 => ⟨S40, .f32⟩
  | 12 => ⟨S100000x128, .f32⟩
  | 13 => ⟨S_, .f32⟩
  | 14 => ⟨S1600000, .f32⟩
  | 15 => ⟨S1x1600000, .i32⟩
  | 16 => ⟨S1600000, .i32⟩
  | 17 => ⟨S1x1600000, .i32⟩
  | 18 => ⟨S1600000, .i32⟩
  | 19 => ⟨S100000, .i32⟩
  | 20 => ⟨S1700000, .i32⟩
  | 21 => ⟨S1700000, .i32⟩
  | 22 => ⟨S_, .f32⟩
  | 23 => ⟨S100000, .f32⟩
  | 24 => ⟨S1700000, .f32⟩
  | 25 => ⟨S_, .f32⟩
  | 26 => ⟨S100000, .f32⟩
  | 27 => ⟨S1700000x1, .i32⟩
  | 28 => ⟨S100000, .f32⟩
  | 29 => ⟨S_, .f32⟩
  | 30 => ⟨S100000, .f32⟩
  | 31 => ⟨S100000, .i1⟩
  | 32 => ⟨S_, .f32⟩
  | 33 => ⟨S100000, .f32⟩
  | 34 => ⟨S100000, .f32⟩
  | 35 => ⟨S100000, .f32⟩
  | 36 => ⟨S_, .f32⟩
  | 37 => ⟨S_, .f32⟩
  | 38 => ⟨S100000, .f32⟩
  | 39 => ⟨S100000, .f32⟩
  | 40 => ⟨S_, .i32⟩
  | 41 => ⟨S1700000, .i32⟩
  | 42 => ⟨S1700000, .i1⟩
  | 43 => ⟨S_, .i32⟩
  | 44 => ⟨S1700000, .i32⟩
  | 45 => ⟨S1700000, .i32⟩
  | 46 => ⟨S1700000, .i32⟩
  | 47 => ⟨S1700000x1, .i32⟩
  | 48 => ⟨S1700000, .f32⟩
  | 49 => ⟨S1700000, .f32⟩
  | 50 => ⟨S_, .i32⟩
  | 51 => ⟨S1700000, .i32⟩
  | 52 => ⟨S1700000, .i1⟩
  | 53 => ⟨S_, .i32⟩
  | 54 => ⟨S1700000, .i32⟩
  | 55 => ⟨S1700000, .i32⟩
  | 56 => ⟨S1700000, .i32⟩
  | 57 => ⟨S1700000x1, .i32⟩
  | 58 => ⟨S1700000, .f32⟩
  | 59 => ⟨S1700000, .f32⟩
  | 60 => ⟨S1700000x1, .f32⟩
  | 61 => ⟨S_, .i32⟩
  | 62 => ⟨S1700000, .i32⟩
  | 63 => ⟨S1700000, .i1⟩
  | 64 => ⟨S_, .i32⟩
  | 65 => ⟨S1700000, .i32⟩
  | 66 => ⟨S1700000, .i32⟩
  | 67 => ⟨S1700000, .i32⟩
  | 68 => ⟨S1700000x1, .i32⟩
  | 69 => ⟨S1700000x128, .f32⟩
  | 70 => ⟨S1700000x128, .f32⟩
  | 71 => ⟨S1700000x128, .f32⟩
  | 72 => ⟨S_, .f32⟩
  | 73 => ⟨S100000x128, .f32⟩
  | 74 => ⟨S1700000x1, .i32⟩
  | 75 => ⟨S100000x128, .f32⟩
  | 76 => ⟨S100000x128, .f32⟩
  | 77 => ⟨S100000x128, .f32⟩
  | 78 => ⟨S100000x128, .f32⟩
  | 79 => ⟨S1x1600000, .i32⟩
  | 80 => ⟨S1600000, .i32⟩
  | 81 => ⟨S1x1600000, .i32⟩
  | 82 => ⟨S1600000, .i32⟩
  | 83 => ⟨S100000, .i32⟩
  | 84 => ⟨S1700000, .i32⟩
  | 85 => ⟨S1700000, .i32⟩
  | 86 => ⟨S_, .f32⟩
  | 87 => ⟨S100000, .f32⟩
  | 88 => ⟨S1700000, .f32⟩
  | 89 => ⟨S_, .f32⟩
  | 90 => ⟨S100000, .f32⟩
  | 91 => ⟨S1700000x1, .i32⟩
  | 92 => ⟨S100000, .f32⟩
  | 93 => ⟨S_, .f32⟩
  | 94 => ⟨S100000, .f32⟩
  | 95 => ⟨S100000, .i1⟩
  | 96 => ⟨S_, .f32⟩
  | 97 => ⟨S100000, .f32⟩
  | 98 => ⟨S100000, .f32⟩
  | 99 => ⟨S100000, .f32⟩
  | 100 => ⟨S_, .f32⟩
  | 101 => ⟨S_, .f32⟩
  | 102 => ⟨S100000, .f32⟩
  | 103 => ⟨S100000, .f32⟩
  | 104 => ⟨S_, .i32⟩
  | 105 => ⟨S1700000, .i32⟩
  | 106 => ⟨S1700000, .i1⟩
  | 107 => ⟨S_, .i32⟩
  | 108 => ⟨S1700000, .i32⟩
  | 109 => ⟨S1700000, .i32⟩
  | 110 => ⟨S1700000, .i32⟩
  | 111 => ⟨S1700000x1, .i32⟩
  | 112 => ⟨S1700000, .f32⟩
  | 113 => ⟨S1700000, .f32⟩
  | 114 => ⟨S_, .i32⟩
  | 115 => ⟨S1700000, .i32⟩
  | 116 => ⟨S1700000, .i1⟩
  | 117 => ⟨S_, .i32⟩
  | 118 => ⟨S1700000, .i32⟩
  | 119 => ⟨S1700000, .i32⟩
  | 120 => ⟨S1700000, .i32⟩
  | 121 => ⟨S1700000x1, .i32⟩
  | 122 => ⟨S1700000, .f32⟩
  | 123 => ⟨S1700000, .f32⟩
  | 124 => ⟨S1700000x1, .f32⟩
  | 125 => ⟨S_, .i32⟩
  | 126 => ⟨S1700000, .i32⟩
  | 127 => ⟨S1700000, .i1⟩
  | _ => ⟨S100000x256, .f32⟩

abbrev hbmTy0_1 (i : Nat) : BufTy := match i % 128 with
  | 0 => ⟨S_, .i32⟩
  | 1 => ⟨S1700000, .i32⟩
  | 2 => ⟨S1700000, .i32⟩
  | 3 => ⟨S1700000, .i32⟩
  | 4 => ⟨S1700000x1, .i32⟩
  | 5 => ⟨S1700000x128, .f32⟩
  | 6 => ⟨S1700000x128, .f32⟩
  | 7 => ⟨S1700000x128, .f32⟩
  | 8 => ⟨S_, .f32⟩
  | 9 => ⟨S100000x128, .f32⟩
  | 10 => ⟨S1700000x1, .i32⟩
  | 11 => ⟨S100000x128, .f32⟩
  | 12 => ⟨S100000x128, .f32⟩
  | 13 => ⟨S100000x40, .f32⟩
  | 14 => ⟨S1x1600000, .i32⟩
  | 15 => ⟨S1600000, .i32⟩
  | 16 => ⟨S1x1600000, .i32⟩
  | 17 => ⟨S1600000, .i32⟩
  | 18 => ⟨S100000, .i32⟩
  | 19 => ⟨S1700000, .i32⟩
  | 20 => ⟨S1700000, .i32⟩
  | 21 => ⟨S_, .f32⟩
  | 22 => ⟨S100000, .f32⟩
  | 23 => ⟨S1700000, .f32⟩
  | 24 => ⟨S_, .f32⟩
  | 25 => ⟨S100000, .f32⟩
  | 26 => ⟨S1700000x1, .i32⟩
  | 27 => ⟨S100000, .f32⟩
  | 28 => ⟨S_, .f32⟩
  | 29 => ⟨S100000, .f32⟩
  | 30 => ⟨S100000, .i1⟩
  | 31 => ⟨S_, .f32⟩
  | 32 => ⟨S100000, .f32⟩
  | 33 => ⟨S100000, .f32⟩
  | 34 => ⟨S100000, .f32⟩
  | 35 => ⟨S_, .f32⟩
  | 36 => ⟨S_, .f32⟩
  | 37 => ⟨S100000, .f32⟩
  | 38 => ⟨S100000, .f32⟩
  | 39 => ⟨S_, .i32⟩
  | 40 => ⟨S1700000, .i32⟩
  | 41 => ⟨S1700000, .i1⟩
  | 42 => ⟨S_, .i32⟩
  | 43 => ⟨S1700000, .i32⟩
  | 44 => ⟨S1700000, .i32⟩
  | 45 => ⟨S1700000, .i32⟩
  | 46 => ⟨S1700000x1, .i32⟩
  | 47 => ⟨S1700000, .f32⟩
  | 48 => ⟨S1700000, .f32⟩
  | 49 => ⟨S_, .i32⟩
  | 50 => ⟨S1700000, .i32⟩
  | 51 => ⟨S1700000, .i1⟩
  | 52 => ⟨S_, .i32⟩
  | 53 => ⟨S1700000, .i32⟩
  | 54 => ⟨S1700000, .i32⟩
  | 55 => ⟨S1700000, .i32⟩
  | 56 => ⟨S1700000x1, .i32⟩
  | 57 => ⟨S1700000, .f32⟩
  | 58 => ⟨S1700000, .f32⟩
  | 59 => ⟨S1700000x1, .f32⟩
  | 60 => ⟨S_, .i32⟩
  | 61 => ⟨S1700000, .i32⟩
  | 62 => ⟨S1700000, .i1⟩
  | 63 => ⟨S_, .i32⟩
  | 64 => ⟨S1700000, .i32⟩
  | 65 => ⟨S1700000, .i32⟩
  | 66 => ⟨S1700000, .i32⟩
  | 67 => ⟨S1700000x1, .i32⟩
  | 68 => ⟨S1700000x40, .f32⟩
  | 69 => ⟨S1700000x40, .f32⟩
  | 70 => ⟨S1700000x40, .f32⟩
  | 71 => ⟨S_, .f32⟩
  | 72 => ⟨S100000x40, .f32⟩
  | 73 => ⟨S1700000x1, .i32⟩
  | 74 => ⟨S100000x40, .f32⟩
  | 75 => ⟨S100000x40, .f32⟩
  | _ => ⟨S100000x256, .f32⟩

abbrev hbmTy (i : Nat) : BufTy := match i / 128 with
  | 0 => hbmTy0_0 i
  | 1 => hbmTy0_1 i
  | _ => ⟨S100000x256, .f32⟩

abbrev bufTy : (tb : Table) → Fin (tcTables nBuf tb) → BufTy
  | .hbm, ⟨i, _⟩ => hbmTy i
  | .local _ .vmem, ⟨0, _⟩ => ⟨S5000x256, .f32⟩
  | .local _ .vmem, ⟨1, _⟩ => ⟨S5000x256, .f32⟩
  | .local _ .vmem, ⟨2, _⟩ => ⟨S256x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S128x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S5000x128, .f32⟩
  | .local _ .vmem, ⟨25, _⟩ => ⟨S5000x128, .f32⟩
  | .local _ .vmem, ⟨26, _⟩ => ⟨S128x40, .f32⟩
  | .local _ .vmem, ⟨27, _⟩ => ⟨S5000x40, .f32⟩
  | .local _ .vmem, ⟨28, _⟩ => ⟨S5000x40, .f32⟩
  | .local _ .vmem, ⟨29, _⟩ => ⟨S5000x40, .f32⟩
  | .local _ .vmem, ⟨30, _⟩ => ⟨S5000x40, .f32⟩
  | .local _ .vmem, ⟨31, _⟩ => ⟨S40, .f32⟩
  | .local _ .vmem, ⟨32, _⟩ => ⟨S5000x40, .f32⟩
  | .local _ .vmem, ⟨33, _⟩ => ⟨S5000x40, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_cst : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_cst_0 : Ref sig .tc := ⟨.hbm, 22, rfl⟩
abbrev main_v9 : Ref sig .tc := ⟨.hbm, 23, rfl⟩
abbrev main_v10 : Ref sig .tc := ⟨.hbm, 24, rfl⟩
abbrev main_cst_1 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_2 : Ref sig .tc := ⟨.hbm, 29, rfl⟩
abbrev main_v14 : Ref sig .tc := ⟨.hbm, 30, rfl⟩
abbrev main_v15 : Ref sig .tc := ⟨.hbm, 31, rfl⟩
abbrev main_cst_3 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_cst_4 : Ref sig .tc := ⟨.hbm, 36, rfl⟩
abbrev main_call0_v0 : Ref sig .tc := ⟨.hbm, 37, rfl⟩
abbrev main_call0_v1 : Ref sig .tc := ⟨.hbm, 38, rfl⟩
abbrev main_v19 : Ref sig .tc := ⟨.hbm, 39, rfl⟩
abbrev main_c : Ref sig .tc := ⟨.hbm, 40, rfl⟩
abbrev main_v20 : Ref sig .tc := ⟨.hbm, 41, rfl⟩
abbrev main_v21 : Ref sig .tc := ⟨.hbm, 42, rfl⟩
abbrev main_c_5 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_c_6 : Ref sig .tc := ⟨.hbm, 50, rfl⟩
abbrev main_v28 : Ref sig .tc := ⟨.hbm, 51, rfl⟩
abbrev main_v29 : Ref sig .tc := ⟨.hbm, 52, rfl⟩
abbrev main_c_7 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_c_8 : Ref sig .tc := ⟨.hbm, 61, rfl⟩
abbrev main_v37 : Ref sig .tc := ⟨.hbm, 62, rfl⟩
abbrev main_v38 : Ref sig .tc := ⟨.hbm, 63, rfl⟩
abbrev main_c_9 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_cst_10 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49_0 : Ref sig .tc := ⟨.hbm, 76, rfl⟩
abbrev main_v49_1 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_cst_11 : Ref sig .tc := ⟨.hbm, 86, rfl⟩
abbrev main_v58 : Ref sig .tc := ⟨.hbm, 87, rfl⟩
abbrev main_v59 : Ref sig .tc := ⟨.hbm, 88, rfl⟩
abbrev main_cst_12 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_cst_13 : Ref sig .tc := ⟨.hbm, 93, rfl⟩
abbrev main_v63 : Ref sig .tc := ⟨.hbm, 94, rfl⟩
abbrev main_v64 : Ref sig .tc := ⟨.hbm, 95, rfl⟩
abbrev main_cst_14 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_cst_15 : Ref sig .tc := ⟨.hbm, 100, rfl⟩
abbrev main_call1_v0 : Ref sig .tc := ⟨.hbm, 101, rfl⟩
abbrev main_call1_v1 : Ref sig .tc := ⟨.hbm, 102, rfl⟩
abbrev main_v68 : Ref sig .tc := ⟨.hbm, 103, rfl⟩
abbrev main_c_16 : Ref sig .tc := ⟨.hbm, 104, rfl⟩
abbrev main_v69 : Ref sig .tc := ⟨.hbm, 105, rfl⟩
abbrev main_v70 : Ref sig .tc := ⟨.hbm, 106, rfl⟩
abbrev main_c_17 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_c_18 : Ref sig .tc := ⟨.hbm, 114, rfl⟩
abbrev main_v77 : Ref sig .tc := ⟨.hbm, 115, rfl⟩
abbrev main_v78 : Ref sig .tc := ⟨.hbm, 116, rfl⟩
abbrev main_c_19 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_c_20 : Ref sig .tc := ⟨.hbm, 125, rfl⟩
abbrev main_v86 : Ref sig .tc := ⟨.hbm, 126, rfl⟩
abbrev main_v87 : Ref sig .tc := ⟨.hbm, 127, rfl⟩
abbrev main_c_21 : Ref sig .tc := ⟨.hbm, 128, rfl⟩
abbrev main_v88 : Ref sig .tc := ⟨.hbm, 129, rfl⟩
abbrev main_v89 : Ref sig .tc := ⟨.hbm, 130, rfl⟩
abbrev main_v90 : Ref sig .tc := ⟨.hbm, 131, rfl⟩
abbrev main_v91 : Ref sig .tc := ⟨.hbm, 132, rfl⟩
abbrev main_v92 : Ref sig .tc := ⟨.hbm, 133, rfl⟩
abbrev main_v93 : Ref sig .tc := ⟨.hbm, 134, rfl⟩
abbrev main_v94 : Ref sig .tc := ⟨.hbm, 135, rfl⟩
abbrev main_cst_22 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩
abbrev main_v100 : Ref sig .tc := ⟨.hbm, 142, rfl⟩
abbrev main_v101 : Ref sig .tc := ⟨.hbm, 143, rfl⟩
abbrev main_v102 : Ref sig .tc := ⟨.hbm, 144, rfl⟩
abbrev main_v103 : Ref sig .tc := ⟨.hbm, 145, rfl⟩
abbrev main_v104 : Ref sig .tc := ⟨.hbm, 146, rfl⟩
abbrev main_v105 : Ref sig .tc := ⟨.hbm, 147, rfl⟩
abbrev main_v106 : Ref sig .tc := ⟨.hbm, 148, rfl⟩
abbrev main_cst_23 : Ref sig .tc := ⟨.hbm, 149, rfl⟩
abbrev main_v107 : Ref sig .tc := ⟨.hbm, 150, rfl⟩
abbrev main_v108 : Ref sig .tc := ⟨.hbm, 151, rfl⟩
abbrev main_cst_24 : Ref sig .tc := ⟨.hbm, 152, rfl⟩
abbrev main_v109 : Ref sig .tc := ⟨.hbm, 153, rfl⟩
abbrev main_v110 : Ref sig .tc := ⟨.hbm, 154, rfl⟩
abbrev main_v111 : Ref sig .tc := ⟨.hbm, 155, rfl⟩
abbrev main_cst_25 : Ref sig .tc := ⟨.hbm, 156, rfl⟩
abbrev main_v112 : Ref sig .tc := ⟨.hbm, 157, rfl⟩
abbrev main_v113 : Ref sig .tc := ⟨.hbm, 158, rfl⟩
abbrev main_cst_26 : Ref sig .tc := ⟨.hbm, 159, rfl⟩
abbrev main_v114 : Ref sig .tc := ⟨.hbm, 160, rfl⟩
abbrev main_v115 : Ref sig .tc := ⟨.hbm, 161, rfl⟩
abbrev main_v116 : Ref sig .tc := ⟨.hbm, 162, rfl⟩
abbrev main_cst_27 : Ref sig .tc := ⟨.hbm, 163, rfl⟩
abbrev main_call2_v0 : Ref sig .tc := ⟨.hbm, 164, rfl⟩
abbrev main_call2_v1 : Ref sig .tc := ⟨.hbm, 165, rfl⟩
abbrev main_v117 : Ref sig .tc := ⟨.hbm, 166, rfl⟩
abbrev main_c_28 : Ref sig .tc := ⟨.hbm, 167, rfl⟩
abbrev main_v118 : Ref sig .tc := ⟨.hbm, 168, rfl⟩
abbrev main_v119 : Ref sig .tc := ⟨.hbm, 169, rfl⟩
abbrev main_c_29 : Ref sig .tc := ⟨.hbm, 170, rfl⟩
abbrev main_v120 : Ref sig .tc := ⟨.hbm, 171, rfl⟩
abbrev main_v121 : Ref sig .tc := ⟨.hbm, 172, rfl⟩
abbrev main_v122 : Ref sig .tc := ⟨.hbm, 173, rfl⟩
abbrev main_v123 : Ref sig .tc := ⟨.hbm, 174, rfl⟩
abbrev main_v124 : Ref sig .tc := ⟨.hbm, 175, rfl⟩
abbrev main_v125 : Ref sig .tc := ⟨.hbm, 176, rfl⟩
abbrev main_c_30 : Ref sig .tc := ⟨.hbm, 177, rfl⟩
abbrev main_v126 : Ref sig .tc := ⟨.hbm, 178, rfl⟩
abbrev main_v127 : Ref sig .tc := ⟨.hbm, 179, rfl⟩
abbrev main_c_31 : Ref sig .tc := ⟨.hbm, 180, rfl⟩
abbrev main_v128 : Ref sig .tc := ⟨.hbm, 181, rfl⟩
abbrev main_v129 : Ref sig .tc := ⟨.hbm, 182, rfl⟩
abbrev main_v130 : Ref sig .tc := ⟨.hbm, 183, rfl⟩
abbrev main_v131 : Ref sig .tc := ⟨.hbm, 184, rfl⟩
abbrev main_v132 : Ref sig .tc := ⟨.hbm, 185, rfl⟩
abbrev main_v133 : Ref sig .tc := ⟨.hbm, 186, rfl⟩
abbrev main_v134 : Ref sig .tc := ⟨.hbm, 187, rfl⟩
abbrev main_c_32 : Ref sig .tc := ⟨.hbm, 188, rfl⟩
abbrev main_v135 : Ref sig .tc := ⟨.hbm, 189, rfl⟩
abbrev main_v136 : Ref sig .tc := ⟨.hbm, 190, rfl⟩
abbrev main_c_33 : Ref sig .tc := ⟨.hbm, 191, rfl⟩
abbrev main_v137 : Ref sig .tc := ⟨.hbm, 192, rfl⟩
abbrev main_v138 : Ref sig .tc := ⟨.hbm, 193, rfl⟩
abbrev main_v139 : Ref sig .tc := ⟨.hbm, 194, rfl⟩
abbrev main_v140 : Ref sig .tc := ⟨.hbm, 195, rfl⟩
abbrev main_v141 : Ref sig .tc := ⟨.hbm, 196, rfl⟩
abbrev main_v142 : Ref sig .tc := ⟨.hbm, 197, rfl⟩
abbrev main_v143 : Ref sig .tc := ⟨.hbm, 198, rfl⟩
abbrev main_cst_34 : Ref sig .tc := ⟨.hbm, 199, rfl⟩
abbrev main_v144 : Ref sig .tc := ⟨.hbm, 200, rfl⟩
abbrev main_v145 : Ref sig .tc := ⟨.hbm, 201, rfl⟩
abbrev main_v146 : Ref sig .tc := ⟨.hbm, 202, rfl⟩
abbrev main_v147 : Ref sig .tc := ⟨.hbm, 203, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg2_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg2_0 : Ref sig .tc := ⟨.vmem, 20, rfl⟩
abbrev cc3_stg2_1 : Ref sig .tc := ⟨.vmem, 21, rfl⟩
abbrev cc3_stg3_0 : Ref sig .tc := ⟨.vmem, 22, rfl⟩
abbrev cc3_stg3_1 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg2_0 : Ref sig .tc := ⟨.vmem, 27, rfl⟩
abbrev cc4_stg2_1 : Ref sig .tc := ⟨.vmem, 28, rfl⟩
abbrev cc5_stg0_0 : Ref sig .tc := ⟨.vmem, 29, rfl⟩
abbrev cc5_stg0_1 : Ref sig .tc := ⟨.vmem, 30, rfl⟩
abbrev cc5_stg1_0 : Ref sig .tc := ⟨.vmem, 31, rfl⟩
abbrev cc5_stg2_0 : Ref sig .tc := ⟨.vmem, 32, rfl⟩
abbrev cc5_stg2_1 : Ref sig .tc := ⟨.vmem, 33, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem2_1 : DmaSem sig := 16
abbrev cc3_sem0_0 : DmaSem sig := 17
abbrev cc3_sem0_1 : DmaSem sig := 18
abbrev cc3_sem1_0 : DmaSem sig := 19
abbrev cc3_sem2_0 : DmaSem sig := 20
abbrev cc3_sem2_1 : DmaSem sig := 21
abbrev cc3_sem3_0 : DmaSem sig := 22
abbrev cc3_sem3_1 : DmaSem sig := 23
abbrev cc4_sem0_0 : DmaSem sig := 24
abbrev cc4_sem0_1 : DmaSem sig := 25
abbrev cc4_sem1_0 : DmaSem sig := 26
abbrev cc4_sem2_0 : DmaSem sig := 27
abbrev cc4_sem2_1 : DmaSem sig := 28
abbrev cc5_sem0_0 : DmaSem sig := 29
abbrev cc5_sem0_1 : DmaSem sig := 30
abbrev cc5_sem1_0 : DmaSem sig := 31
abbrev cc5_sem2_0 : DmaSem sig := 32
abbrev cc5_sem2_1 : DmaSem sig := 33

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S5000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x40 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x40 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x40 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S40 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S5000x40 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

class Facts₀ : Prop where
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S5000x128_S5000x128_0_0 : ∀ a, (![0, 0] : Fin 2 → Nat) a + S5000x128.size a ≤ S5000x128.size a
  h_S5000x128 : 0 < S5000x128.numel
  bcast_S_S1600000 : S_.BroadcastsInDim S1600000 (![] : Fin 0 → Fin S1600000.rank)
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S1700000 : S_.BroadcastsInDim S1700000 (![] : Fin 0 → Fin S1700000.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S5000x128_S5000x128 : S5000x128.ShapeCasts S5000x128
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  inb_S128x128_S128x128_0_0 : ∀ a, (![0, 0] : Fin 2 → Nat) a + S128x128.size a ≤ S128x128.size a
  h_S128x128 : 0 < S128x128.numel
  inb_S128x40_S128x40_0_0 : ∀ a, (![0, 0] : Fin 2 → Nat) a + S128x40.size a ≤ S128x40.size a
  h_S128x40 : 0 < S128x40.numel
  inb_S5000x40_S5000x40_0_0 : ∀ a, (![0, 0] : Fin 2 → Nat) a + S5000x40.size a ≤ S5000x40.size a
  h_S5000x40 : 0 < S5000x40.numel
  bcast_S1700000x1_S1700000x40_0_1 : S1700000x1.BroadcastsInDim S1700000x40 (![0, 1] : Fin 2 → Fin S1700000x40.rank)
  bcast_S_S100000x40 : S_.BroadcastsInDim S100000x40 (![] : Fin 0 → Fin S100000x40.rank)
  shapeCasts_S5000x40_S5000x40 : S5000x40.ShapeCasts S5000x40
  inb_S40_S40_0 : ∀ a, (![0] : Fin 1 → Nat) a + S40.size a ≤ S40.size a
  h_S40 : 0 < S40.numel
  shapeCasts_S40_S1x40 : S40.ShapeCasts S1x40
  broadcasts_S1x40_S5000x40 : S1x40.Broadcasts S5000x40
  reduces_S5000x40_S5000 : S5000x40.Reduces [1] S5000
  shapeCasts_S5000_S5000x1 : S5000.ShapeCasts S5000x1
  broadcasts_S5000x1_S5000x40 : S5000x1.Broadcasts S5000x40
  dot_S5000x256_S256x128_S5000x128_1_0_0_1_n_n_wf : DotDims.WF S5000x256 S256x128 S5000x128 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S5000x128_S128x128_S5000x128_1_0_0_1_n_n_wf : DotDims.WF S5000x128 S128x128 S5000x128 [1] [0] [0] [1] [] []
  dot_S5000x128_S128x40_S5000x40_1_0_0_1_n_n_wf : DotDims.WF S5000x128 S128x40 S5000x40 [1] [0] [0] [1] [] []
  gather_S100000x40_S1700000x1_S1700000x40_1_0_n_n_0_1_140_wf : GatherDims.WF S100000x40 S1700000x1 S1700000x40 [1] [0] [] [0] [] 1 ![1, 40]
  scatter_S100000x40_S1700000x1_S1700000x40_1_0_0_1_wf : ScatterDims.WF S100000x40 S1700000x1 S1700000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S100000x256.size a
  hwx0_0 : ∀ i : grid0.Coords, EltTy.bits .f32 = 32 ∨ (Rect.block (s := S100000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128.size a ≤ S128.size a
  hwx1_1 : ∀ i : grid1.Coords, EltTy.bits .f32 = 32 ∨ (Rect.block (s := S128) S128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S100000x128.size a
  hwx1_2 : ∀ i : grid1.Coords, EltTy.bits .f32 = 32 ∨ (Rect.block (s := S100000x128) S5000x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S100000x128.size a
  hwx1_3 : ∀ i : grid1.Coords, EltTy.bits .f32 = 32 ∨ (Rect.block (s := S100000x128) S5000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S100000x128.size a
  hwx2_2 : ∀ i : grid2.Coords, EltTy.bits .f32 = 32 ∨ (Rect.block (s := S100000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128.size a ≤ S128.size a
  hwx3_1 : ∀ i : grid3.Coords, EltTy.bits .f32 = 32 ∨ (Rect.block (s := S128) S128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S100000x128.size a
  hwx3_2 : ∀ i : grid3.Coords, EltTy.bits .f32 = 32 ∨ (Rect.block (s := S100000x128) S5000x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x128.size a ≤ S100000x128.size a
  hwx3_3 : ∀ i : grid3.Coords, EltTy.bits .f32 = 32 ∨ (Rect.block (s := S100000x128) S5000x128.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x40.size a ≤ S128x40.size a
  hwx4_1 : ∀ i : grid4.Coords, EltTy.bits .f32 = 32 ∨ (Rect.block (s := S128x40) S128x40.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x40.size a ≤ S100000x40.size a
  hwx4_2 : ∀ i : grid4.Coords, EltTy.bits .f32 = 32 ∨ (Rect.block (s := S100000x40) S5000x40.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x40.size a ≤ S100000x40.size a
  hwx5_0 : ∀ i : grid5.Coords, EltTy.bits .f32 = 32 ∨ (Rect.block (s := S100000x40) S5000x40.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S40.size a ≤ S40.size a
  hwx5_1 : ∀ i : grid5.Coords, EltTy.bits .f32 = 32 ∨ (Rect.block (s := S40) S40.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x40.size a ≤ S100000x40.size a
  hwx5_2 : ∀ i : grid5.Coords, EltTy.bits .f32 = 32 ∨ (Rect.block (s := S100000x40) S5000x40.size (cc5_transform_2 i) (hinb5_2 i)).WholeWords (EltTy.packing .f32)

variable [Facts₀]

def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x40_S5000x40_1_0_0_1_n_n : DotDims S5000x128 S128x40 S5000x40 where
  lhsContracting := [1]
  rhsContracting := [0]
  lhsNonContracting := [0]
  rhsNonContracting := [1]
  lhsBatch := []
  rhsBatch := []
  wf := dot_S5000x128_S128x40_S5000x40_1_0_0_1_n_n_wf
def gather_S100000x40_S1700000x1_S1700000x40_1_0_n_n_0_1_140 : GatherDims S100000x40 S1700000x1 S1700000x40 where
  offsetDims := [1]
  collapsedSliceDims := [0]
  operandBatchingDims := []
  startIndicesBatchingDims := []
  startIndexMap := [0]
  indexVectorDim := 1
  sliceSizes := ![1, 40]
  wf := gather_S100000x40_S1700000x1_S1700000x40_1_0_n_n_0_1_140_wf
def scatter_S100000x40_S1700000x1_S1700000x40_1_0_0_1 : ScatterDims S100000x40 S1700000x1 S1700000x40 where
  updateWindowDims := [1]
  insertedWindowDims := [0]
  scatterDimsToOperandDims := [0]
  indexVectorDim := 1
  wf := scatter_S100000x40_S1700000x1_S1700000x40_1_0_0_1_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg6) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v48) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg7) S128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v49_0) S5000x128.size cc1_transform_2 reads1_2 true false 2 stage1_2 sem1_2
    hrank1 hreads1_2 hinb1_2 nbuf1_2 (Memref.isWhole_whole _) hwx1_2 hstage1_2

abbrev win1_3 : Pipeline.Window sig grid1 :=
  Pipeline.Window.ofSpec (Memref.whole main_v49_1) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v49_1) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg8) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v50) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v97) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg9) S128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v49_0) S5000x128.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v98) S5000x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v98) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg10) S128x40.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v99) S5000x40.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v146) S5000x40.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_arg11) S40.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v147) S5000x40.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

class Facts : Prop extends Facts₀ where

variable [Facts]
-- ==== ReferenceIdeal.lean ====
abbrev S100000x256 : Shape := ⟨2, ![100000, 256]⟩
abbrev S2x1600000 : Shape := ⟨2, ![2, 1600000]⟩
abbrev S1600000 : Shape := ⟨1, ![1600000]⟩
abbrev S256x128 : Shape := ⟨2, ![256, 128]⟩
abbrev S128 : Shape := ⟨1, ![128]⟩
abbrev S128x128 : Shape := ⟨2, ![128, 128]⟩
abbrev S128x40 : Shape := ⟨2, ![128, 40]⟩
abbrev S40 : Shape := ⟨1, ![40]⟩
abbrev S_ : Shape := ⟨0, ![]⟩
abbrev S100000x128 : Shape := ⟨2, ![100000, 128]⟩
abbrev S1x1600000 : Shape := ⟨2, ![1, 1600000]⟩
abbrev S100000 : Shape := ⟨1, ![100000]⟩
abbrev S1700000 : Shape := ⟨1, ![1700000]⟩
abbrev S1700000x1 : Shape := ⟨2, ![1700000, 1]⟩
abbrev S1700000x128 : Shape := ⟨2, ![1700000, 128]⟩
abbrev S1x128 : Shape := ⟨2, ![1, 128]⟩
abbrev S100000x40 : Shape := ⟨2, ![100000, 40]⟩
abbrev S1700000x40 : Shape := ⟨2, ![1700000, 40]⟩
abbrev S1x40 : Shape := ⟨2, ![1, 40]⟩
abbrev S100000x1 : Shape := ⟨2, ![100000, 1]⟩

abbrev nBuf : Space → Nat
  | .hbm => 237
  | .vmem => 0
  | .smem => 0
  | _ => 0

abbrev hbmTy0_0 (i : Nat) : BufTy := match i % 128 with
  | 0 => ⟨S100000x256, .f32⟩
  | 1 => ⟨S2x1600000, .i32⟩
  | 2 => ⟨S2x1600000, .i32⟩
  | 3 => ⟨S2x1600000, .i32⟩
  | 4 => ⟨S1600000, .f32⟩
  | 5 => ⟨S1600000, .f32⟩
  | 6 => ⟨S256x128, .f32⟩
  | 7 => ⟨S128, .f32⟩
  | 8 => ⟨S128x128, .f32⟩
  | 9 => ⟨S128, .f32⟩
  | 10 => ⟨S128x40, .f32⟩
  | 11 => ⟨S40, .f32⟩
  | 12 => ⟨S_, .f32⟩
  | 13 => ⟨S1600000, .f32⟩
  | 14 => ⟨S100000x128, .f32⟩
  | 15 => ⟨S1x1600000, .i32⟩
  | 16 => ⟨S1600000, .i32⟩
  | 17 => ⟨S1x1600000, .i32⟩
  | 18 => ⟨S1600000, .i32⟩
  | 19 => ⟨S100000, .i32⟩
  | 20 => ⟨S1700000, .i32⟩
  | 21 => ⟨S1700000, .i32⟩
  | 22 => ⟨S_, .f32⟩
  | 23 => ⟨S100000, .f32⟩
  | 24 => ⟨S1700000, .f32⟩
  | 25 => ⟨S_, .f32⟩
  | 26 => ⟨S100000, .f32⟩
  | 27 => ⟨S1700000x1, .i32⟩
  | 28 => ⟨S100000, .f32⟩
  | 29 => ⟨S_, .f32⟩
  | 30 => ⟨S100000, .f32⟩
  | 31 => ⟨S100000, .i1⟩
  | 32 => ⟨S_, .f32⟩
  | 33 => ⟨S100000, .f32⟩
  | 34 => ⟨S100000, .f32⟩
  | 35 => ⟨S100000, .f32⟩
  | 36 => ⟨S_, .f32⟩
  | 37 => ⟨S_, .f32⟩
  | 38 => ⟨S100000, .f32⟩
  | 39 => ⟨S100000, .f32⟩
  | 40 => ⟨S_, .i32⟩
  | 41 => ⟨S1700000, .i32⟩
  | 42 => ⟨S1700000, .i1⟩
  | 43 => ⟨S_, .i32⟩
  | 44 => ⟨S1700000, .i32⟩
  | 45 => ⟨S1700000, .i32⟩
  | 46 => ⟨S1700000, .i32⟩
  | 47 => ⟨S1700000x1, .i32⟩
  | 48 => ⟨S1700000, .f32⟩
  | 49 => ⟨S1700000, .f32⟩
  | 50 => ⟨S_, .i32⟩
  | 51 => ⟨S1700000, .i32⟩
  | 52 => ⟨S1700000, .i1⟩
  | 53 => ⟨S_, .i32⟩
  | 54 => ⟨S1700000, .i32⟩
  | 55 => ⟨S1700000, .i32⟩
  | 56 => ⟨S1700000, .i32⟩
  | 57 => ⟨S1700000x1, .i32⟩
  | 58 => ⟨S1700000, .f32⟩
  | 59 => ⟨S1700000, .f32⟩
  | 60 => ⟨S1700000x1, .f32⟩
  | 61 => ⟨S_, .i32⟩
  | 62 => ⟨S1700000, .i32⟩
  | 63 => ⟨S1700000, .i1⟩
  | 64 => ⟨S_, .i32⟩
  | 65 => ⟨S1700000, .i32⟩
  | 66 => ⟨S1700000, .i32⟩
  | 67 => ⟨S1700000, .i32⟩
  | 68 => ⟨S1700000x1, .i32⟩
  | 69 => ⟨S1700000x128, .f32⟩
  | 70 => ⟨S1700000x128, .f32⟩
  | 71 => ⟨S1700000x128, .f32⟩
  | 72 => ⟨S_, .f32⟩
  | 73 => ⟨S100000x128, .f32⟩
  | 74 => ⟨S1700000x1, .i32⟩
  | 75 => ⟨S100000x128, .f32⟩
  | 76 => ⟨S1x128, .f32⟩
  | 77 => ⟨S100000x128, .f32⟩
  | 78 => ⟨S100000x128, .f32⟩
  | 79 => ⟨S_, .f32⟩
  | 80 => ⟨S100000x128, .f32⟩
  | 81 => ⟨S100000x128, .f32⟩
  | 82 => ⟨S100000x128, .f32⟩
  | 83 => ⟨S1x1600000, .i32⟩
  | 84 => ⟨S1600000, .i32⟩
  | 85 => ⟨S1x1600000, .i32⟩
  | 86 => ⟨S1600000, .i32⟩
  | 87 => ⟨S100000, .i32⟩
  | 88 => ⟨S1700000, .i32⟩
  | 89 => ⟨S1700000, .i32⟩
  | 90 => ⟨S_, .f32⟩
  | 91 => ⟨S100000, .f32⟩
  | 92 => ⟨S1700000, .f32⟩
  | 93 => ⟨S_, .f32⟩
  | 94 => ⟨S100000, .f32⟩
  | 95 => ⟨S1700000x1, .i32⟩
  | 96 => ⟨S100000, .f32⟩
  | 97 => ⟨S_, .f32⟩
  | 98 => ⟨S100000, .f32⟩
  | 99 => ⟨S100000, .i1⟩
  | 100 => ⟨S_, .f32⟩
  | 101 => ⟨S100000, .f32⟩
  | 102 => ⟨S100000, .f32⟩
  | 103 => ⟨S100000, .f32⟩
  | 104 => ⟨S_, .f32⟩
  | 105 => ⟨S_, .f32⟩
  | 106 => ⟨S100000, .f32⟩
  | 107 => ⟨S100000, .f32⟩
  | 108 => ⟨S_, .i32⟩
  | 109 => ⟨S1700000, .i32⟩
  | 110 => ⟨S1700000, .i1⟩
  | 111 => ⟨S_, .i32⟩
  | 112 => ⟨S1700000, .i32⟩
  | 113 => ⟨S1700000, .i32⟩
  | 114 => ⟨S1700000, .i32⟩
  | 115 => ⟨S1700000x1, .i32⟩
  | 116 => ⟨S1700000, .f32⟩
  | 117 => ⟨S1700000, .f32⟩
  | 118 => ⟨S_, .i32⟩
  | 119 => ⟨S1700000, .i32⟩
  | 120 => ⟨S1700000, .i1⟩
  | 121 => ⟨S_, .i32⟩
  | 122 => ⟨S1700000, .i32⟩
  | 123 => ⟨S1700000, .i32⟩
  | 124 => ⟨S1700000, .i32⟩
  | 125 => ⟨S1700000x1, .i32⟩
  | 126 => ⟨S1700000, .f32⟩
  | 127 => ⟨S1700000, .f32⟩
  | _ => ⟨S100000x256, .f32⟩

abbrev hbmTy0_1 (i : Nat) : BufTy := match i % 128 with
  | 0 => ⟨S1700000x1, .f32⟩
  | 1 => ⟨S_, .i32⟩
  | 2 => ⟨S1700000, .i32⟩
  | 3 => ⟨S1700000, .i1⟩
  | 4 => ⟨S_, .i32⟩
  | 5 => ⟨S1700000, .i32⟩
  | 6 => ⟨S1700000, .i32⟩
  | 7 => ⟨S1700000, .i32⟩
  | 8 => ⟨S1700000x1, .i32⟩
  | 9 => ⟨S1700000x128, .f32⟩
  | 10 => ⟨S1700000x128, .f32⟩
  | 11 => ⟨S1700000x128, .f32⟩
  | 12 => ⟨S_, .f32⟩
  | 13 => ⟨S100000x128, .f32⟩
  | 14 => ⟨S1700000x1, .i32⟩
  | 15 => ⟨S100000x128, .f32⟩
  | 16 => ⟨S1x128, .f32⟩
  | 17 => ⟨S100000x128, .f32⟩
  | 18 => ⟨S100000x128, .f32⟩
  | 19 => ⟨S_, .f32⟩
  | 20 => ⟨S100000x128, .f32⟩
  | 21 => ⟨S100000x128, .f32⟩
  | 22 => ⟨S_, .f32⟩
  | 23 => ⟨S100000x128, .f32⟩
  | 24 => ⟨S100000x128, .f32⟩
  | 25 => ⟨S100000x128, .f32⟩
  | 26 => ⟨S_, .f32⟩
  | 27 => ⟨S100000x128, .f32⟩
  | 28 => ⟨S100000x128, .f32⟩
  | 29 => ⟨S100000x40, .f32⟩
  | 30 => ⟨S1x1600000, .i32⟩
  | 31 => ⟨S1600000, .i32⟩
  | 32 => ⟨S1x1600000, .i32⟩
  | 33 => ⟨S1600000, .i32⟩
  | 34 => ⟨S100000, .i32⟩
  | 35 => ⟨S1700000, .i32⟩
  | 36 => ⟨S1700000, .i32⟩
  | 37 => ⟨S_, .f32⟩
  | 38 => ⟨S100000, .f32⟩
  | 39 => ⟨S1700000, .f32⟩
  | 40 => ⟨S_, .f32⟩
  | 41 => ⟨S100000, .f32⟩
  | 42 => ⟨S1700000x1, .i32⟩
  | 43 => ⟨S100000, .f32⟩
  | 44 => ⟨S_, .f32⟩
  | 45 => ⟨S100000, .f32⟩
  | 46 => ⟨S100000, .i1⟩
  | 47 => ⟨S_, .f32⟩
  | 48 => ⟨S100000, .f32⟩
  | 49 => ⟨S100000, .f32⟩
  | 50 => ⟨S100000, .f32⟩
  | 51 => ⟨S_, .f32⟩
  | 52 => ⟨S_, .f32⟩
  | 53 => ⟨S100000, .f32⟩
  | 54 => ⟨S100000, .f32⟩
  | 55 => ⟨S_, .i32⟩
  | 56 => ⟨S1700000, .i32⟩
  | 57 => ⟨S1700000, .i1⟩
  | 58 => ⟨S_, .i32⟩
  | 59 => ⟨S1700000, .i32⟩
  | 60 => ⟨S1700000, .i32⟩
  | 61 => ⟨S1700000, .i32⟩
  | 62 => ⟨S1700000x1, .i32⟩
  | 63 => ⟨S1700000, .f32⟩
  | 64 => ⟨S1700000, .f32⟩
  | 65 => ⟨S_, .i32⟩
  | 66 => ⟨S1700000, .i32⟩
  | 67 => ⟨S1700000, .i1⟩
  | 68 => ⟨S_, .i32⟩
  | 69 => ⟨S1700000, .i32⟩
  | 70 => ⟨S1700000, .i32⟩
  | 71 => ⟨S1700000, .i32⟩
  | 72 => ⟨S1700000x1, .i32⟩
  | 73 => ⟨S1700000, .f32⟩
  | 74 => ⟨S1700000, .f32⟩
  | 75 => ⟨S1700000x1, .f32⟩
  | 76 => ⟨S_, .i32⟩
  | 77 => ⟨S1700000, .i32⟩
  | 78 => ⟨S1700000, .i1⟩
  | 79 => ⟨S_, .i32⟩
  | 80 => ⟨S1700000, .i32⟩
  | 81 => ⟨S1700000, .i32⟩
  | 82 => ⟨S1700000, .i32⟩
  | 83 => ⟨S1700000x1, .i32⟩
  | 84 => ⟨S1700000x40, .f32⟩
  | 85 => ⟨S1700000x40, .f32⟩
  | 86 => ⟨S1700000x40, .f32⟩
  | 87 => ⟨S_, .f32⟩
  | 88 => ⟨S100000x40, .f32⟩
  | 89 => ⟨S1700000x1, .i32⟩
  | 90 => ⟨S100000x40, .f32⟩
  | 91 => ⟨S1x40, .f32⟩
  | 92 => ⟨S100000x40, .f32⟩
  | 93 => ⟨S100000x40, .f32⟩
  | 94 => ⟨S_, .f32⟩
  | 95 => ⟨S100000, .f32⟩
  | 96 => ⟨S_, .f32⟩
  | 97 => ⟨S100000, .f32⟩
  | 98 => ⟨S100000, .f32⟩
  | 99 => ⟨S100000x1, .f32⟩
  | 100 => ⟨S100000x40, .f32⟩
  | 101 => ⟨S100000x40, .f32⟩
  | 102 => ⟨S100000x40, .f32⟩
  | 103 => ⟨S_, .f32⟩
  | 104 => ⟨S100000, .f32⟩
  | 105 => ⟨S100000x1, .f32⟩
  | 106 => ⟨S100000x1, .f32⟩
  | 107 => ⟨S100000x40, .f32⟩
  | 108 => ⟨S100000x40, .f32⟩
  | _ => ⟨S100000x256, .f32⟩

abbrev hbmTy (i : Nat) : BufTy := match i / 128 with
  | 0 => hbmTy0_0 i
  | 1 => hbmTy0_1 i
  | _ => ⟨S100000x256, .f32⟩

abbrev bufTy : (tb : Table) → Fin (tcTables nBuf tb) → BufTy
  | .hbm, ⟨i, _⟩ => hbmTy i
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_cst_0 : Ref sig .tc := ⟨.hbm, 22, rfl⟩
abbrev main_v9 : Ref sig .tc := ⟨.hbm, 23, rfl⟩
abbrev main_v10 : Ref sig .tc := ⟨.hbm, 24, rfl⟩
abbrev main_cst_1 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_2 : Ref sig .tc := ⟨.hbm, 29, rfl⟩
abbrev main_v14 : Ref sig .tc := ⟨.hbm, 30, rfl⟩
abbrev main_v15 : Ref sig .tc := ⟨.hbm, 31, rfl⟩
abbrev main_cst_3 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_cst_4 : Ref sig .tc := ⟨.hbm, 36, rfl⟩
abbrev main_call0_v0 : Ref sig .tc := ⟨.hbm, 37, rfl⟩
abbrev main_call0_v1 : Ref sig .tc := ⟨.hbm, 38, rfl⟩
abbrev main_v19 : Ref sig .tc := ⟨.hbm, 39, rfl⟩
abbrev main_c : Ref sig .tc := ⟨.hbm, 40, rfl⟩
abbrev main_v20 : Ref sig .tc := ⟨.hbm, 41, rfl⟩
abbrev main_v21 : Ref sig .tc := ⟨.hbm, 42, rfl⟩
abbrev main_c_5 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_c_6 : Ref sig .tc := ⟨.hbm, 50, rfl⟩
abbrev main_v28 : Ref sig .tc := ⟨.hbm, 51, rfl⟩
abbrev main_v29 : Ref sig .tc := ⟨.hbm, 52, rfl⟩
abbrev main_c_7 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_c_8 : Ref sig .tc := ⟨.hbm, 61, rfl⟩
abbrev main_v37 : Ref sig .tc := ⟨.hbm, 62, rfl⟩
abbrev main_v38 : Ref sig .tc := ⟨.hbm, 63, rfl⟩
abbrev main_c_9 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_cst_10 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_call1_cst : Ref sig .tc := ⟨.hbm, 79, rfl⟩
abbrev main_call1_v0 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_cst_11 : Ref sig .tc := ⟨.hbm, 90, rfl⟩
abbrev main_v61 : Ref sig .tc := ⟨.hbm, 91, rfl⟩
abbrev main_v62 : Ref sig .tc := ⟨.hbm, 92, rfl⟩
abbrev main_cst_12 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_cst_13 : Ref sig .tc := ⟨.hbm, 97, rfl⟩
abbrev main_v66 : Ref sig .tc := ⟨.hbm, 98, rfl⟩
abbrev main_v67 : Ref sig .tc := ⟨.hbm, 99, rfl⟩
abbrev main_cst_14 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_cst_15 : Ref sig .tc := ⟨.hbm, 104, rfl⟩
abbrev main_call2_v0 : Ref sig .tc := ⟨.hbm, 105, rfl⟩
abbrev main_call2_v1 : Ref sig .tc := ⟨.hbm, 106, rfl⟩
abbrev main_v71 : Ref sig .tc := ⟨.hbm, 107, rfl⟩
abbrev main_c_16 : Ref sig .tc := ⟨.hbm, 108, rfl⟩
abbrev main_v72 : Ref sig .tc := ⟨.hbm, 109, rfl⟩
abbrev main_v73 : Ref sig .tc := ⟨.hbm, 110, rfl⟩
abbrev main_c_17 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_c_18 : Ref sig .tc := ⟨.hbm, 118, rfl⟩
abbrev main_v80 : Ref sig .tc := ⟨.hbm, 119, rfl⟩
abbrev main_v81 : Ref sig .tc := ⟨.hbm, 120, rfl⟩
abbrev main_c_19 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_c_20 : Ref sig .tc := ⟨.hbm, 129, rfl⟩
abbrev main_v89 : Ref sig .tc := ⟨.hbm, 130, rfl⟩
abbrev main_v90 : Ref sig .tc := ⟨.hbm, 131, rfl⟩
abbrev main_c_21 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_cst_22 : Ref sig .tc := ⟨.hbm, 140, rfl⟩
abbrev main_v98 : Ref sig .tc := ⟨.hbm, 141, rfl⟩
abbrev main_v99 : Ref sig .tc := ⟨.hbm, 142, rfl⟩
abbrev main_v100 : Ref sig .tc := ⟨.hbm, 143, rfl⟩
abbrev main_v101 : Ref sig .tc := ⟨.hbm, 144, rfl⟩
abbrev main_v102 : Ref sig .tc := ⟨.hbm, 145, rfl⟩
abbrev main_v103 : Ref sig .tc := ⟨.hbm, 146, rfl⟩
abbrev main_cst_23 : Ref sig .tc := ⟨.hbm, 147, rfl⟩
abbrev main_v104 : Ref sig .tc := ⟨.hbm, 148, rfl⟩
abbrev main_v105 : Ref sig .tc := ⟨.hbm, 149, rfl⟩
abbrev main_cst_24 : Ref sig .tc := ⟨.hbm, 150, rfl⟩
abbrev main_v106 : Ref sig .tc := ⟨.hbm, 151, rfl⟩
abbrev main_v107 : Ref sig .tc := ⟨.hbm, 152, rfl⟩
abbrev main_v108 : Ref sig .tc := ⟨.hbm, 153, rfl⟩
abbrev main_call3_cst : Ref sig .tc := ⟨.hbm, 154, rfl⟩
abbrev main_call3_v0 : Ref sig .tc := ⟨.hbm, 155, rfl⟩
abbrev main_v109 : Ref sig .tc := ⟨.hbm, 156, rfl⟩
abbrev main_v110 : Ref sig .tc := ⟨.hbm, 157, rfl⟩
abbrev main_v111 : Ref sig .tc := ⟨.hbm, 158, rfl⟩
abbrev main_v112 : Ref sig .tc := ⟨.hbm, 159, rfl⟩
abbrev main_v113 : Ref sig .tc := ⟨.hbm, 160, rfl⟩
abbrev main_v114 : Ref sig .tc := ⟨.hbm, 161, rfl⟩
abbrev main_v115 : Ref sig .tc := ⟨.hbm, 162, rfl⟩
abbrev main_v116 : Ref sig .tc := ⟨.hbm, 163, rfl⟩
abbrev main_v117 : Ref sig .tc := ⟨.hbm, 164, rfl⟩
abbrev main_cst_25 : Ref sig .tc := ⟨.hbm, 165, rfl⟩
abbrev main_v118 : Ref sig .tc := ⟨.hbm, 166, rfl⟩
abbrev main_v119 : Ref sig .tc := ⟨.hbm, 167, rfl⟩
abbrev main_cst_26 : Ref sig .tc := ⟨.hbm, 168, rfl⟩
abbrev main_v120 : Ref sig .tc := ⟨.hbm, 169, rfl⟩
abbrev main_v121 : Ref sig .tc := ⟨.hbm, 170, rfl⟩
abbrev main_v122 : Ref sig .tc := ⟨.hbm, 171, rfl⟩
abbrev main_cst_27 : Ref sig .tc := ⟨.hbm, 172, rfl⟩
abbrev main_v123 : Ref sig .tc := ⟨.hbm, 173, rfl⟩
abbrev main_v124 : Ref sig .tc := ⟨.hbm, 174, rfl⟩
abbrev main_cst_28 : Ref sig .tc := ⟨.hbm, 175, rfl⟩
abbrev main_v125 : Ref sig .tc := ⟨.hbm, 176, rfl⟩
abbrev main_v126 : Ref sig .tc := ⟨.hbm, 177, rfl⟩
abbrev main_v127 : Ref sig .tc := ⟨.hbm, 178, rfl⟩
abbrev main_cst_29 : Ref sig .tc := ⟨.hbm, 179, rfl⟩
abbrev main_call4_v0 : Ref sig .tc := ⟨.hbm, 180, rfl⟩
abbrev main_call4_v1 : Ref sig .tc := ⟨.hbm, 181, rfl⟩
abbrev main_v128 : Ref sig .tc := ⟨.hbm, 182, rfl⟩
abbrev main_c_30 : Ref sig .tc := ⟨.hbm, 183, rfl⟩
abbrev main_v129 : Ref sig .tc := ⟨.hbm, 184, rfl⟩
abbrev main_v130 : Ref sig .tc := ⟨.hbm, 185, rfl⟩
abbrev main_c_31 : Ref sig .tc := ⟨.hbm, 186, rfl⟩
abbrev main_v131 : Ref sig .tc := ⟨.hbm, 187, rfl⟩
abbrev main_v132 : Ref sig .tc := ⟨.hbm, 188, rfl⟩
abbrev main_v133 : Ref sig .tc := ⟨.hbm, 189, rfl⟩
abbrev main_v134 : Ref sig .tc := ⟨.hbm, 190, rfl⟩
abbrev main_v135 : Ref sig .tc := ⟨.hbm, 191, rfl⟩
abbrev main_v136 : Ref sig .tc := ⟨.hbm, 192, rfl⟩
abbrev main_c_32 : Ref sig .tc := ⟨.hbm, 193, rfl⟩
abbrev main_v137 : Ref sig .tc := ⟨.hbm, 194, rfl⟩
abbrev main_v138 : Ref sig .tc := ⟨.hbm, 195, rfl⟩
abbrev main_c_33 : Ref sig .tc := ⟨.hbm, 196, rfl⟩
abbrev main_v139 : Ref sig .tc := ⟨.hbm, 197, rfl⟩
abbrev main_v140 : Ref sig .tc := ⟨.hbm, 198, rfl⟩
abbrev main_v141 : Ref sig .tc := ⟨.hbm, 199, rfl⟩
abbrev main_v142 : Ref sig .tc := ⟨.hbm, 200, rfl⟩
abbrev main_v143 : Ref sig .tc := ⟨.hbm, 201, rfl⟩
abbrev main_v144 : Ref sig .tc := ⟨.hbm, 202, rfl⟩
abbrev main_v145 : Ref sig .tc := ⟨.hbm, 203, rfl⟩
abbrev main_c_34 : Ref sig .tc := ⟨.hbm, 204, rfl⟩
abbrev main_v146 : Ref sig .tc := ⟨.hbm, 205, rfl⟩
abbrev main_v147 : Ref sig .tc := ⟨.hbm, 206, rfl⟩
abbrev main_c_35 : Ref sig .tc := ⟨.hbm, 207, rfl⟩
abbrev main_v148 : Ref sig .tc := ⟨.hbm, 208, rfl⟩
abbrev main_v149 : Ref sig .tc := ⟨.hbm, 209, rfl⟩
abbrev main_v150 : Ref sig .tc := ⟨.hbm, 210, rfl⟩
abbrev main_v151 : Ref sig .tc := ⟨.hbm, 211, rfl⟩
abbrev main_v152 : Ref sig .tc := ⟨.hbm, 212, rfl⟩
abbrev main_v153 : Ref sig .tc := ⟨.hbm, 213, rfl⟩
abbrev main_v154 : Ref sig .tc := ⟨.hbm, 214, rfl⟩
abbrev main_cst_36 : Ref sig .tc := ⟨.hbm, 215, rfl⟩
abbrev main_v155 : Ref sig .tc := ⟨.hbm, 216, rfl⟩
abbrev main_v156 : Ref sig .tc := ⟨.hbm, 217, rfl⟩
abbrev main_v157 : Ref sig .tc := ⟨.hbm, 218, rfl⟩
abbrev main_v158 : Ref sig .tc := ⟨.hbm, 219, rfl⟩
abbrev main_v159 : Ref sig .tc := ⟨.hbm, 220, rfl⟩
abbrev main_v160 : Ref sig .tc := ⟨.hbm, 221, rfl⟩
abbrev main_call5_cst : Ref sig .tc := ⟨.hbm, 222, rfl⟩
abbrev main_call5_v0 : Ref sig .tc := ⟨.hbm, 223, rfl⟩
abbrev main_call5_cst_0 : Ref sig .tc := ⟨.hbm, 224, rfl⟩
abbrev main_call5_v1 : Ref sig .tc := ⟨.hbm, 225, rfl⟩
abbrev main_call5_v2 : Ref sig .tc := ⟨.hbm, 226, rfl⟩
abbrev main_call5_v3 : Ref sig .tc := ⟨.hbm, 227, rfl⟩
abbrev main_call5_v4 : Ref sig .tc := ⟨.hbm, 228, rfl⟩
abbrev main_call5_v5 : Ref sig .tc := ⟨.hbm, 229, rfl⟩
abbrev main_call5_v6 : Ref sig .tc := ⟨.hbm, 230, rfl⟩
abbrev main_call5_cst_1 : Ref sig .tc := ⟨.hbm, 231, rfl⟩
abbrev main_call5_v7 : Ref sig .tc := ⟨.hbm, 232, rfl⟩
abbrev main_call5_v8 : Ref sig .tc := ⟨.hbm, 233, rfl⟩
abbrev main_call5_v9 : Ref sig .tc := ⟨.hbm, 234, rfl⟩
abbrev main_call5_v10 : Ref sig .tc := ⟨.hbm, 235, rfl⟩
abbrev main_v161 : Ref sig .tc := ⟨.hbm, 236, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S1700000 : S_.BroadcastsInDim S1700000 (![] : Fin 0 → Fin S1700000.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1700000x1_S1700000x40_0_1 : S1700000x1.BroadcastsInDim S1700000x40 (![0, 1] : Fin 2 → Fin S1700000x40.rank)
  bcast_S_S100000x40 : S_.BroadcastsInDim S100000x40 (![] : Fin 0 → Fin S100000x40.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  reducesTo_S100000x40_S100000_d1 : S100000x40.ReducesTo [1] S100000
  h_S_ : 0 < S_.numel
  bcast_S100000_S100000x1_0 : S100000.BroadcastsInDim S100000x1 (![0] : Fin 1 → Fin S100000x1.rank)
  bcast_S100000x1_S100000x40_0_1 : S100000x1.BroadcastsInDim S100000x40 (![0, 1] : Fin 2 → Fin S100000x40.rank)
  dot_S100000x256_S256x128_S100000x128_1_0_0_1_n_n_wf : DotDims.WF S100000x256 S256x128 S100000x128 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x128_S100000x128_1_0_0_1_n_n_wf : DotDims.WF S100000x128 S128x128 S100000x128 [1] [0] [0] [1] [] []
  dot_S100000x128_S128x40_S100000x40_1_0_0_1_n_n_wf : DotDims.WF S100000x128 S128x40 S100000x40 [1] [0] [0] [1] [] []
  gather_S100000x40_S1700000x1_S1700000x40_1_0_n_n_0_1_140_wf : GatherDims.WF S100000x40 S1700000x1 S1700000x40 [1] [0] [] [0] [] 1 ![1, 40]
  scatter_S100000x40_S1700000x1_S1700000x40_1_0_0_1_wf : ScatterDims.WF S100000x40 S1700000x1 S1700000x40 [1] [0] [0] 1

variable [Facts₀]

def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x40_S100000x40_1_0_0_1_n_n : DotDims S100000x128 S128x40 S100000x40 where
  lhsContracting := [1]
  rhsContracting := [0]
  lhsNonContracting := [0]
  rhsNonContracting := [1]
  lhsBatch := []
  rhsBatch := []
  wf := dot_S100000x128_S128x40_S100000x40_1_0_0_1_n_n_wf
def gather_S100000x40_S1700000x1_S1700000x40_1_0_n_n_0_1_140 : GatherDims S100000x40 S1700000x1 S1700000x40 where
  offsetDims := [1]
  collapsedSliceDims := [0]
  operandBatchingDims := []
  startIndicesBatchingDims := []
  startIndexMap := [0]
  indexVectorDim := 1
  sliceSizes := ![1, 40]
  wf := gather_S100000x40_S1700000x1_S1700000x40_1_0_n_n_0_1_140_wf
def scatter_S100000x40_S1700000x1_S1700000x40_1_0_0_1 : ScatterDims S100000x40 S1700000x1 S1700000x40 where
  updateWindowDims := [1]
  insertedWindowDims := [0]
  scatterDimsToOperandDims := [0]
  indexVectorDim := 1
  wf := scatter_S100000x40_S1700000x1_S1700000x40_1_0_0_1_wf

class Facts : Prop extends Facts₀ where

variable [Facts]
-- ==== Proof.KernelRun.lean ====
/-
  The idealized kernel's run with its result named.  @main is six kernel regions among stretches of host
  operations; the buffer contents at each boundary are a fold from the launch memory, ending at `Gen.W15`.
  Every weakly fair execution terminates, the result buffer ends at `W15` read at that buffer, and the
  twelve argument arrays end as launched: the segments' run, with the last thread state read against the
  final state at the result buffer as well as at the arguments.
-/
import proofs.«109993_j29592324669623_1_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting; the result buffer ends at the last
    boundary's contents and the argument arrays end as launched. -/
theorem run : θ_run defs (onTc (τ := τ) (main (F := F))) ⟨m, fun _ => 0, ρ⟩ (fun r => ∀ c : Dev nD,
      r.2.mem ((c : Thread nD τ).loc main_v147) = W15 m ρ c (Proc.devRef .tc main_v147)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W15 m ρ c b)
    (hfin := fun c s' => by
      iintro ⟨⟨Hh, -⟩, HSI⟩
      unfold StableHlo.held
      imodintro
      iapply (pointsTo_read_all (Pipeline.ucRefs τ sig) (fun b => (((c : Thread nD τ)).1, b)) (W15 m ρ c) s')
      isplitl [Hh] <;> iassumption)
    (hQ := fun s h c =>
      ⟨h c _ (mem_uc main_v147 (by decide)),
       (h c _ (mem_uc main_arg0 (by decide))).trans (W15_main_arg0 m ρ c),
       (h c _ (mem_uc main_arg1 (by decide))).trans (W15_main_arg1 m ρ c),
       (h c _ (mem_uc main_arg2 (by decide))).trans (W15_main_arg2 m ρ c),
       (h c _ (mem_uc main_arg3 (by decide))).trans (W15_main_arg3 m ρ c),
       (h c _ (mem_uc main_arg4 (by decide))).trans (W15_main_arg4 m ρ c),
       (h c _ (mem_uc main_arg5 (by decide))).trans (W15_main_arg5 m ρ c),
       (h c _ (mem_uc main_arg6 (by decide))).trans (W15_main_arg6 m ρ c),
       (h c _ (mem_uc main_arg7 (by decide))).trans (W15_main_arg7 m ρ c),
       (h c _ (mem_uc main_arg8 (by decide))).trans (W15_main_arg8 m ρ c),
       (h c _ (mem_uc main_arg9 (by decide))).trans (W15_main_arg9 m ρ c),
       (h c _ (mem_uc main_arg10 (by decide))).trans (W15_main_arg10 m ρ c),
       (h c _ (mem_uc main_arg11 (by decide))).trans (W15_main_arg11 m ρ c)⟩)

end Cert.KernelIdeal.Run

end
-- ==== Proof.RefSegs.lean ====
/-
  The reference's @main cut into six consecutive pieces, each ending where a layer's aggregation over the
  edges, or the projection that follows a layer, has been computed: the first layer's aggregation; its bias,
  activation and the second projection; the second layer's aggregation; its bias, mix, activation and the
  third projection; the third layer's aggregation; the bias and the row-wise log-softmax.  The operations are
  those of the operation list, in order; running the list is running the pieces one after the other, and the
  buffer contents after each piece are named.
-/
import proofs.«109993_j29592324669623_1_alg».proof.Proof.RefOpsP

noncomputable section

namespace Cert.ReferenceIdeal.Segs

open Cert.ReferenceIdeal Cert.ReferenceIdeal.Gen Idealize.ShloMosaic Idealize.ShloMosaic.TcCoe Idealize.SL.Sem Idealize.ShloMosaic.StableHlo
open Cert.ReferenceIdeal.ValueP

variable {F : FTy → Type} [FloatOps F]

/-- Piece 1: the first projection and the first layer's aggregation over the edges. -/
abbrev S1 : List (HloOp τ sig (Elt F)) :=
  [ nullary main_cst (constant S_ .f32 0x3F800000#32),
    unary main_cst main_v0 (broadcastInDim S1600000 ![] bcast_S_S1600000 : (⟨S_, .f32⟩ : BufTy).Contents (Elt F) → (⟨S1600000, .f32⟩ : BufTy).Contents (Elt F)),
    binary main_arg0 main_arg6 main_v1 ((fun l r => Host.dotGeneral dot_S100000x256_S256x128_S100000x128_1_0_0_1_n_n none l r) : (⟨S100000x256, .f32⟩ : BufTy).Contents (Elt F) → (⟨S256x128, .f32⟩ : BufTy).Contents (Elt F) → (⟨S100000x128, .f32⟩ : BufTy).Contents (Elt F)),
    unary main_arg1 main_v2 ((extractStridedSlice S1x1600000 ![0, 0] · slices_S2x1600000_S1x1600000_0_0) : (⟨S2x1600000, .i32⟩ : BufTy).Contents (Elt F) → (⟨S1x1600000, .i32⟩ : BufTy).Contents (Elt F)),
    reshape main_v2 main_v3 rfl shapeCasts_S1x1600000_S1600000,
    unary main_arg1 main_v4 ((extractStridedSlice S1x1600000 ![1, 0] · slices_S2x1600000_S1x1600000_1_0) : (⟨S2x1600000, .i32⟩ : BufTy).Contents (Elt F) → (⟨S1x1600000, .i32⟩ : BufTy).Contents (Elt F)),
    reshape main_v4 main_v5 rfl shapeCasts_S1x1600000_S1600000,
    nullary main_v6 (iotaInDim S100000 32 0),
    binary main_v3 main_v6 main_v7 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    binary main_v5 main_v6 main_v8 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    nullary main_cst_0 (constant S_ .f32 0x3F800000#32),
    unary main_cst_0 main_v9 (broadcastInDim S100000 ![] bcast_S_S100000 : (⟨S_, .f32⟩ : BufTy).Contents (Elt F) → (⟨S100000, .f32⟩ : BufTy).Contents (Elt F)),
    binary main_v0 main_v9 main_v10 ((fun a b => concatenate S1700000 0 [⟨S1600000, a⟩, ⟨S100000, b⟩] concatenates_S1600000_S100000_S1700000_d0) : (⟨S1600000, .f32⟩ : BufTy).Contents (Elt F) → (⟨S100000, .f32⟩ : BufTy).Contents (Elt F) → (⟨S1700000, .f32⟩ : BufTy).Contents (Elt F)),
    nullary main_cst_1 (constant S_ .f32 0x00000000#32),
    unary main_cst_1 main_v11 (broadcastInDim S100000 ![] bcast_S_S100000 : (⟨S_, .f32⟩ : BufTy).Contents (Elt F) → (⟨S100000, .f32⟩ : BufTy).Contents (Elt F)),
    unary main_v8 main_v12 (broadcastInDim S1700000x1 ![0] bcast_S1700000_S1700000x1_0 : (⟨S1700000, .i32⟩ : BufTy).Contents (Elt F) → (⟨S1700000x1, .i32⟩ : BufTy).Contents (Elt F)),
    ternary main_v11 main_v12 main_v10 main_v13 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    nullary main_cst_2 (constant S_ .f32 0x00000000#32),
    unary main_cst_2 main_v14 (broadcastInDim S100000 ![] bcast_S_S100000 : (⟨S_, .f32⟩ : BufTy).Contents (Elt F) → (⟨S100000, .f32⟩ : BufTy).Contents (Elt F)),
    binary main_v13 main_v14 main_v15 (cmpf .ogt : (⟨S100000, .f32⟩ : BufTy).Contents (Elt F) → (⟨S100000, .f32⟩ : BufTy).Contents (Elt F) → (⟨S100000, .i1⟩ : BufTy).Contents (Elt F)),
    nullary main_cst_3 (constant S_ .f32 0x2B8CBCCC#32),
    unary main_cst_3 main_v16 (broadcastInDim S100000 ![] bcast_S_S100000 : (⟨S_, .f32⟩ : BufTy).Contents (Elt F) → (⟨S100000, .f32⟩ : BufTy).Contents (Elt F)),
    binary main_v13 main_v16 main_v17 (maximumf : (⟨S100000, .f32⟩ : BufTy).Contents (Elt F) → (⟨S100000, .f32⟩ : BufTy).Contents (Elt F) → (⟨S100000, .f32⟩ : BufTy).Contents (Elt F)),
    unary main_v17 main_v18 (Host.rsqrt : (⟨S100000, .f32⟩ : BufTy).Contents (Elt F) → (⟨S100000, .f32⟩ : BufTy).Contents (Elt F)),
    nullary main_cst_4 (constant S_ .f32 0x00000000#32),
    TRef.unary (TRef.of (T := ⟨S_, .f32⟩) main_cst_4) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v15) (TRef.of (T := ⟨S100000, .f32⟩) main_v18) (TRef.of (T := ⟨S100000, .f32⟩) main_call0_v1) (TRef.of (T := ⟨S100000, .f32⟩) main_v19) select,
    nullary main_c (constantI S_ 32 0#32),
    unary main_c main_v20 (broadcastInDim S1700000 ![] bcast_S_S1700000 : (⟨S_, .i32⟩ : BufTy).Contents (Elt F) → (⟨S1700000, .i32⟩ : BufTy).Contents (Elt F)),
    binary main_v7 main_v20 main_v21 (cmpi .slt : (⟨S1700000, .i32⟩ : BufTy).Contents (Elt F) → (⟨S1700000, .i32⟩ : BufTy).Contents (Elt F) → (⟨S1700000, .i1⟩ : BufTy).Contents (Elt F)),
    nullary main_c_5 (constantI S_ 32 100000#32),
    unary main_c_5 main_v22 (broadcastInDim S1700000 ![] bcast_S_S1700000 : (⟨S_, .i32⟩ : BufTy).Contents (Elt F) → (⟨S1700000, .i32⟩ : BufTy).Contents (Elt F)),
    binary main_v7 main_v22 main_v23 (addi : (⟨S1700000, .i32⟩ : BufTy).Contents (Elt F) → (⟨S1700000, .i32⟩ : BufTy).Contents (Elt F) → (⟨S1700000, .i32⟩ : BufTy).Contents (Elt F)),
    ternary main_v21 main_v23 main_v7 main_v24 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v24 main_v25 (broadcastInDim S1700000x1 ![0] bcast_S1700000_S1700000x1_0 : (⟨S1700000, .i32⟩ : BufTy).Contents (Elt F) → (⟨S1700000x1, .i32⟩ : BufTy).Contents (Elt F)),
    binary main_v19 main_v25 main_v26 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v26 main_v10 main_v27 (mulf : (⟨S1700000, .f32⟩ : BufTy).Contents (Elt F) → (⟨S1700000, .f32⟩ : BufTy).Contents (Elt F) → (⟨S1700000, .f32⟩ : BufTy).Contents (Elt F)),
    nullary main_c_6 (constantI S_ 32 0#32),
    unary main_c_6 main_v28 (broadcastInDim S1700000 ![] bcast_S_S1700000 : (⟨S_, .i32⟩ : BufTy).Contents (Elt F) → (⟨S1700000, .i32⟩ : BufTy).Contents (Elt F)),
    binary main_v8 main_v28 main_v29 (cmpi .slt : (⟨S1700000, .i32⟩ : BufTy).Contents (Elt F) → (⟨S1700000, .i32⟩ : BufTy).Contents (Elt F) → (⟨S1700000, .i1⟩ : BufTy).Contents (Elt F)),
    nullary main_c_7 (constantI S_ 32 100000#32),
    unary main_c_7 main_v30 (broadcastInDim S1700000 ![] bcast_S_S1700000 : (⟨S_, .i32⟩ : BufTy).Contents (Elt F) → (⟨S1700000, .i32⟩ : BufTy).Contents (Elt F)),
    binary main_v8 main_v30 main_v31 (addi : (⟨S1700000, .i32⟩ : BufTy).Contents (Elt F) → (⟨S1700000, .i32⟩ : BufTy).Contents (Elt F) → (⟨S1700000, .i32⟩ : BufTy).Contents (Elt F)),
    ternary main_v29 main_v31 main_v8 main_v32 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v32 main_v33 (broadcastInDim S1700000x1 ![0] bcast_S1700000_S1700000x1_0 : (⟨S1700000, .i32⟩ : BufTy).Contents (Elt F) → (⟨S1700000x1, .i32⟩ : BufTy).Contents (Elt F)),
    binary main_v19 main_v33 main_v34 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v27 main_v34 main_v35 (mulf : (⟨S1700000, .f32⟩ : BufTy).Contents (Elt F) → (⟨S1700000, .f32⟩ : BufTy).Contents (Elt F) → (⟨S1700000, .f32⟩ : BufTy).Contents (Elt F)),
    unary main_v35 main_v36 (broadcastInDim S1700000x1 ![0] bcast_S1700000_S1700000x1_0 : (⟨S1700000, .f32⟩ : BufTy).Contents (Elt F) → (⟨S1700000x1, .f32⟩ : BufTy).Contents (Elt F)),
    nullary main_c_8 (constantI S_ 32 0#32),
    unary main_c_8 main_v37 (broadcastInDim S1700000 ![] bcast_S_S1700000 : (⟨S_, .i32⟩ : BufTy).Contents (Elt F) → (⟨S1700000, .i32⟩ : BufTy).Contents (Elt F)),
    binary main_v7 main_v37 main_v38 (cmpi .slt : (⟨S1700000, .i32⟩ : BufTy).Contents (Elt F) → (⟨S1700000, .i32⟩ : BufTy).Contents (Elt F) → (⟨S1700000, .i1⟩ : BufTy).Contents (Elt F)),
    nullary main_c_9 (constantI S_ 32 100000#32),
    unary main_c_9 main_v39 (broadcastInDim S1700000 ![] bcast_S_S1700000 : (⟨S_, .i32⟩ : BufTy).Contents (Elt F) → (⟨S1700000, .i32⟩ : BufTy).Contents (Elt F)),
    binary main_v7 main_v39 main_v40 (addi : (⟨S1700000, .i32⟩ : BufTy).Contents (Elt F) → (⟨S1700000, .i32⟩ : BufTy).Contents (Elt F) → (⟨S1700000, .i32⟩ : BufTy).Contents (Elt F)),
    ternary main_v38 main_v40 main_v7 main_v41 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v41 main_v42 (broadcastInDim S1700000x1 ![0] bcast_S1700000_S1700000x1_0 : (⟨S1700000, .i32⟩ : BufTy).Contents (Elt F) → (⟨S1700000x1, .i32⟩ : BufTy).Contents (Elt F)),
    binary main_v1 main_v42 main_v43 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    unary main_v36 main_v44 (broadcastInDim S1700000x128 ![0, 1] bcast_S1700000x1_S1700000x128_0_1 : (⟨S1700000x1, .f32⟩ : BufTy).Contents (Elt F) → (⟨S1700000x128, .f32⟩ : BufTy).Contents (Elt F)),
    binary main_v44 main_v43 main_v45 (mulf : (⟨S1700000x128, .f32⟩ : BufTy).Contents (Elt F) → (⟨S1700000x128, .f32⟩ : BufTy).Contents (Elt F) → (⟨S1700000x128, .f32⟩ : BufTy).Contents (Elt F)),
    nullary main_cst_10 (constant S_ .f32 0x00000000#32),
    unary main_cst_10 main_v46 (broadcastInDim S100000x128 ![] bcast_S_S100000x128 : (⟨S_, .f32⟩ : BufTy).Contents (Elt F) → (⟨S100000x128, .f32⟩ : BufTy).Contents (Elt F)),
    unary main_v8 main_v47 (broadcastInDim S1700000x1 ![0] bcast_S1700000_S1700000x1_0 : (⟨S1700000, .i32⟩ : BufTy).Contents (Elt F) → (⟨S1700000x1, .i32⟩ : BufTy).Contents (Elt F)),
    ternary main_v46 main_v47 main_v45 main_v48 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)) ]

/-- Piece 2: the first layer's bias and activation, and the second projection. -/
abbrev S2 : List (HloOp τ sig (Elt F)) :=
  [ unary main_arg7 main_v49 (broadcastInDim S1x128 ![1] bcast_S128_S1x128_1 : (⟨S128, .f32⟩ : BufTy).Contents (Elt F) → (⟨S1x128, .f32⟩ : BufTy).Contents (Elt F)),
    unary main_v49 main_v50 (broadcastInDim S100000x128 ![0, 1] bcast_S1x128_S100000x128_0_1 : (⟨S1x128, .f32⟩ : BufTy).Contents (Elt F) → (⟨S100000x128, .f32⟩ : BufTy).Contents (Elt F)),
    binary main_v48 main_v50 main_v51 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x128, .f32⟩) main_call1_v0) (broadcastInDim S100000x128 ![] bcast_S_S100000x128),
    TRef.binary (TRef.of (T := ⟨S100000x128, .f32⟩) main_v51) (TRef.of (T := ⟨S100000x128, .f32⟩) main_call1_v0) (TRef.of (T := ⟨S100000x128, .f32⟩) main_v52) maximumf,
    binary main_v52 main_arg8 main_v53 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)) ]

/-- Piece 3: the second layer's aggregation over the edges. -/
abbrev S3 : List (HloOp τ sig (Elt F)) :=
  [ unary main_arg2 main_v54 ((extractStridedSlice S1x1600000 ![0, 0] · slices_S2x1600000_S1x1600000_0_0) : (⟨S2x1600000, .i32⟩ : BufTy).Contents (Elt F) → (⟨S1x1600000, .i32⟩ : BufTy).Contents (Elt F)),
    reshape main_v54 main_v55 rfl shapeCasts_S1x1600000_S1600000,
    unary main_arg2 main_v56 ((extractStridedSlice S1x1600000 ![1, 0] · slices_S2x1600000_S1x1600000_1_0) : (⟨S2x1600000, .i32⟩ : BufTy).Contents (Elt F) → (⟨S1x1600000, .i32⟩ : BufTy).Contents (Elt F)),
    reshape main_v56 main_v57 rfl shapeCasts_S1x1600000_S1600000,
    nullary main_v58 (iotaInDim S100000 32 0),
    binary main_v55 main_v58 main_v59 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    binary main_v57 main_v58 main_v60 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    nullary main_cst_11 (constant S_ .f32 0x3F800000#32),
    unary main_cst_11 main_v61 (broadcastInDim S100000 ![] bcast_S_S100000 : (⟨S_, .f32⟩ : BufTy).Contents (Elt F) → (⟨S100000, .f32⟩ : BufTy).Contents (Elt F)),
    binary main_arg4 main_v61 main_v62 ((fun a b => concatenate S1700000 0 [⟨S1600000, a⟩, ⟨S100000, b⟩] concatenates_S1600000_S100000_S1700000_d0) : (⟨S1600000, .f32⟩ : BufTy).Contents (Elt F) → (⟨S100000, .f32⟩ : BufTy).Contents (Elt F) → (⟨S1700000, .f32⟩ : BufTy).Contents (Elt F)),
    nullary main_cst_12 (constant S_ .f32 0x00000000#32),
    unary main_cst_12 main_v63 (broadcastInDim S100000 ![] bcast_S_S100000 : (⟨S_, .f32⟩ : BufTy).Contents (Elt F) → (⟨S100000, .f32⟩ : BufTy).Contents (Elt F)),
    unary main_v60 main_v64 (broadcastInDim S1700000x1 ![0] bcast_S1700000_S1700000x1_0 : (⟨S1700000, .i32⟩ : BufTy).Contents (Elt F) → (⟨S1700000x1, .i32⟩ : BufTy).Contents (Elt F)),
    ternary main_v63 main_v64 main_v62 main_v65 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    nullary main_cst_13 (constant S_ .f32 0x00000000#32),
    unary main_cst_13 main_v66 (broadcastInDim S100000 ![] bcast_S_S100000 : (⟨S_, .f32⟩ : BufTy).Contents (Elt F) → (⟨S100000, .f32⟩ : BufTy).Contents (Elt F)),
    binary main_v65 main_v66 main_v67 (cmpf .ogt : (⟨S100000, .f32⟩ : BufTy).Contents (Elt F) → (⟨S100000, .f32⟩ : BufTy).Contents (Elt F) → (⟨S100000, .i1⟩ : BufTy).Contents (Elt F)),
    nullary main_cst_14 (constant S_ .f32 0x2B8CBCCC#32),
    unary main_cst_14 main_v68 (broadcastInDim S100000 ![] bcast_S_S100000 : (⟨S_, .f32⟩ : BufTy).Contents (Elt F) → (⟨S100000, .f32⟩ : BufTy).Contents (Elt F)),
    binary main_v65 main_v68 main_v69 (maximumf : (⟨S100000, .f32⟩ : BufTy).Contents (Elt F) → (⟨S100000, .f32⟩ : BufTy).Contents (Elt F) → (⟨S100000, .f32⟩ : BufTy).Contents (Elt F)),
    unary main_v69 main_v70 (Host.rsqrt : (⟨S100000, .f32⟩ : BufTy).Contents (Elt F) → (⟨S100000, .f32⟩ : BufTy).Contents (Elt F)),
    nullary main_cst_15 (constant S_ .f32 0x00000000#32),
    TRef.unary (TRef.of (T := ⟨S_, .f32⟩) main_cst_15) (TRef.of (T := ⟨S_, .f32⟩) main_call2_v0) id,
    TRef.unary (TRef.of (T := ⟨S_, .f32⟩) main_call2_v0) (TRef.of (T := ⟨S100000, .f32⟩) main_call2_v1) (broadcastInDim S100000 ![] bcast_S_S100000),
    TRef.ternary (TRef.of (T := ⟨S100000, .i1⟩) main_v67) (TRef.of (T := ⟨S100000, .f32⟩) main_v70) (TRef.of (T := ⟨S100000, .f32⟩) main_call2_v1) (TRef.of (T := ⟨S100000, .f32⟩) main_v71) select,
    nullary main_c_16 (constantI S_ 32 0#32),
    unary main_c_16 main_v72 (broadcastInDim S1700000 ![] bcast_S_S1700000 : (⟨S_, .i32⟩ : BufTy).Contents (Elt F) → (⟨S1700000, .i32⟩ : BufTy).Contents (Elt F)),
    binary main_v59 main_v72 main_v73 (cmpi .slt : (⟨S1700000, .i32⟩ : BufTy).Contents (Elt F) → (⟨S1700000, .i32⟩ : BufTy).Contents (Elt F) → (⟨S1700000, .i1⟩ : BufTy).Contents (Elt F)),
    nullary main_c_17 (constantI S_ 32 100000#32),
    unary main_c_17 main_v74 (broadcastInDim S1700000 ![] bcast_S_S1700000 : (⟨S_, .i32⟩ : BufTy).Contents (Elt F) → (⟨S1700000, .i32⟩ : BufTy).Contents (Elt F)),
    binary main_v59 main_v74 main_v75 (addi : (⟨S1700000, .i32⟩ : BufTy).Contents (Elt F) → (⟨S1700000, .i32⟩ : BufTy).Contents (Elt F) → (⟨S1700000, .i32⟩ : BufTy).Contents (Elt F)),
    ternary main_v73 main_v75 main_v59 main_v76 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v76 main_v77 (broadcastInDim S1700000x1 ![0] bcast_S1700000_S1700000x1_0 : (⟨S1700000, .i32⟩ : BufTy).Contents (Elt F) → (⟨S1700000x1, .i32⟩ : BufTy).Contents (Elt F)),
    binary main_v71 main_v77 main_v78 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v78 main_v62 main_v79 (mulf : (⟨S1700000, .f32⟩ : BufTy).Contents (Elt F) → (⟨S1700000, .f32⟩ : BufTy).Contents (Elt F) → (⟨S1700000, .f32⟩ : BufTy).Contents (Elt F)),
    nullary main_c_18 (constantI S_ 32 0#32),
    unary main_c_18 main_v80 (broadcastInDim S1700000 ![] bcast_S_S1700000 : (⟨S_, .i32⟩ : BufTy).Contents (Elt F) → (⟨S1700000, .i32⟩ : BufTy).Contents (Elt F)),
    binary main_v60 main_v80 main_v81 (cmpi .slt : (⟨S1700000, .i32⟩ : BufTy).Contents (Elt F) → (⟨S1700000, .i32⟩ : BufTy).Contents (Elt F) → (⟨S1700000, .i1⟩ : BufTy).Contents (Elt F)),
    nullary main_c_19 (constantI S_ 32 100000#32),
    unary main_c_19 main_v82 (broadcastInDim S1700000 ![] bcast_S_S1700000 : (⟨S_, .i32⟩ : BufTy).Contents (Elt F) → (⟨S1700000, .i32⟩ : BufTy).Contents (Elt F)),
    binary main_v60 main_v82 main_v83 (addi : (⟨S1700000, .i32⟩ : BufTy).Contents (Elt F) → (⟨S1700000, .i32⟩ : BufTy).Contents (Elt F) → (⟨S1700000, .i32⟩ : BufTy).Contents (Elt F)),
    ternary main_v81 main_v83 main_v60 main_v84 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v84 main_v85 (broadcastInDim S1700000x1 ![0] bcast_S1700000_S1700000x1_0 : (⟨S1700000, .i32⟩ : BufTy).Contents (Elt F) → (⟨S1700000x1, .i32⟩ : BufTy).Contents (Elt F)),
    binary main_v71 main_v85 main_v86 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v79 main_v86 main_v87 (mulf : (⟨S1700000, .f32⟩ : BufTy).Contents (Elt F) → (⟨S1700000, .f32⟩ : BufTy).Contents (Elt F) → (⟨S1700000, .f32⟩ : BufTy).Contents (Elt F)),
    unary main_v87 main_v88 (broadcastInDim S1700000x1 ![0] bcast_S1700000_S1700000x1_0 : (⟨S1700000, .f32⟩ : BufTy).Contents (Elt F) → (⟨S1700000x1, .f32⟩ : BufTy).Contents (Elt F)),
    nullary main_c_20 (constantI S_ 32 0#32),
    unary main_c_20 main_v89 (broadcastInDim S1700000 ![] bcast_S_S1700000 : (⟨S_, .i32⟩ : BufTy).Contents (Elt F) → (⟨S1700000, .i32⟩ : BufTy).Contents (Elt F)),
    binary main_v59 main_v89 main_v90 (cmpi .slt : (⟨S1700000, .i32⟩ : BufTy).Contents (Elt F) → (⟨S1700000, .i32⟩ : BufTy).Contents (Elt F) → (⟨S1700000, .i1⟩ : BufTy).Contents (Elt F)),
    nullary main_c_21 (constantI S_ 32 100000#32),
    unary main_c_21 main_v91 (broadcastInDim S1700000 ![] bcast_S_S1700000 : (⟨S_, .i32⟩ : BufTy).Contents (Elt F) → (⟨S1700000, .i32⟩ : BufTy).Contents (Elt F)),
    binary main_v59 main_v91 main_v92 (addi : (⟨S1700000, .i32⟩ : BufTy).Contents (Elt F) → (⟨S1700000, .i32⟩ : BufTy).Contents (Elt F) → (⟨S1700000, .i32⟩ : BufTy).Contents (Elt F)),
    ternary main_v90 main_v92 main_v59 main_v93 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v93 main_v94 (broadcastInDim S1700000x1 ![0] bcast_S1700000_S1700000x1_0 : (⟨S1700000, .i32⟩ : BufTy).Contents (Elt F) → (⟨S1700000x1, .i32⟩ : BufTy).Contents (Elt F)),
    binary main_v53 main_v94 main_v95 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    unary main_v88 main_v96 (broadcastInDim S1700000x128 ![0, 1] bcast_S1700000x1_S1700000x128_0_1 : (⟨S1700000x1, .f32⟩ : BufTy).Contents (Elt F) → (⟨S1700000x128, .f32⟩ : BufTy).Contents (Elt F)),
    binary main_v96 main_v95 main_v97 (mulf : (⟨S1700000x128, .f32⟩ : BufTy).Contents (Elt F) → (⟨S1700000x128, .f32⟩ : BufTy).Contents (Elt F) → (⟨S1700000x128, .f32⟩ : BufTy).Contents (Elt F)),
    nullary main_cst_22 (constant S_ .f32 0x00000000#32),
    unary main_cst_22 main_v98 (broadcastInDim S100000x128 ![] bcast_S_S100000x128 : (⟨S_, .f32⟩ : BufTy).Contents (Elt F) → (⟨S100000x128, .f32⟩ : BufTy).Contents (Elt F)),
    unary main_v60 main_v99 (broadcastInDim S1700000x1 ![0] bcast_S1700000_S1700000x1_0 : (⟨S1700000, .i32⟩ : BufTy).Contents (Elt F) → (⟨S1700000x1, .i32⟩ : BufTy).Contents (Elt F)),
    ternary main_v98 main_v99 main_v97 main_v100 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)) ]

/-- Piece 4: the second layer's bias, mix and activation, and the third projection. -/
abbrev S4 : List (HloOp τ sig (Elt F)) :=
  [ unary main_arg9 main_v101 (broadcastInDim S1x128 ![1] bcast_S128_S1x128_1 : (⟨S128, .f32⟩ : BufTy).Contents (Elt F) → (⟨S1x128, .f32⟩ : BufTy).Contents (Elt F)),
    unary main_v101 main_v102 (broadcastInDim S100000x128 ![0, 1] bcast_S1x128_S100000x128_0_1 : (⟨S1x128, .f32⟩ : BufTy).Contents (Elt F) → (⟨S100000x128, .f32⟩ : BufTy).Contents (Elt F)),
    binary main_v100 main_v102 main_v103 (addf : (⟨S100000x128, .f32⟩ : BufTy).Contents (Elt F) → (⟨S100000x128, .f32⟩ : BufTy).Contents (Elt F) → (⟨S100000x128, .f32⟩ : BufTy).Contents (Elt F)),
    nullary main_cst_23 (constant S_ .f32 0x3F000000#32),
    unary main_cst_23 main_v104 (broadcastInDim S100000x128 ![] bcast_S_S100000x128 : (⟨S_, .f32⟩ : BufTy).Contents (Elt F) → (⟨S100000x128, .f32⟩ : BufTy).Contents (Elt F)),
    binary main_v104 main_v103 main_v105 (mulf : (⟨S100000x128, .f32⟩ : BufTy).Contents (Elt F) → (⟨S100000x128, .f32⟩ : BufTy).Contents (Elt F) → (⟨S100000x128, .f32⟩ : BufTy).Contents (Elt F)),
    nullary main_cst_24 (constant S_ .f32 0x3F000000#32),
    unary main_cst_24 main_v106 (broadcastInDim S100000x128 ![] bcast_S_S100000x128 : (⟨S_, .f32⟩ : BufTy).Contents (Elt F) → (⟨S100000x128, .f32⟩ : BufTy).Contents (Elt F)),
    binary main_v106 main_v51 main_v107 (mulf : (⟨S100000x128, .f32⟩ : BufTy).Contents (Elt F) → (⟨S100000x128, .f32⟩ : BufTy).Contents (Elt F) → (⟨S100000x128, .f32⟩ : BufTy).Contents (Elt F)),
    binary main_v105 main_v107 main_v108 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S100000x128, .f32⟩) main_call3_v0) (broadcastInDim S100000x128 ![] bcast_S_S100000x128),
    TRef.binary (TRef.of (T := ⟨S100000x128, .f32⟩) main_v108) (TRef.of (T := ⟨S100000x128, .f32⟩) main_call3_v0) (TRef.of (T := ⟨S100000x128, .f32⟩) main_v109) maximumf,
    binary main_v109 main_arg10 main_v110 ((fun l r => Host.dotGeneral dot_S100000x128_S128x40_S100000x40_1_0_0_1_n_n none l r) : (⟨S100000x128, .f32⟩ : BufTy).Contents (Elt F) → (⟨S128x40, .f32⟩ : BufTy).Contents (Elt F) → (⟨S100000x40, .f32⟩ : BufTy).Contents (Elt F)) ]

/-- Piece 5: the third layer's aggregation over the edges. -/
abbrev S5 : List (HloOp τ sig (Elt F)) :=
  [ unary main_arg3 main_v111 ((extractStridedSlice S1x1600000 ![0, 0] · slices_S2x1600000_S1x1600000_0_0) : (⟨S2x1600000, .i32⟩ : BufTy).Contents (Elt F) → (⟨S1x1600000, .i32⟩ : BufTy).Contents (Elt F)),
    reshape main_v111 main_v112 rfl shapeCasts_S1x1600000_S1600000,
    unary main_arg3 main_v113 ((extractStridedSlice S1x1600000 ![1, 0] · slices_S2x1600000_S1x1600000_1_0) : (⟨S2x1600000, .i32⟩ : BufTy).Contents (Elt F) → (⟨S1x1600000, .i32⟩ : BufTy).Contents (Elt F)),
    reshape main_v113 main_v114 rfl shapeCasts_S1x1600000_S1600000,
    nullary main_v115 (iotaInDim S100000 32 0),
    binary main_v112 main_v115 main_v116 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    binary main_v114 main_v115 main_v117 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    nullary main_cst_25 (constant S_ .f32 0x3F800000#32),
    unary main_cst_25 main_v118 (broadcastInDim S100000 ![] bcast_S_S100000 : (⟨S_, .f32⟩ : BufTy).Contents (Elt F) → (⟨S100000, .f32⟩ : BufTy).Contents (Elt F)),
    binary main_arg5 main_v118 main_v119 ((fun a b => concatenate S1700000 0 [⟨S1600000, a⟩, ⟨S100000, b⟩] concatenates_S1600000_S100000_S1700000_d0) : (⟨S1600000, .f32⟩ : BufTy).Contents (Elt F) → (⟨S100000, .f32⟩ : BufTy).Contents (Elt F) → (⟨S1700000, .f32⟩ : BufTy).Contents (Elt F)),
    nullary main_cst_26 (constant S_ .f32 0x00000000#32),
    unary main_cst_26 main_v120 (broadcastInDim S100000 ![] bcast_S_S100000 : (⟨S_, .f32⟩ : BufTy).Contents (Elt F) → (⟨S100000, .f32⟩ : BufTy).Contents (Elt F)),
    unary main_v117 main_v121 (broadcastInDim S1700000x1 ![0] bcast_S1700000_S1700000x1_0 : (⟨S1700000, .i32⟩ : BufTy).Contents (Elt F) → (⟨S1700000x1, .i32⟩ : BufTy).Contents (Elt F)),
    ternary main_v120 main_v121 main_v119 main_v122 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    nullary main_cst_27 (constant S_ .f32 0x00000000#32),
    unary main_cst_27 main_v123 (broadcastInDim S100000 ![] bcast_S_S100000 : (⟨S_, .f32⟩ : BufTy).Contents (Elt F) → (⟨S100000, .f32⟩ : BufTy).Contents (Elt F)),
    binary main_v122 main_v123 main_v124 (cmpf .ogt : (⟨S100000, .f32⟩ : BufTy).Contents (Elt F) → (⟨S100000, .f32⟩ : BufTy).Contents (Elt F) → (⟨S100000, .i1⟩ : BufTy).Contents (Elt F)),
    nullary main_cst_28 (constant S_ .f32 0x2B8CBCCC#32),
    unary main_cst_28 main_v125 (broadcastInDim S100000 ![] bcast_S_S100000 : (⟨S_, .f32⟩ : BufTy).Contents (Elt F) → (⟨S100000, .f32⟩ : BufTy).Contents (Elt F)),
    binary main_v122 main_v125 main_v126 (maximumf : (⟨S100000, .f32⟩ : BufTy).Contents (Elt F) → (⟨S100000, .f32⟩ : BufTy).Contents (Elt F) → (⟨S100000, .f32⟩ : BufTy).Contents (Elt F)),
    unary main_v126 main_v127 (Host.rsqrt : (⟨S100000, .f32⟩ : BufTy).Contents (Elt F) → (⟨S100000, .f32⟩ : BufTy).Contents (Elt F)),
    nullary main_cst_29 (constant S_ .f32 0x00000000#32),
    TRef.unary (TRef.of (T := ⟨S_, .f32⟩) main_cst_29) (TRef.of (T := ⟨S_, .f32⟩) main_call4_v0) id,
    TRef.unary (TRef.of (T := ⟨S_, .f32⟩) main_call4_v0) (TRef.of (T := ⟨S100000, .f32⟩) main_call4_v1) (broadcastInDim S100000 ![] bcast_S_S100000),
    TRef.ternary (TRef.of (T := ⟨S100000, .i1⟩) main_v124) (TRef.of (T := ⟨S100000, .f32⟩) main_v127) (TRef.of (T := ⟨S100000, .f32⟩) main_call4_v1) (TRef.of (T := ⟨S100000, .f32⟩) main_v128) select,
    nullary main_c_30 (constantI S_ 32 0#32),
    unary main_c_30 main_v129 (broadcastInDim S1700000 ![] bcast_S_S1700000 : (⟨S_, .i32⟩ : BufTy).Contents (Elt F) → (⟨S1700000, .i32⟩ : BufTy).Contents (Elt F)),
    binary main_v116 main_v129 main_v130 (cmpi .slt : (⟨S1700000, .i32⟩ : BufTy).Contents (Elt F) → (⟨S1700000, .i32⟩ : BufTy).Contents (Elt F) → (⟨S1700000, .i1⟩ : BufTy).Contents (Elt F)),
    nullary main_c_31 (constantI S_ 32 100000#32),
    unary main_c_31 main_v131 (broadcastInDim S1700000 ![] bcast_S_S1700000 : (⟨S_, .i32⟩ : BufTy).Contents (Elt F) → (⟨S1700000, .i32⟩ : BufTy).Contents (Elt F)),
    binary main_v116 main_v131 main_v132 (addi : (⟨S1700000, .i32⟩ : BufTy).Contents (Elt F) → (⟨S1700000, .i32⟩ : BufTy).Contents (Elt F) → (⟨S1700000, .i32⟩ : BufTy).Contents (Elt F)),
    ternary main_v130 main_v132 main_v116 main_v133 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v133 main_v134 (broadcastInDim S1700000x1 ![0] bcast_S1700000_S1700000x1_0 : (⟨S1700000, .i32⟩ : BufTy).Contents (Elt F) → (⟨S1700000x1, .i32⟩ : BufTy).Contents (Elt F)),
    binary main_v128 main_v134 main_v135 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v135 main_v119 main_v136 (mulf : (⟨S1700000, .f32⟩ : BufTy).Contents (Elt F) → (⟨S1700000, .f32⟩ : BufTy).Contents (Elt F) → (⟨S1700000, .f32⟩ : BufTy).Contents (Elt F)),
    nullary main_c_32 (constantI S_ 32 0#32),
    unary main_c_32 main_v137 (broadcastInDim S1700000 ![] bcast_S_S1700000 : (⟨S_, .i32⟩ : BufTy).Contents (Elt F) → (⟨S1700000, .i32⟩ : BufTy).Contents (Elt F)),
    binary main_v117 main_v137 main_v138 (cmpi .slt : (⟨S1700000, .i32⟩ : BufTy).Contents (Elt F) → (⟨S1700000, .i32⟩ : BufTy).Contents (Elt F) → (⟨S1700000, .i1⟩ : BufTy).Contents (Elt F)),
    nullary main_c_33 (constantI S_ 32 100000#32),
    unary main_c_33 main_v139 (broadcastInDim S1700000 ![] bcast_S_S1700000 : (⟨S_, .i32⟩ : BufTy).Contents (Elt F) → (⟨S1700000, .i32⟩ : BufTy).Contents (Elt F)),
    binary main_v117 main_v139 main_v140 (addi : (⟨S1700000, .i32⟩ : BufTy).Contents (Elt F) → (⟨S1700000, .i32⟩ : BufTy).Contents (Elt F) → (⟨S1700000, .i32⟩ : BufTy).Contents (Elt F)),
    ternary main_v138 main_v140 main_v117 main_v141 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v141 main_v142 (broadcastInDim S1700000x1 ![0] bcast_S1700000_S1700000x1_0 : (⟨S1700000, .i32⟩ : BufTy).Contents (Elt F) → (⟨S1700000x1, .i32⟩ : BufTy).Contents (Elt F)),
    binary main_v128 main_v142 main_v143 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v136 main_v143 main_v144 (mulf : (⟨S1700000, .f32⟩ : BufTy).Contents (Elt F) → (⟨S1700000, .f32⟩ : BufTy).Contents (Elt F) → (⟨S1700000, .f32⟩ : BufTy).Contents (Elt F)),
    unary main_v144 main_v145 (broadcastInDim S1700000x1 ![0] bcast_S1700000_S1700000x1_0 : (⟨S1700000, .f32⟩ : BufTy).Contents (Elt F) → (⟨S1700000x1, .f32⟩ : BufTy).Contents (Elt F)),
    nullary main_c_34 (constantI S_ 32 0#32),
    unary main_c_34 main_v146 (broadcastInDim S1700000 ![] bcast_S_S1700000 : (⟨S_, .i32⟩ : BufTy).Contents (Elt F) → (⟨S1700000, .i32⟩ : BufTy).Contents (Elt F)),
    binary main_v116 main_v146 main_v147 (cmpi .slt : (⟨S1700000, .i32⟩ : BufTy).Contents (Elt F) → (⟨S1700000, .i32⟩ : BufTy).Contents (Elt F) → (⟨S1700000, .i1⟩ : BufTy).Contents (Elt F)),
    nullary main_c_35 (constantI S_ 32 100000#32),
    unary main_c_35 main_v148 (broadcastInDim S1700000 ![] bcast_S_S1700000 : (⟨S_, .i32⟩ : BufTy).Contents (Elt F) → (⟨S1700000, .i32⟩ : BufTy).Contents (Elt F)),
    binary main_v116 main_v148 main_v149 (addi : (⟨S1700000, .i32⟩ : BufTy).Contents (Elt F) → (⟨S1700000, .i32⟩ : BufTy).Contents (Elt F) → (⟨S1700000, .i32⟩ : BufTy).Contents (Elt F)),
    ternary main_v147 main_v149 main_v116 main_v150 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v150 main_v151 (broadcastInDim S1700000x1 ![0] bcast_S1700000_S1700000x1_0 : (⟨S1700000, .i32⟩ : BufTy).Contents (Elt F) → (⟨S1700000x1, .i32⟩ : BufTy).Contents (Elt F)),
    binary main_v110 main_v151 main_v152 ((fun x i => Host.gather gather_S100000x40_S1700000x1_S1700000x40_1_0_n_n_0_1_140 x i) : (⟨S100000x40, .f32⟩ : BufTy).Contents (Elt F) → (⟨S1700000x1, .i32⟩ : BufTy).Contents (Elt F) → (⟨S1700000x40, .f32⟩ : BufTy).Contents (Elt F)),
    unary main_v145 main_v153 (broadcastInDim S1700000x40 ![0, 1] bcast_S1700000x1_S1700000x40_0_1 : (⟨S1700000x1, .f32⟩ : BufTy).Contents (Elt F) → (⟨S1700000x40, .f32⟩ : BufTy).Contents (Elt F)),
    binary main_v153 main_v152 main_v154 (mulf : (⟨S1700000x40, .f32⟩ : BufTy).Contents (Elt F) → (⟨S1700000x40, .f32⟩ : BufTy).Contents (Elt F) → (⟨S1700000x40, .f32⟩ : BufTy).Contents (Elt F)),
    nullary main_cst_36 (constant S_ .f32 0x00000000#32),
    unary main_cst_36 main_v155 (broadcastInDim S100000x40 ![] bcast_S_S100000x40 : (⟨S_, .f32⟩ : BufTy).Contents (Elt F) → (⟨S100000x40, .f32⟩ : BufTy).Contents (Elt F)),
    unary main_v117 main_v156 (broadcastInDim S1700000x1 ![0] bcast_S1700000_S1700000x1_0 : (⟨S1700000, .i32⟩ : BufTy).Contents (Elt F) → (⟨S1700000x1, .i32⟩ : BufTy).Contents (Elt F)),
    ternary main_v155 main_v156 main_v154 main_v157 ((fun x i u => Host.scatterAdd scatter_S100000x40_S1700000x1_S1700000x40_1_0_0_1 x i u) : (⟨S100000x40, .f32⟩ : BufTy).Contents (Elt F) → (⟨S1700000x1, .i32⟩ : BufTy).Contents (Elt F) → (⟨S1700000x40, .f32⟩ : BufTy).Contents (Elt F) → (⟨S100000x40, .f32⟩ : BufTy).Contents (Elt F)) ]

/-- Piece 6: the third layer's bias and the row-wise log-softmax. -/
abbrev S6 : List (HloOp τ sig (Elt F)) :=
  [ unary main_arg11 main_v158 (broadcastInDim S1x40 ![1] bcast_S40_S1x40_1 : (⟨S40, .f32⟩ : BufTy).Contents (Elt F) → (⟨S1x40, .f32⟩ : BufTy).Contents (Elt F)),
    unary main_v158 main_v159 (broadcastInDim S100000x40 ![0, 1] bcast_S1x40_S100000x40_0_1 : (⟨S1x40, .f32⟩ : BufTy).Contents (Elt F) → (⟨S100000x40, .f32⟩ : BufTy).Contents (Elt F)),
    binary main_v157 main_v159 main_v160 (addf : (⟨S100000x40, .f32⟩ : BufTy).Contents (Elt F) → (⟨S100000x40, .f32⟩ : BufTy).Contents (Elt F) → (⟨S100000x40, .f32⟩ : BufTy).Contents (Elt F)),
    TRef.nullary (TRef.of (T := ⟨S_, .f32⟩) main_call5_cst) (constant S_ .f32 0xFF800000#32),
    TRef.binary (TRef.of (T := ⟨S100000x40, .f32⟩) main_v160) (TRef.of (T := ⟨S_, .f32⟩) main_call5_cst) (TRef.of (T := ⟨S100000, .f32⟩) main_call5_v0) (fun x v => Host.reduce FloatOps.maximumf x v reducesTo_S100000x40_S100000_d1 h_S_),
    TRef.nullary (TRef.of (T := ⟨S_, .f32⟩) main_call5_cst_0) (constant S_ .f32 0xFF800000#32),
    TRef.unary (TRef.of (T := ⟨S_, .f32⟩) main_call5_cst_0) (TRef.of (T := ⟨S100000, .f32⟩) main_call5_v1) (broadcastInDim S100000 ![] bcast_S_S100000),
    TRef.binary (TRef.of (T := ⟨S100000, .f32⟩) main_call5_v1) (TRef.of (T := ⟨S100000, .f32⟩) main_call5_v0) (TRef.of (T := ⟨S100000, .f32⟩) main_call5_v2) maximumf,
    TRef.unary (TRef.of (T := ⟨S100000, .f32⟩) main_call5_v2) (TRef.of (T := ⟨S100000x1, .f32⟩) main_call5_v3) (broadcastInDim S100000x1 ![0] bcast_S100000_S100000x1_0),
    TRef.unary (TRef.of (T := ⟨S100000x1, .f32⟩) main_call5_v3) (TRef.of (T := ⟨S100000x40, .f32⟩) main_call5_v4) (broadcastInDim S100000x40 ![0, 1] bcast_S100000x1_S100000x40_0_1),
    TRef.binary (TRef.of (T := ⟨S100000x40, .f32⟩) main_v160) (TRef.of (T := ⟨S100000x40, .f32⟩) main_call5_v4) (TRef.of (T := ⟨S100000x40, .f32⟩) main_call5_v5) subf,
    TRef.unary (TRef.of (T := ⟨S100000x40, .f32⟩) main_call5_v5) (TRef.of (T := ⟨S100000x40, .f32⟩) main_call5_v6) Host.exp,
    TRef.nullary (TRef.of (T := ⟨S_, .f32⟩) main_call5_cst_1) (constant S_ .f32 0x00000000#32),
    TRef.binary (TRef.of (T := ⟨S100000x40, .f32⟩) main_call5_v6) (TRef.of (T := ⟨S_, .f32⟩) main_call5_cst_1) (TRef.of (T := ⟨S100000, .f32⟩) main_call5_v7) (fun x v => Host.reduceAdd x v reducesTo_S100000x40_S100000_d1 h_S_),
    TRef.unary (TRef.of (T := ⟨S100000, .f32⟩) main_call5_v7) (TRef.of (T := ⟨S100000x1, .f32⟩) main_call5_v8) (broadcastInDim S100000x1 ![0] bcast_S100000_S100000x1_0),
    TRef.unary (TRef.of (T := ⟨S100000x1, .f32⟩) main_call5_v8) (TRef.of (T := ⟨S100000x1, .f32⟩) main_call5_v9) Host.log,
    TRef.unary (TRef.of (T := ⟨S100000x1, .f32⟩) main_call5_v9) (TRef.of (T := ⟨S100000x40, .f32⟩) main_call5_v10) (broadcastInDim S100000x40 ![0, 1] bcast_S100000x1_S100000x40_0_1),
    TRef.binary (TRef.of (T := ⟨S100000x40, .f32⟩) main_call5_v5) (TRef.of (T := ⟨S100000x40, .f32⟩) main_call5_v10) (TRef.of (T := ⟨S100000x40, .f32⟩) main_v161) subf ]

set_option maxRecDepth 16384 in
/-- The operation list is the six pieces in order. -/
theorem ops_split : (ops : List (HloOp τ sig (Elt F))) = S1 ++ (S2 ++ (S3 ++ (S4 ++ (S5 ++ S6)))) := rfl

/-- Running two lists one after the other is running their concatenation. -/
theorem after_append (xs ys : List (HloOp τ sig (Elt F))) (V : Valuation τ sig (Elt F)) :
    after (xs ++ ys) V = after ys (after xs V) := by
  induction xs generalizing V with
  | nil => rfl
  | cons x xs ih => exact ih _

variable (m : (ℓ : Loc nD τ sig) → Buf (Elt F) ℓ) (c : Dev nD)

/-- The buffer contents at launch and after each piece. -/
def U0 : Valuation τ sig (Elt F) := launchContents m c
def U1 : Valuation τ sig (Elt F) := after S1 (U0 m c)
def U2 : Valuation τ sig (Elt F) := after S2 (U1 m c)
def U3 : Valuation τ sig (Elt F) := after S3 (U2 m c)
def U4 : Valuation τ sig (Elt F) := after S4 (U3 m c)
def U5 : Valuation τ sig (Elt F) := after S5 (U4 m c)
def U6 : Valuation τ sig (Elt F) := after S6 (U5 m c)

/-- The contents after the whole list are the contents after the sixth piece. -/
theorem after_ops : after (ops : List (HloOp τ sig (Elt F))) (launchContents m c) = U6 m c := by
  rw [ops_split, after_append, after_append, after_append, after_append, after_append]
  rfl

end Cert.ReferenceIdeal.Segs

end
-- ==== Proof.RefKept.lean ====
/-
  No operation of the reference writes an argument array, so at every boundary between the pieces of @main each
  argument buffer still holds the launch memory's contents; and the third piece does not write the first layer's
  pre-activation, which the fourth piece reads.
-/
import proofs.«109993_j29592324669623_1_alg».proof.Proof.RefSegs

set_option maxRecDepth 16384

noncomputable section

namespace Cert.ReferenceIdeal.Kept

open Cert.ReferenceIdeal Cert.ReferenceIdeal.Gen Idealize.ShloMosaic Idealize.ShloMosaic.TcCoe Idealize.SL.Sem Idealize.ShloMosaic.StableHlo
open Cert.ReferenceIdeal.Segs

variable {F : FTy → Type} [FloatOps F]
variable (m : (ℓ : Loc nD τ sig) → Buf (Elt F) ℓ) (c : Dev nD)

theorem U0_arg0 : U0 m c (Proc.devRef .tc main_arg0) = m ((c.tc : Thread nD τ).loc main_arg0) := rfl
theorem U1_arg0 : U1 m c (Proc.devRef .tc main_arg0) = m ((c.tc : Thread nD τ).loc main_arg0) :=
  (show after S1 (U0 m c) (Proc.devRef .tc main_arg0) = U0 m c (Proc.devRef .tc main_arg0) from
    StableHlo.after_of_forall_not_mem (b := Proc.devRef .tc main_arg0) _ _ (List.forall_iff_forall_mem.mp (by
      simp only [S1, List.Forall, StableHlo.nullary_writes, StableHlo.unary_writes, StableHlo.binary_writes, StableHlo.ternary_writes, StableHlo.quaternary_writes, StableHlo.reshape_writes, StableHlo.binaryIndexed_writes, StableHlo.TRef.nullary, StableHlo.TRef.unary, StableHlo.TRef.binary, StableHlo.TRef.ternary, Finset.mem_singleton]
      repeat' apply And.intro
      all_goals exact StableHlo.devRef_ne_of_ne (by decide)))).trans (U0_arg0 m c)
theorem U2_arg0 : U2 m c (Proc.devRef .tc main_arg0) = m ((c.tc : Thread nD τ).loc main_arg0) :=
  (show after S2 (U1 m c) (Proc.devRef .tc main_arg0) = U1 m c (Proc.devRef .tc main_arg0) from
    StableHlo.after_of_forall_not_mem (b := Proc.devRef .tc main_arg0) _ _ (List.forall_iff_forall_mem.mp (by
      simp only [S2, List.Forall, StableHlo.nullary_writes, StableHlo.unary_writes, StableHlo.binary_writes, StableHlo.ternary_writes, StableHlo.quaternary_writes, StableHlo.reshape_writes, StableHlo.binaryIndexed_writes, StableHlo.TRef.nullary, StableHlo.TRef.unary, StableHlo.TRef.binary, StableHlo.TRef.ternary, Finset.mem_singleton]
      repeat' apply And.intro
      all_goals exact StableHlo.devRef_ne_of_ne (by decide)))).trans (U1_arg0 m c)
theorem U3_arg0 : U3 m c (Proc.devRef .tc main_arg0) = m ((c.tc : Thread nD τ).loc main_arg0) :=
  (show after S3 (U2 m c) (Proc.devRef .tc main_arg0) = U2 m c (Proc.devRef .tc main_arg0) from
    StableHlo.after_of_forall_not_mem (b := Proc.devRef .tc main_arg0) _ _ (List.forall_iff_forall_mem.mp (by
      simp only [S3, List.Forall, StableHlo.nullary_writes, StableHlo.unary_writes, StableHlo.binary_writes, StableHlo.ternary_writes, StableHlo.quaternary_writes, StableHlo.reshape_writes, StableHlo.binaryIndexed_writes, StableHlo.TRef.nullary, StableHlo.TRef.unary, StableHlo.TRef.binary, StableHlo.TRef.ternary, Finset.mem_singleton]
      repeat' apply And.intro
      all_goals exact StableHlo.devRef_ne_of_ne (by decide)))).trans (U2_arg0 m c)
theorem U4_arg0 : U4 m c (Proc.devRef .tc main_arg0) = m ((c.tc : Thread nD τ).loc main_arg0) :=
  (show after S4 (U3 m c) (Proc.devRef .tc main_arg0) = U3 m c (Proc.devRef .tc main_arg0) from
    StableHlo.after_of_forall_not_mem (b := Proc.devRef .tc main_arg0) _ _ (List.forall_iff_forall_mem.mp (by
      simp only [S4, List.Forall, StableHlo.nullary_writes, StableHlo.unary_writes, StableHlo.binary_writes, StableHlo.ternary_writes, StableHlo.quaternary_writes, StableHlo.reshape_writes, StableHlo.binaryIndexed_writes, StableHlo.TRef.nullary, StableHlo.TRef.unary, StableHlo.TRef.binary, StableHlo.TRef.ternary, Finset.mem_singleton]
      repeat' apply And.intro
      all_goals exact StableHlo.devRef_ne_of_ne (by decide)))).trans (U3_arg0 m c)
theorem U5_arg0 : U5 m c (Proc.devRef .tc main_arg0) = m ((c.tc : Thread nD τ).loc main_arg0) :=
  (show after S5 (U4 m c) (Proc.devRef .tc main_arg0) = U4 m c (Proc.devRef .tc main_arg0) from
    StableHlo.after_of_forall_not_mem (b := Proc.devRef .tc main_arg0) _ _ (List.forall_iff_forall_mem.mp (by
      simp only [S5, List.Forall, StableHlo.nullary_writes, StableHlo.unary_writes, StableHlo.binary_writes, StableHlo.ternary_writes, StableHlo.quaternary_writes, StableHlo.reshape_writes, StableHlo.binaryIndexed_writes, StableHlo.TRef.nullary, StableHlo.TRef.unary, StableHlo.TRef.binary, StableHlo.TRef.ternary, Finset.mem_singleton]
      repeat' apply And.intro
      all_goals exact StableHlo.devRef_ne_of_ne (by decide)))).trans (U4_arg0 m c)
theorem U6_arg0 : U6 m c (Proc.devRef .tc main_arg0) = m ((c.tc : Thread nD τ).loc main_arg0) :=
  (show after S6 (U5 m c) (Proc.devRef .tc main_arg0) = U5 m c (Proc.devRef .tc main_arg0) from
    StableHlo.after_of_forall_not_mem (b := Proc.devRef .tc main_arg0) _ _ (List.forall_iff_forall_mem.mp (by
      simp only [S6, List.Forall, StableHlo.nullary_writes, StableHlo.unary_writes, StableHlo.binary_writes, StableHlo.ternary_writes, StableHlo.quaternary_writes, StableHlo.reshape_writes, StableHlo.binaryIndexed_writes, StableHlo.TRef.nullary, StableHlo.TRef.unary, StableHlo.TRef.binary, StableHlo.TRef.ternary, Finset.mem_singleton]
      repeat' apply And.intro
      all_goals exact StableHlo.devRef_ne_of_ne (by decide)))).trans (U5_arg0 m c)
theorem U0_arg1 : U0 m c (Proc.devRef .tc main_arg1) = m ((c.tc : Thread nD τ).loc main_arg1) := rfl
theorem U1_arg1 : U1 m c (Proc.devRef .tc main_arg1) = m ((c.tc : Thread nD τ).loc main_arg1) :=
  (show after S1 (U0 m c) (Proc.devRef .tc main_arg1) = U0 m c (Proc.devRef .tc main_arg1) from
    StableHlo.after_of_forall_not_mem (b := Proc.devRef .tc main_arg1) _ _ (List.forall_iff_forall_mem.mp (by
      simp only [S1, List.Forall, StableHlo.nullary_writes, StableHlo.unary_writes, StableHlo.binary_writes, StableHlo.ternary_writes, StableHlo.quaternary_writes, StableHlo.reshape_writes, StableHlo.binaryIndexed_writes, StableHlo.TRef.nullary, StableHlo.TRef.unary, StableHlo.TRef.binary, StableHlo.TRef.ternary, Finset.mem_singleton]
      repeat' apply And.intro
      all_goals exact StableHlo.devRef_ne_of_ne (by decide)))).trans (U0_arg1 m c)
theorem U2_arg1 : U2 m c (Proc.devRef .tc main_arg1) = m ((c.tc : Thread nD τ).loc main_arg1) :=
  (show after S2 (U1 m c) (Proc.devRef .tc main_arg1) = U1 m c (Proc.devRef .tc main_arg1) from
    StableHlo.after_of_forall_not_mem (b := Proc.devRef .tc main_arg1) _ _ (List.forall_iff_forall_mem.mp (by
      simp only [S2, List.Forall, StableHlo.nullary_writes, StableHlo.unary_writes, StableHlo.binary_writes, StableHlo.ternary_writes, StableHlo.quaternary_writes, StableHlo.reshape_writes, StableHlo.binaryIndexed_writes, StableHlo.TRef.nullary, StableHlo.TRef.unary, StableHlo.TRef.binary, StableHlo.TRef.ternary, Finset.mem_singleton]
      repeat' apply And.intro
      all_goals exact StableHlo.devRef_ne_of_ne (by decide)))).trans (U1_arg1 m c)
theorem U3_arg1 : U3 m c (Proc.devRef .tc main_arg1) = m ((c.tc : Thread nD τ).loc main_arg1) :=
  (show after S3 (U2 m c) (Proc.devRef .tc main_arg1) = U2 m c (Proc.devRef .tc main_arg1) from
    StableHlo.after_of_forall_not_mem (b := Proc.devRef .tc main_arg1) _ _ (List.forall_iff_forall_mem.mp (by
      simp only [S3, List.Forall, StableHlo.nullary_writes, StableHlo.unary_writes, StableHlo.binary_writes, StableHlo.ternary_writes, StableHlo.quaternary_writes, StableHlo.reshape_writes, StableHlo.binaryIndexed_writes, StableHlo.TRef.nullary, StableHlo.TRef.unary, StableHlo.TRef.binary, StableHlo.TRef.ternary, Finset.mem_singleton]
      repeat' apply And.intro
      all_goals exact StableHlo.devRef_ne_of_ne (by decide)))).trans (U2_arg1 m c)
theorem U4_arg1 : U4 m c (Proc.devRef .tc main_arg1) = m ((c.tc : Thread nD τ).loc main_arg1) :=
  (show after S4 (U3 m c) (Proc.devRef .tc main_arg1) = U3 m c (Proc.devRef .tc main_arg1) from
    StableHlo.after_of_forall_not_mem (b := Proc.devRef .tc main_arg1) _ _ (List.forall_iff_forall_mem.mp (by
      simp only [S4, List.Forall, StableHlo.nullary_writes, StableHlo.unary_writes, StableHlo.binary_writes, StableHlo.ternary_writes, StableHlo.quaternary_writes, StableHlo.reshape_writes, StableHlo.binaryIndexed_writes, StableHlo.TRef.nullary, StableHlo.TRef.unary, StableHlo.TRef.binary, StableHlo.TRef.ternary, Finset.mem_singleton]
      repeat' apply And.intro
      all_goals exact StableHlo.devRef_ne_of_ne (by decide)))).trans (U3_arg1 m c)
theorem U5_arg1 : U5 m c (Proc.devRef .tc main_arg1) = m ((c.tc : Thread nD τ).loc main_arg1) :=
  (show after S5 (U4 m c) (Proc.devRef .tc main_arg1) = U4 m c (Proc.devRef .tc main_arg1) from
    StableHlo.after_of_forall_not_mem (b := Proc.devRef .tc main_arg1) _ _ (List.forall_iff_forall_mem.mp (by
      simp only [S5, List.Forall, StableHlo.nullary_writes, StableHlo.unary_writes, StableHlo.binary_writes, StableHlo.ternary_writes, StableHlo.quaternary_writes, StableHlo.reshape_writes, StableHlo.binaryIndexed_writes, StableHlo.TRef.nullary, StableHlo.TRef.unary, StableHlo.TRef.binary, StableHlo.TRef.ternary, Finset.mem_singleton]
      repeat' apply And.intro
      all_goals exact StableHlo.devRef_ne_of_ne (by decide)))).trans (U4_arg1 m c)
theorem U6_arg1 : U6 m c (Proc.devRef .tc main_arg1) = m ((c.tc : Thread nD τ).loc main_arg1) :=
  (show after S6 (U5 m c) (Proc.devRef .tc main_arg1) = U5 m c (Proc.devRef .tc main_arg1) from
    StableHlo.after_of_forall_not_mem (b := Proc.devRef .tc main_arg1) _ _ (List.forall_iff_forall_mem.mp (by
      simp only [S6, List.Forall, StableHlo.nullary_writes, StableHlo.unary_writes, StableHlo.binary_writes, StableHlo.ternary_writes, StableHlo.quaternary_writes, StableHlo.reshape_writes, StableHlo.binaryIndexed_writes, StableHlo.TRef.nullary, StableHlo.TRef.unary, StableHlo.TRef.binary, StableHlo.TRef.ternary, Finset.mem_singleton]
      repeat' apply And.intro
      all_goals exact StableHlo.devRef_ne_of_ne (by decide)))).trans (U5_arg1 m c)
theorem U0_arg2 : U0 m c (Proc.devRef .tc main_arg2) = m ((c.tc : Thread nD τ).loc main_arg2) := rfl
theorem U1_arg2 : U1 m c (Proc.devRef .tc main_arg2) = m ((c.tc : Thread nD τ).loc main_arg2) :=
  (show after S1 (U0 m c) (Proc.devRef .tc main_arg2) = U0 m c (Proc.devRef .tc main_arg2) from
    StableHlo.after_of_forall_not_mem (b := Proc.devRef .tc main_arg2) _ _ (List.forall_iff_forall_mem.mp (by
      simp only [S1, List.Forall, StableHlo.nullary_writes, StableHlo.unary_writes, StableHlo.binary_writes, StableHlo.ternary_writes, StableHlo.quaternary_writes, StableHlo.reshape_writes, StableHlo.binaryIndexed_writes, StableHlo.TRef.nullary, StableHlo.TRef.unary, StableHlo.TRef.binary, StableHlo.TRef.ternary, Finset.mem_singleton]
      repeat' apply And.intro
      all_goals exact StableHlo.devRef_ne_of_ne (by decide)))).trans (U0_arg2 m c)
theorem U2_arg2 : U2 m c (Proc.devRef .tc main_arg2) = m ((c.tc : Thread nD τ).loc main_arg2) :=
  (show after S2 (U1 m c) (Proc.devRef .tc main_arg2) = U1 m c (Proc.devRef .tc main_arg2) from
    StableHlo.after_of_forall_not_mem (b := Proc.devRef .tc main_arg2) _ _ (List.forall_iff_forall_mem.mp (by
      simp only [S2, List.Forall, StableHlo.nullary_writes, StableHlo.unary_writes, StableHlo.binary_writes, StableHlo.ternary_writes, StableHlo.quaternary_writes, StableHlo.reshape_writes, StableHlo.binaryIndexed_writes, StableHlo.TRef.nullary, StableHlo.TRef.unary, StableHlo.TRef.binary, StableHlo.TRef.ternary, Finset.mem_singleton]
      repeat' apply And.intro
      all_goals exact StableHlo.devRef_ne_of_ne (by decide)))).trans (U1_arg2 m c)
theorem U3_arg2 : U3 m c (Proc.devRef .tc main_arg2) = m ((c.tc : Thread nD τ).loc main_arg2) :=
  (show after S3 (U2 m c) (Proc.devRef .tc main_arg2) = U2 m c (Proc.devRef .tc main_arg2) from
    StableHlo.after_of_forall_not_mem (b := Proc.devRef .tc main_arg2) _ _ (List.forall_iff_forall_mem.mp (by
      simp only [S3, List.Forall, StableHlo.nullary_writes, StableHlo.unary_writes, StableHlo.binary_writes, StableHlo.ternary_writes, StableHlo.quaternary_writes, StableHlo.reshape_writes, StableHlo.binaryIndexed_writes, StableHlo.TRef.nullary, StableHlo.TRef.unary, StableHlo.TRef.binary, StableHlo.TRef.ternary, Finset.mem_singleton]
      repeat' apply And.intro
      all_goals exact StableHlo.devRef_ne_of_ne (by decide)))).trans (U2_arg2 m c)
theorem U4_arg2 : U4 m c (Proc.devRef .tc main_arg2) = m ((c.tc : Thread nD τ).loc main_arg2) :=
  (show after S4 (U3 m c) (Proc.devRef .tc main_arg2) = U3 m c (Proc.devRef .tc main_arg2) from
    StableHlo.after_of_forall_not_mem (b := Proc.devRef .tc main_arg2) _ _ (List.forall_iff_forall_mem.mp (by
      simp only [S4, List.Forall, StableHlo.nullary_writes, StableHlo.unary_writes, StableHlo.binary_writes, StableHlo.ternary_writes, StableHlo.quaternary_writes, StableHlo.reshape_writes, StableHlo.binaryIndexed_writes, StableHlo.TRef.nullary, StableHlo.TRef.unary, StableHlo.TRef.binary, StableHlo.TRef.ternary, Finset.mem_singleton]
      repeat' apply And.intro
      all_goals exact StableHlo.devRef_ne_of_ne (by decide)))).trans (U3_arg2 m c)
theorem U5_arg2 : U5 m c (Proc.devRef .tc main_arg2) = m ((c.tc : Thread nD τ).loc main_arg2) :=
  (show after S5 (U4 m c) (Proc.devRef .tc main_arg2) = U4 m c (Proc.devRef .tc main_arg2) from
    StableHlo.after_of_forall_not_mem (b := Proc.devRef .tc main_arg2) _ _ (List.forall_iff_forall_mem.mp (by
      simp only [S5, List.Forall, StableHlo.nullary_writes, StableHlo.unary_writes, StableHlo.binary_writes, StableHlo.ternary_writes, StableHlo.quaternary_writes, StableHlo.reshape_writes, StableHlo.binaryIndexed_writes, StableHlo.TRef.nullary, StableHlo.TRef.unary, StableHlo.TRef.binary, StableHlo.TRef.ternary, Finset.mem_singleton]
      repeat' apply And.intro
      all_goals exact StableHlo.devRef_ne_of_ne (by decide)))).trans (U4_arg2 m c)
theorem U6_arg2 : U6 m c (Proc.devRef .tc main_arg2) = m ((c.tc : Thread nD τ).loc main_arg2) :=
  (show after S6 (U5 m c) (Proc.devRef .tc main_arg2) = U5 m c (Proc.devRef .tc main_arg2) from
    StableHlo.after_of_forall_not_mem (b := Proc.devRef .tc main_arg2) _ _ (List.forall_iff_forall_mem.mp (by
      simp only [S6, List.Forall, StableHlo.nullary_writes, StableHlo.unary_writes, StableHlo.binary_writes, StableHlo.ternary_writes, StableHlo.quaternary_writes, StableHlo.reshape_writes, StableHlo.binaryIndexed_writes, StableHlo.TRef.nullary, StableHlo.TRef.unary, StableHlo.TRef.binary, StableHlo.TRef.ternary, Finset.mem_singleton]
      repeat' apply And.intro
      all_goals exact StableHlo.devRef_ne_of_ne (by decide)))).trans (U5_arg2 m c)
theorem U0_arg3 : U0 m c (Proc.devRef .tc main_arg3) = m ((c.tc : Thread nD τ).loc main_arg3) := rfl
theorem U1_arg3 : U1 m c (Proc.devRef .tc main_arg3) = m ((c.tc : Thread nD τ).loc main_arg3) :=
  (show after S1 (U0 m c) (Proc.devRef .tc main_arg3) = U0 m c (Proc.devRef .tc main_arg3) from
    StableHlo.after_of_forall_not_mem (b := Proc.devRef .tc main_arg3) _ _ (List.forall_iff_forall_mem.mp (by
      simp only [S1, List.Forall, StableHlo.nullary_writes, StableHlo.unary_writes, StableHlo.binary_writes, StableHlo.ternary_writes, StableHlo.quaternary_writes, StableHlo.reshape_writes, StableHlo.binaryIndexed_writes, StableHlo.TRef.nullary, StableHlo.TRef.unary, StableHlo.TRef.binary, StableHlo.TRef.ternary, Finset.mem_singleton]
      repeat' apply And.intro
      all_goals exact StableHlo.devRef_ne_of_ne (by decide)))).trans (U0_arg3 m c)
theorem U2_arg3 : U2 m c (Proc.devRef .tc main_arg3) = m ((c.tc : Thread nD τ).loc main_arg3) :=
  (show after S2 (U1 m c) (Proc.devRef .tc main_arg3) = U1 m c (Proc.devRef .tc main_arg3) from
    StableHlo.after_of_forall_not_mem (b := Proc.devRef .tc main_arg3) _ _ (List.forall_iff_forall_mem.mp (by
      simp only [S2, List.Forall, StableHlo.nullary_writes, StableHlo.unary_writes, StableHlo.binary_writes, StableHlo.ternary_writes, StableHlo.quaternary_writes, StableHlo.reshape_writes, StableHlo.binaryIndexed_writes, StableHlo.TRef.nullary, StableHlo.TRef.unary, StableHlo.TRef.binary, StableHlo.TRef.ternary, Finset.mem_singleton]
      repeat' apply And.intro
      all_goals exact StableHlo.devRef_ne_of_ne (by decide)))).trans (U1_arg3 m c)
theorem U3_arg3 : U3 m c (Proc.devRef .tc main_arg3) = m ((c.tc : Thread nD τ).loc main_arg3) :=
  (show after S3 (U2 m c) (Proc.devRef .tc main_arg3) = U2 m c (Proc.devRef .tc main_arg3) from
    StableHlo.after_of_forall_not_mem (b := Proc.devRef .tc main_arg3) _ _ (List.forall_iff_forall_mem.mp (by
      simp only [S3, List.Forall, StableHlo.nullary_writes, StableHlo.unary_writes, StableHlo.binary_writes, StableHlo.ternary_writes, StableHlo.quaternary_writes, StableHlo.reshape_writes, StableHlo.binaryIndexed_writes, StableHlo.TRef.nullary, StableHlo.TRef.unary, StableHlo.TRef.binary, StableHlo.TRef.ternary, Finset.mem_singleton]
      repeat' apply And.intro
      all_goals exact StableHlo.devRef_ne_of_ne (by decide)))).trans (U2_arg3 m c)
theorem U4_arg3 : U4 m c (Proc.devRef .tc main_arg3) = m ((c.tc : Thread nD τ).loc main_arg3) :=
  (show after S4 (U3 m c) (Proc.devRef .tc main_arg3) = U3 m c (Proc.devRef .tc main_arg3) from
    StableHlo.after_of_forall_not_mem (b := Proc.devRef .tc main_arg3) _ _ (List.forall_iff_forall_mem.mp (by
      simp only [S4, List.Forall, StableHlo.nullary_writes, StableHlo.unary_writes, StableHlo.binary_writes, StableHlo.ternary_writes, StableHlo.quaternary_writes, StableHlo.reshape_writes, StableHlo.binaryIndexed_writes, StableHlo.TRef.nullary, StableHlo.TRef.unary, StableHlo.TRef.binary, StableHlo.TRef.ternary, Finset.mem_singleton]
      repeat' apply And.intro
      all_goals exact StableHlo.devRef_ne_of_ne (by decide)))).trans (U3_arg3 m c)
theorem U5_arg3 : U5 m c (Proc.devRef .tc main_arg3) = m ((c.tc : Thread nD τ).loc main_arg3) :=
  (show after S5 (U4 m c) (Proc.devRef .tc main_arg3) = U4 m c (Proc.devRef .tc main_arg3) from
    StableHlo.after_of_forall_not_mem (b := Proc.devRef .tc main_arg3) _ _ (List.forall_iff_forall_mem.mp (by
      simp only [S5, List.Forall, StableHlo.nullary_writes, StableHlo.unary_writes, StableHlo.binary_writes, StableHlo.ternary_writes, StableHlo.quaternary_writes, StableHlo.reshape_writes, StableHlo.binaryIndexed_writes, StableHlo.TRef.nullary, StableHlo.TRef.unary, StableHlo.TRef.binary, StableHlo.TRef.ternary, Finset.mem_singleton]
      repeat' apply And.intro
      all_goals exact StableHlo.devRef_ne_of_ne (by decide)))).trans (U4_arg3 m c)
theorem U6_arg3 : U6 m c (Proc.devRef .tc main_arg3) = m ((c.tc : Thread nD τ).loc main_arg3) :=
  (show after S6 (U5 m c) (Proc.devRef .tc main_arg3) = U5 m c (Proc.devRef .tc main_arg3) from
    StableHlo.after_of_forall_not_mem (b := Proc.devRef .tc main_arg3) _ _ (List.forall_iff_forall_mem.mp (by
      simp only [S6, List.Forall, StableHlo.nullary_writes, StableHlo.unary_writes, StableHlo.binary_writes, StableHlo.ternary_writes, StableHlo.quaternary_writes, StableHlo.reshape_writes, StableHlo.binaryIndexed_writes, StableHlo.TRef.nullary, StableHlo.TRef.unary, StableHlo.TRef.binary, StableHlo.TRef.ternary, Finset.mem_singleton]
      repeat' apply And.intro
      all_goals exact StableHlo.devRef_ne_of_ne (by decide)))).trans (U5_arg3 m c)
theorem U0_arg4 : U0 m c (Proc.devRef .tc main_arg4) = m ((c.tc : Thread nD τ).loc main_arg4) := rfl
theorem U1_arg4 : U1 m c (Proc.devRef .tc main_arg4) = m ((c.tc : Thread nD τ).loc main_arg4) :=
  (show after S1 (U0 m c) (Proc.devRef .tc main_arg4) = U0 m c (Proc.devRef .tc main_arg4) from
    StableHlo.after_of_forall_not_mem (b := Proc.devRef .tc main_arg4) _ _ (List.forall_iff_forall_mem.mp (by
      simp only [S1, List.Forall, StableHlo.nullary_writes, StableHlo.unary_writes, StableHlo.binary_writes, StableHlo.ternary_writes, StableHlo.quaternary_writes, StableHlo.reshape_writes, StableHlo.binaryIndexed_writes, StableHlo.TRef.nullary, StableHlo.TRef.unary, StableHlo.TRef.binary, StableHlo.TRef.ternary, Finset.mem_singleton]
      repeat' apply And.intro
      all_goals exact StableHlo.devRef_ne_of_ne (by decide)))).trans (U0_arg4 m c)
theorem U2_arg4 : U2 m c (Proc.devRef .tc main_arg4) = m ((c.tc : Thread nD τ).loc main_arg4) :=
  (show after S2 (U1 m c) (Proc.devRef .tc main_arg4) = U1 m c (Proc.devRef .tc main_arg4) from
    StableHlo.after_of_forall_not_mem (b := Proc.devRef .tc main_arg4) _ _ (List.forall_iff_forall_mem.mp (by
      simp only [S2, List.Forall, StableHlo.nullary_writes, StableHlo.unary_writes, StableHlo.binary_writes, StableHlo.ternary_writes, StableHlo.quaternary_writes, StableHlo.reshape_writes, StableHlo.binaryIndexed_writes, StableHlo.TRef.nullary, StableHlo.TRef.unary, StableHlo.TRef.binary, StableHlo.TRef.ternary, Finset.mem_singleton]
      repeat' apply And.intro
      all_goals exact StableHlo.devRef_ne_of_ne (by decide)))).trans (U1_arg4 m c)
theorem U3_arg4 : U3 m c (Proc.devRef .tc main_arg4) = m ((c.tc : Thread nD τ).loc main_arg4) :=
  (show after S3 (U2 m c) (Proc.devRef .tc main_arg4) = U2 m c (Proc.devRef .tc main_arg4) from
    StableHlo.after_of_forall_not_mem (b := Proc.devRef .tc main_arg4) _ _ (List.forall_iff_forall_mem.mp (by
      simp only [S3, List.Forall, StableHlo.nullary_writes, StableHlo.unary_writes, StableHlo.binary_writes, StableHlo.ternary_writes, StableHlo.quaternary_writes, StableHlo.reshape_writes, StableHlo.binaryIndexed_writes, StableHlo.TRef.nullary, StableHlo.TRef.unary, StableHlo.TRef.binary, StableHlo.TRef.ternary, Finset.mem_singleton]
      repeat' apply And.intro
      all_goals exact StableHlo.devRef_ne_of_ne (by decide)))).trans (U2_arg4 m c)
theorem U4_arg4 : U4 m c (Proc.devRef .tc main_arg4) = m ((c.tc : Thread nD τ).loc main_arg4) :=
  (show after S4 (U3 m c) (Proc.devRef .tc main_arg4) = U3 m c (Proc.devRef .tc main_arg4) from
    StableHlo.after_of_forall_not_mem (b := Proc.devRef .tc main_arg4) _ _ (List.forall_iff_forall_mem.mp (by
      simp only [S4, List.Forall, StableHlo.nullary_writes, StableHlo.unary_writes, StableHlo.binary_writes, StableHlo.ternary_writes, StableHlo.quaternary_writes, StableHlo.reshape_writes, StableHlo.binaryIndexed_writes, StableHlo.TRef.nullary, StableHlo.TRef.unary, StableHlo.TRef.binary, StableHlo.TRef.ternary, Finset.mem_singleton]
      repeat' apply And.intro
      all_goals exact StableHlo.devRef_ne_of_ne (by decide)))).trans (U3_arg4 m c)
theorem U5_arg4 : U5 m c (Proc.devRef .tc main_arg4) = m ((c.tc : Thread nD τ).loc main_arg4) :=
  (show after S5 (U4 m c) (Proc.devRef .tc main_arg4) = U4 m c (Proc.devRef .tc main_arg4) from
    StableHlo.after_of_forall_not_mem (b := Proc.devRef .tc main_arg4) _ _ (List.forall_iff_forall_mem.mp (by
      simp only [S5, List.Forall, StableHlo.nullary_writes, StableHlo.unary_writes, StableHlo.binary_writes, StableHlo.ternary_writes, StableHlo.quaternary_writes, StableHlo.reshape_writes, StableHlo.binaryIndexed_writes, StableHlo.TRef.nullary, StableHlo.TRef.unary, StableHlo.TRef.binary, StableHlo.TRef.ternary, Finset.mem_singleton]
      repeat' apply And.intro
      all_goals exact StableHlo.devRef_ne_of_ne (by decide)))).trans (U4_arg4 m c)
theorem U6_arg4 : U6 m c (Proc.devRef .tc main_arg4) = m ((c.tc : Thread nD τ).loc main_arg4) :=
  (show after S6 (U5 m c) (Proc.devRef .tc main_arg4) = U5 m c (Proc.devRef .tc main_arg4) from
    StableHlo.after_of_forall_not_mem (b := Proc.devRef .tc main_arg4) _ _ (List.forall_iff_forall_mem.mp (by
      simp only [S6, List.Forall, StableHlo.nullary_writes, StableHlo.unary_writes, StableHlo.binary_writes, StableHlo.ternary_writes, StableHlo.quaternary_writes, StableHlo.reshape_writes, StableHlo.binaryIndexed_writes, StableHlo.TRef.nullary, StableHlo.TRef.unary, StableHlo.TRef.binary, StableHlo.TRef.ternary, Finset.mem_singleton]
      repeat' apply And.intro
      all_goals exact StableHlo.devRef_ne_of_ne (by decide)))).trans (U5_arg4 m c)
theorem U0_arg5 : U0 m c (Proc.devRef .tc main_arg5) = m ((c.tc : Thread nD τ).loc main_arg5) := rfl
theorem U1_arg5 : U1 m c (Proc.devRef .tc main_arg5) = m ((c.tc : Thread nD τ).loc main_arg5) :=
  (show after S1 (U0 m c) (Proc.devRef .tc main_arg5) = U0 m c (Proc.devRef .tc main_arg5) from
    StableHlo.after_of_forall_not_mem (b := Proc.devRef .tc main_arg5) _ _ (List.forall_iff_forall_mem.mp (by
      simp only [S1, List.Forall, StableHlo.nullary_writes, StableHlo.unary_writes, StableHlo.binary_writes, StableHlo.ternary_writes, StableHlo.quaternary_writes, StableHlo.reshape_writes, StableHlo.binaryIndexed_writes, StableHlo.TRef.nullary, StableHlo.TRef.unary, StableHlo.TRef.binary, StableHlo.TRef.ternary, Finset.mem_singleton]
      repeat' apply And.intro
      all_goals exact StableHlo.devRef_ne_of_ne (by decide)))).trans (U0_arg5 m c)
theorem U2_arg5 : U2 m c (Proc.devRef .tc main_arg5) = m ((c.tc : Thread nD τ).loc main_arg5) :=
  (show after S2 (U1 m c) (Proc.devRef .tc main_arg5) = U1 m c (Proc.devRef .tc main_arg5) from
    StableHlo.after_of_forall_not_mem (b := Proc.devRef .tc main_arg5) _ _ (List.forall_iff_forall_mem.mp (by
      simp only [S2, List.Forall, StableHlo.nullary_writes, StableHlo.unary_writes, StableHlo.binary_writes, StableHlo.ternary_writes, StableHlo.quaternary_writes, StableHlo.reshape_writes, StableHlo.binaryIndexed_writes, StableHlo.TRef.nullary, StableHlo.TRef.unary, StableHlo.TRef.binary, StableHlo.TRef.ternary, Finset.mem_singleton]
      repeat' apply And.intro
      all_goals exact StableHlo.devRef_ne_of_ne (by decide)))).trans (U1_arg5 m c)
theorem U3_arg5 : U3 m c (Proc.devRef .tc main_arg5) = m ((c.tc : Thread nD τ).loc main_arg5) :=
  (show after S3 (U2 m c) (Proc.devRef .tc main_arg5) = U2 m c (Proc.devRef .tc main_arg5) from
    StableHlo.after_of_forall_not_mem (b := Proc.devRef .tc main_arg5) _ _ (List.forall_iff_forall_mem.mp (by
      simp only [S3, List.Forall, StableHlo.nullary_writes, StableHlo.unary_writes, StableHlo.binary_writes, StableHlo.ternary_writes, StableHlo.quaternary_writes, StableHlo.reshape_writes, StableHlo.binaryIndexed_writes, StableHlo.TRef.nullary, StableHlo.TRef.unary, StableHlo.TRef.binary, StableHlo.TRef.ternary, Finset.mem_singleton]
      repeat' apply And.intro
      all_goals exact StableHlo.devRef_ne_of_ne (by decide)))).trans (U2_arg5 m c)
theorem U4_arg5 : U4 m c (Proc.devRef .tc main_arg5) = m ((c.tc : Thread nD τ).loc main_arg5) :=
  (show after S4 (U3 m c) (Proc.devRef .tc main_arg5) = U3 m c (Proc.devRef .tc main_arg5) from
    StableHlo.after_of_forall_not_mem (b := Proc.devRef .tc main_arg5) _ _ (List.forall_iff_forall_mem.mp (by
      simp only [S4, List.Forall, StableHlo.nullary_writes, StableHlo.unary_writes, StableHlo.binary_writes, StableHlo.ternary_writes, StableHlo.quaternary_writes, StableHlo.reshape_writes, StableHlo.binaryIndexed_writes, StableHlo.TRef.nullary, StableHlo.TRef.unary, StableHlo.TRef.binary, StableHlo.TRef.ternary, Finset.mem_singleton]
      repeat' apply And.intro
      all_goals exact StableHlo.devRef_ne_of_ne (by decide)))).trans (U3_arg5 m c)
theorem U5_arg5 : U5 m c (Proc.devRef .tc main_arg5) = m ((c.tc : Thread nD τ).loc main_arg5) :=
  (show after S5 (U4 m c) (Proc.devRef .tc main_arg5) = U4 m c (Proc.devRef .tc main_arg5) from
    StableHlo.after_of_forall_not_mem (b := Proc.devRef .tc main_arg5) _ _ (List.forall_iff_forall_mem.mp (by
      simp only [S5, List.Forall, StableHlo.nullary_writes, StableHlo.unary_writes, StableHlo.binary_writes, StableHlo.ternary_writes, StableHlo.quaternary_writes, StableHlo.reshape_writes, StableHlo.binaryIndexed_writes, StableHlo.TRef.nullary, StableHlo.TRef.unary, StableHlo.TRef.binary, StableHlo.TRef.ternary, Finset.mem_singleton]
      repeat' apply And.intro
      all_goals exact StableHlo.devRef_ne_of_ne (by decide)))).trans (U4_arg5 m c)
theorem U6_arg5 : U6 m c (Proc.devRef .tc main_arg5) = m ((c.tc : Thread nD τ).loc main_arg5) :=
  (show after S6 (U5 m c) (Proc.devRef .tc main_arg5) = U5 m c (Proc.devRef .tc main_arg5) from
    StableHlo.after_of_forall_not_mem (b := Proc.devRef .tc main_arg5) _ _ (List.forall_iff_forall_mem.mp (by
      simp only [S6, List.Forall, StableHlo.nullary_writes, StableHlo.unary_writes, StableHlo.binary_writes, StableHlo.ternary_writes, StableHlo.quaternary_writes, StableHlo.reshape_writes, StableHlo.binaryIndexed_writes, StableHlo.TRef.nullary, StableHlo.TRef.unary, StableHlo.TRef.binary, StableHlo.TRef.ternary, Finset.mem_singleton]
      repeat' apply And.intro
      all_goals exact StableHlo.devRef_ne_of_ne (by decide)))).trans (U5_arg5 m c)
theorem U0_arg6 : U0 m c (Proc.devRef .tc main_arg6) = m ((c.tc : Thread nD τ).loc main_arg6) := rfl
theorem U1_arg6 : U1 m c (Proc.devRef .tc main_arg6) = m ((c.tc : Thread nD τ).loc main_arg6) :=
  (show after S1 (U0 m c) (Proc.devRef .tc main_arg6) = U0 m c (Proc.devRef .tc main_arg6) from
    StableHlo.after_of_forall_not_mem (b := Proc.devRef .tc main_arg6) _ _ (List.forall_iff_forall_mem.mp (by
      simp only [S1, List.Forall, StableHlo.nullary_writes, StableHlo.unary_writes, StableHlo.binary_writes, StableHlo.ternary_writes, StableHlo.quaternary_writes, StableHlo.reshape_writes, StableHlo.binaryIndexed_writes, StableHlo.TRef.nullary, StableHlo.TRef.unary, StableHlo.TRef.binary, StableHlo.TRef.ternary, Finset.mem_singleton]
      repeat' apply And.intro
      all_goals exact StableHlo.devRef_ne_of_ne (by decide)))).trans (U0_arg6 m c)
theorem U2_arg6 : U2 m c (Proc.devRef .tc main_arg6) = m ((c.tc : Thread nD τ).loc main_arg6) :=
  (show after S2 (U1 m c) (Proc.devRef .tc main_arg6) = U1 m c (Proc.devRef .tc main_arg6) from
    StableHlo.after_of_forall_not_mem (b := Proc.devRef .tc main_arg6) _ _ (List.forall_iff_forall_mem.mp (by
      simp only [S2, List.Forall, StableHlo.nullary_writes, StableHlo.unary_writes, StableHlo.binary_writes, StableHlo.ternary_writes, StableHlo.quaternary_writes, StableHlo.reshape_writes, StableHlo.binaryIndexed_writes, StableHlo.TRef.nullary, StableHlo.TRef.unary, StableHlo.TRef.binary, StableHlo.TRef.ternary, Finset.mem_singleton]
      repeat' apply And.intro
      all_goals exact StableHlo.devRef_ne_of_ne (by decide)))).trans (U1_arg6 m c)
theorem U3_arg6 : U3 m c (Proc.devRef .tc main_arg6) = m ((c.tc : Thread nD τ).loc main_arg6) :=
  (show after S3 (U2 m c) (Proc.devRef .tc main_arg6) = U2 m c (Proc.devRef .tc main_arg6) from
    StableHlo.after_of_forall_not_mem (b := Proc.devRef .tc main_arg6) _ _ (List.forall_iff_forall_mem.mp (by
      simp only [S3, List.Forall, StableHlo.nullary_writes, StableHlo.unary_writes, StableHlo.binary_writes, StableHlo.ternary_writes, StableHlo.quaternary_writes, StableHlo.reshape_writes, StableHlo.binaryIndexed_writes, StableHlo.TRef.nullary, StableHlo.TRef.unary, StableHlo.TRef.binary, StableHlo.TRef.ternary, Finset.mem_singleton]
      repeat' apply And.intro
      all_goals exact StableHlo.devRef_ne_of_ne (by decide)))).trans (U2_arg6 m c)
theorem U4_arg6 : U4 m c (Proc.devRef .tc main_arg6) = m ((c.tc : Thread nD τ).loc main_arg6) :=
  (show after S4 (U3 m c) (Proc.devRef .tc main_arg6) = U3 m c (Proc.devRef .tc main_arg6) from
    StableHlo.after_of_forall_not_mem (b := Proc.devRef .tc main_arg6) _ _ (List.forall_iff_forall_mem.mp (by
      simp only [S4, List.Forall, StableHlo.nullary_writes, StableHlo.unary_writes, StableHlo.binary_writes, StableHlo.ternary_writes, StableHlo.quaternary_writes, StableHlo.reshape_writes, StableHlo.binaryIndexed_writes, StableHlo.TRef.nullary, StableHlo.TRef.unary, StableHlo.TRef.binary, StableHlo.TRef.ternary, Finset.mem_singleton]
      repeat' apply And.intro
      all_goals exact StableHlo.devRef_ne_of_ne (by decide)))).trans (U3_arg6 m c)
theorem U5_arg6 : U5 m c (Proc.devRef .tc main_arg6) = m ((c.tc : Thread nD τ).loc main_arg6) :=
  (show after S5 (U4 m c) (Proc.devRef .tc main_arg6) = U4 m c (Proc.devRef .tc main_arg6) from
    StableHlo.after_of_forall_not_mem (b := Proc.devRef .tc main_arg6) _ _ (List.forall_iff_forall_mem.mp (by
      simp only [S5, List.Forall, StableHlo.nullary_writes, StableHlo.unary_writes, StableHlo.binary_writes, StableHlo.ternary_writes, StableHlo.quaternary_writes, StableHlo.reshape_writes, StableHlo.binaryIndexed_writes, StableHlo.TRef.nullary, StableHlo.TRef.unary, StableHlo.TRef.binary, StableHlo.TRef.ternary, Finset.mem_singleton]
      repeat' apply And.intro
      all_goals exact StableHlo.devRef_ne_of_ne (by decide)))).trans (U4_arg6 m c)
theorem U6_arg6 : U6 m c (Proc.devRef .tc main_arg6) = m ((c.tc : Thread nD τ).loc main_arg6) :=
  (show after S6 (U5 m c) (Proc.devRef .tc main_arg6) = U5 m c (Proc.devRef .tc main_arg6) from
    StableHlo.after_of_forall_not_mem (b := Proc.devRef .tc main_arg6) _ _ (List.forall_iff_forall_mem.mp (by
      simp only [S6, List.Forall, StableHlo.nullary_writes, StableHlo.unary_writes, StableHlo.binary_writes, StableHlo.ternary_writes, StableHlo.quaternary_writes, StableHlo.reshape_writes, StableHlo.binaryIndexed_writes, StableHlo.TRef.nullary, StableHlo.TRef.unary, StableHlo.TRef.binary, StableHlo.TRef.ternary, Finset.mem_singleton]
      repeat' apply And.intro
      all_goals exact StableHlo.devRef_ne_of_ne (by decide)))).trans (U5_arg6 m c)
theorem U0_arg7 : U0 m c (Proc.devRef .tc main_arg7) = m ((c.tc : Thread nD τ).loc main_arg7) := rfl
theorem U1_arg7 : U1 m c (Proc.devRef .tc main_arg7) = m ((c.tc : Thread nD τ).loc main_arg7) :=
  (show after S1 (U0 m c) (Proc.devRef .tc main_arg7) = U0 m c (Proc.devRef .tc main_arg7) from
    StableHlo.after_of_forall_not_mem (b := Proc.devRef .tc main_arg7) _ _ (List.forall_iff_forall_mem.mp (by
      simp only [S1, List.Forall, StableHlo.nullary_writes, StableHlo.unary_writes, StableHlo.binary_writes, StableHlo.ternary_writes, StableHlo.quaternary_writes, StableHlo.reshape_writes, StableHlo.binaryIndexed_writes, StableHlo.TRef.nullary, StableHlo.TRef.unary, StableHlo.TRef.binary, StableHlo.TRef.ternary, Finset.mem_singleton]
      repeat' apply And.intro
      all_goals exact StableHlo.devRef_ne_of_ne (by decide)))).trans (U0_arg7 m c)
theorem U2_arg7 : U2 m c (Proc.devRef .tc main_arg7) = m ((c.tc : Thread nD τ).loc main_arg7) :=
  (show after S2 (U1 m c) (Proc.devRef .tc main_arg7) = U1 m c (Proc.devRef .tc main_arg7) from
    StableHlo.after_of_forall_not_mem (b := Proc.devRef .tc main_arg7) _ _ (List.forall_iff_forall_mem.mp (by
      simp only [S2, List.Forall, StableHlo.nullary_writes, StableHlo.unary_writes, StableHlo.binary_writes, StableHlo.ternary_writes, StableHlo.quaternary_writes, StableHlo.reshape_writes, StableHlo.binaryIndexed_writes, StableHlo.TRef.nullary, StableHlo.TRef.unary, StableHlo.TRef.binary, StableHlo.TRef.ternary, Finset.mem_singleton]
      repeat' apply And.intro
      all_goals exact StableHlo.devRef_ne_of_ne (by decide)))).trans (U1_arg7 m c)
theorem U3_arg7 : U3 m c (Proc.devRef .tc main_arg7) = m ((c.tc : Thread nD τ).loc main_arg7) :=
  (show after S3 (U2 m c) (Proc.devRef .tc main_arg7) = U2 m c (Proc.devRef .tc main_arg7) from
    StableHlo.after_of_forall_not_mem (b := Proc.devRef .tc main_arg7) _ _ (List.forall_iff_forall_mem.mp (by
      simp only [S3, List.Forall, StableHlo.nullary_writes, StableHlo.unary_writes, StableHlo.binary_writes, StableHlo.ternary_writes, StableHlo.quaternary_writes, StableHlo.reshape_writes, StableHlo.binaryIndexed_writes, StableHlo.TRef.nullary, StableHlo.TRef.unary, StableHlo.TRef.binary, StableHlo.TRef.ternary, Finset.mem_singleton]
      repeat' apply And.intro
      all_goals exact StableHlo.devRef_ne_of_ne (by decide)))).trans (U2_arg7 m c)
theorem U4_arg7 : U4 m c (Proc.devRef .tc main_arg7) = m ((c.tc : Thread nD τ).loc main_arg7) :=
  (show after S4 (U3 m c) (Proc.devRef .tc main_arg7) = U3 m c (Proc.devRef .tc main_arg7) from
    StableHlo.after_of_forall_not_mem (b := Proc.devRef .tc main_arg7) _ _ (List.forall_iff_forall_mem.mp (by
      simp only [S4, List.Forall, StableHlo.nullary_writes, StableHlo.unary_writes, StableHlo.binary_writes, StableHlo.ternary_writes, StableHlo.quaternary_writes, StableHlo.reshape_writes, StableHlo.binaryIndexed_writes, StableHlo.TRef.nullary, StableHlo.TRef.unary, StableHlo.TRef.binary, StableHlo.TRef.ternary, Finset.mem_singleton]
      repeat' apply And.intro
      all_goals exact StableHlo.devRef_ne_of_ne (by decide)))).trans (U3_arg7 m c)
theorem U5_arg7 : U5 m c (Proc.devRef .tc main_arg7) = m ((c.tc : Thread nD τ).loc main_arg7) :=
  (show after S5 (U4 m c) (Proc.devRef .tc main_arg7) = U4 m c (Proc.devRef .tc main_arg7) from
    StableHlo.after_of_forall_not_mem (b := Proc.devRef .tc main_arg7) _ _ (List.forall_iff_forall_mem.mp (by
      simp only [S5, List.Forall, StableHlo.nullary_writes, StableHlo.unary_writes, StableHlo.binary_writes, StableHlo.ternary_writes, StableHlo.quaternary_writes, StableHlo.reshape_writes, StableHlo.binaryIndexed_writes, StableHlo.TRef.nullary, StableHlo.TRef.unary, StableHlo.TRef.binary, StableHlo.TRef.ternary, Finset.mem_singleton]
      repeat' apply And.intro
      all_goals exact StableHlo.devRef_ne_of_ne (by decide)))).trans (U4_arg7 m c)
theorem U6_arg7 : U6 m c (Proc.devRef .tc main_arg7) = m ((c.tc : Thread nD τ).loc main_arg7) :=
  (show after S6 (U5 m c) (Proc.devRef .tc main_arg7) = U5 m c (Proc.devRef .tc main_arg7) from
    StableHlo.after_of_forall_not_mem (b := Proc.devRef .tc main_arg7) _ _ (List.forall_iff_forall_mem.mp (by
      simp only [S6, List.Forall, StableHlo.nullary_writes, StableHlo.unary_writes, StableHlo.binary_writes, StableHlo.ternary_writes, StableHlo.quaternary_writes, StableHlo.reshape_writes, StableHlo.binaryIndexed_writes, StableHlo.TRef.nullary, StableHlo.TRef.unary, StableHlo.TRef.binary, StableHlo.TRef.ternary, Finset.mem_singleton]
      repeat' apply And.intro
      all_goals exact StableHlo.devRef_ne_of_ne (by decide)))).trans (U5_arg7 m c)
theorem U0_arg8 : U0 m c (Proc.devRef .tc main_arg8) = m ((c.tc : Thread nD τ).loc main_arg8) := rfl
theorem U1_arg8 : U1 m c (Proc.devRef .tc main_arg8) = m ((c.tc : Thread nD τ).loc main_arg8) :=
  (show after S1 (U0 m c) (Proc.devRef .tc main_arg8) = U0 m c (Proc.devRef .tc main_arg8) from
    StableHlo.after_of_forall_not_mem (b := Proc.devRef .tc main_arg8) _ _ (List.forall_iff_forall_mem.mp (by
      simp only [S1, List.Forall, StableHlo.nullary_writes, StableHlo.unary_writes, StableHlo.binary_writes, StableHlo.ternary_writes, StableHlo.quaternary_writes, StableHlo.reshape_writes, StableHlo.binaryIndexed_writes, StableHlo.TRef.nullary, StableHlo.TRef.unary, StableHlo.TRef.binary, StableHlo.TRef.ternary, Finset.mem_singleton]
      repeat' apply And.intro
      all_goals exact StableHlo.devRef_ne_of_ne (by decide)))).trans (U0_arg8 m c)
theorem U2_arg8 : U2 m c (Proc.devRef .tc main_arg8) = m ((c.tc : Thread nD τ).loc main_arg8) :=
  (show after S2 (U1 m c) (Proc.devRef .tc main_arg8) = U1 m c (Proc.devRef .tc main_arg8) from
    StableHlo.after_of_forall_not_mem (b := Proc.devRef .tc main_arg8) _ _ (List.forall_iff_forall_mem.mp (by
      simp only [S2, List.Forall, StableHlo.nullary_writes, StableHlo.unary_writes, StableHlo.binary_writes, StableHlo.ternary_writes, StableHlo.quaternary_writes, StableHlo.reshape_writes, StableHlo.binaryIndexed_writes, StableHlo.TRef.nullary, StableHlo.TRef.unary, StableHlo.TRef.binary, StableHlo.TRef.ternary, Finset.mem_singleton]
      repeat' apply And.intro
      all_goals exact StableHlo.devRef_ne_of_ne (by decide)))).trans (U1_arg8 m c)
theorem U3_arg8 : U3 m c (Proc.devRef .tc main_arg8) = m ((c.tc : Thread nD τ).loc main_arg8) :=
  (show after S3 (U2 m c) (Proc.devRef .tc main_arg8) = U2 m c (Proc.devRef .tc main_arg8) from
    StableHlo.after_of_forall_not_mem (b := Proc.devRef .tc main_arg8) _ _ (List.forall_iff_forall_mem.mp (by
      simp only [S3, List.Forall, StableHlo.nullary_writes, StableHlo.unary_writes, StableHlo.binary_writes, StableHlo.ternary_writes, StableHlo.quaternary_writes, StableHlo.reshape_writes, StableHlo.binaryIndexed_writes, StableHlo.TRef.nullary, StableHlo.TRef.unary, StableHlo.TRef.binary, StableHlo.TRef.ternary, Finset.mem_singleton]
      repeat' apply And.intro
      all_goals exact StableHlo.devRef_ne_of_ne (by decide)))).trans (U2_arg8 m c)
theorem U4_arg8 : U4 m c (Proc.devRef .tc main_arg8) = m ((c.tc : Thread nD τ).loc main_arg8) :=
  (show after S4 (U3 m c) (Proc.devRef .tc main_arg8) = U3 m c (Proc.devRef .tc main_arg8) from
    StableHlo.after_of_forall_not_mem (b := Proc.devRef .tc main_arg8) _ _ (List.forall_iff_forall_mem.mp (by
      simp only [S4, List.Forall, StableHlo.nullary_writes, StableHlo.unary_writes, StableHlo.binary_writes, StableHlo.ternary_writes, StableHlo.quaternary_writes, StableHlo.reshape_writes, StableHlo.binaryIndexed_writes, StableHlo.TRef.nullary, StableHlo.TRef.unary, StableHlo.TRef.binary, StableHlo.TRef.ternary, Finset.mem_singleton]
      repeat' apply And.intro
      all_goals exact StableHlo.devRef_ne_of_ne (by decide)))).trans (U3_arg8 m c)
theorem U5_arg8 : U5 m c (Proc.devRef .tc main_arg8) = m ((c.tc : Thread nD τ).loc main_arg8) :=
  (show after S5 (U4 m c) (Proc.devRef .tc main_arg8) = U4 m c (Proc.devRef .tc main_arg8) from
    StableHlo.after_of_forall_not_mem (b := Proc.devRef .tc main_arg8) _ _ (List.forall_iff_forall_mem.mp (by
      simp only [S5, List.Forall, StableHlo.nullary_writes, StableHlo.unary_writes, StableHlo.binary_writes, StableHlo.ternary_writes, StableHlo.quaternary_writes, StableHlo.reshape_writes, StableHlo.binaryIndexed_writes, StableHlo.TRef.nullary, StableHlo.TRef.unary, StableHlo.TRef.binary, StableHlo.TRef.ternary, Finset.mem_singleton]
      repeat' apply And.intro
      all_goals exact StableHlo.devRef_ne_of_ne (by decide)))).trans (U4_arg8 m c)
theorem U6_arg8 : U6 m c (Proc.devRef .tc main_arg8) = m ((c.tc : Thread nD τ).loc main_arg8) :=
  (show after S6 (U5 m c) (Proc.devRef .tc main_arg8) = U5 m c (Proc.devRef .tc main_arg8) from
    StableHlo.after_of_forall_not_mem (b := Proc.devRef .tc main_arg8) _ _ (List.forall_iff_forall_mem.mp (by
      simp only [S6, List.Forall, StableHlo.nullary_writes, StableHlo.unary_writes, StableHlo.binary_writes, StableHlo.ternary_writes, StableHlo.quaternary_writes, StableHlo.reshape_writes, StableHlo.binaryIndexed_writes, StableHlo.TRef.nullary, StableHlo.TRef.unary, StableHlo.TRef.binary, StableHlo.TRef.ternary, Finset.mem_singleton]
      repeat' apply And.intro
      all_goals exact StableHlo.devRef_ne_of_ne (by decide)))).trans (U5_arg8 m c)
theorem U0_arg9 : U0 m c (Proc.devRef .tc main_arg9) = m ((c.tc : Thread nD τ).loc main_arg9) := rfl
theorem U1_arg9 : U1 m c (Proc.devRef .tc main_arg9) = m ((c.tc : Thread nD τ).loc main_arg9) :=
  (show after S1 (U0 m c) (Proc.devRef .tc main_arg9) = U0 m c (Proc.devRef .tc main_arg9) from
    StableHlo.after_of_forall_not_mem (b := Proc.devRef .tc main_arg9) _ _ (List.forall_iff_forall_mem.mp (by
      simp only [S1, List.Forall, StableHlo.nullary_writes, StableHlo.unary_writes, StableHlo.binary_writes, StableHlo.ternary_writes, StableHlo.quaternary_writes, StableHlo.reshape_writes, StableHlo.binaryIndexed_writes, StableHlo.TRef.nullary, StableHlo.TRef.unary, StableHlo.TRef.binary, StableHlo.TRef.ternary, Finset.mem_singleton]
      repeat' apply And.intro
      all_goals exact StableHlo.devRef_ne_of_ne (by decide)))).trans (U0_arg9 m c)
theorem U2_arg9 : U2 m c (Proc.devRef .tc main_arg9) = m ((c.tc : Thread nD τ).loc main_arg9) :=
  (show after S2 (U1 m c) (Proc.devRef .tc main_arg9) = U1 m c (Proc.devRef .tc main_arg9) from
    StableHlo.after_of_forall_not_mem (b := Proc.devRef .tc main_arg9) _ _ (List.forall_iff_forall_mem.mp (by
      simp only [S2, List.Forall, StableHlo.nullary_writes, StableHlo.unary_writes, StableHlo.binary_writes, StableHlo.ternary_writes, StableHlo.quaternary_writes, StableHlo.reshape_writes, StableHlo.binaryIndexed_writes, StableHlo.TRef.nullary, StableHlo.TRef.unary, StableHlo.TRef.binary, StableHlo.TRef.ternary, Finset.mem_singleton]
      repeat' apply And.intro
      all_goals exact StableHlo.devRef_ne_of_ne (by decide)))).trans (U1_arg9 m c)
theorem U3_arg9 : U3 m c (Proc.devRef .tc main_arg9) = m ((c.tc : Thread nD τ).loc main_arg9) :=
  (show after S3 (U2 m c) (Proc.devRef .tc main_arg9) = U2 m c (Proc.devRef .tc main_arg9) from
    StableHlo.after_of_forall_not_mem (b := Proc.devRef .tc main_arg9) _ _ (List.forall_iff_forall_mem.mp (by
      simp only [S3, List.Forall, StableHlo.nullary_writes, StableHlo.unary_writes, StableHlo.binary_writes, StableHlo.ternary_writes, StableHlo.quaternary_writes, StableHlo.reshape_writes, StableHlo.binaryIndexed_writes, StableHlo.TRef.nullary, StableHlo.TRef.unary, StableHlo.TRef.binary, StableHlo.TRef.ternary, Finset.mem_singleton]
      repeat' apply And.intro
      all_goals exact StableHlo.devRef_ne_of_ne (by decide)))).trans (U2_arg9 m c)
theorem U4_arg9 : U4 m c (Proc.devRef .tc main_arg9) = m ((c.tc : Thread nD τ).loc main_arg9) :=
  (show after S4 (U3 m c) (Proc.devRef .tc main_arg9) = U3 m c (Proc.devRef .tc main_arg9) from
    StableHlo.after_of_forall_not_mem (b := Proc.devRef .tc main_arg9) _ _ (List.forall_iff_forall_mem.mp (by
      simp only [S4, List.Forall, StableHlo.nullary_writes, StableHlo.unary_writes, StableHlo.binary_writes, StableHlo.ternary_writes, StableHlo.quaternary_writes, StableHlo.reshape_writes, StableHlo.binaryIndexed_writes, StableHlo.TRef.nullary, StableHlo.TRef.unary, StableHlo.TRef.binary, StableHlo.TRef.ternary, Finset.mem_singleton]
      repeat' apply And.intro
      all_goals exact StableHlo.devRef_ne_of_ne (by decide)))).trans (U3_arg9 m c)
theorem U5_arg9 : U5 m c (Proc.devRef .tc main_arg9) = m ((c.tc : Thread nD τ).loc main_arg9) :=
  (show after S5 (U4 m c) (Proc.devRef .tc main_arg9) = U4 m c (Proc.devRef .tc main_arg9) from
    StableHlo.after_of_forall_not_mem (b := Proc.devRef .tc main_arg9) _ _ (List.forall_iff_forall_mem.mp (by
      simp only [S5, List.Forall, StableHlo.nullary_writes, StableHlo.unary_writes, StableHlo.binary_writes, StableHlo.ternary_writes, StableHlo.quaternary_writes, StableHlo.reshape_writes, StableHlo.binaryIndexed_writes, StableHlo.TRef.nullary, StableHlo.TRef.unary, StableHlo.TRef.binary, StableHlo.TRef.ternary, Finset.mem_singleton]
      repeat' apply And.intro
      all_goals exact StableHlo.devRef_ne_of_ne (by decide)))).trans (U4_arg9 m c)
theorem U6_arg9 : U6 m c (Proc.devRef .tc main_arg9) = m ((c.tc : Thread nD τ).loc main_arg9) :=
  (show after S6 (U5 m c) (Proc.devRef .tc main_arg9) = U5 m c (Proc.devRef .tc main_arg9) from
    StableHlo.after_of_forall_not_mem (b := Proc.devRef .tc main_arg9) _ _ (List.forall_iff_forall_mem.mp (by
      simp only [S6, List.Forall, StableHlo.nullary_writes, StableHlo.unary_writes, StableHlo.binary_writes, StableHlo.ternary_writes, StableHlo.quaternary_writes, StableHlo.reshape_writes, StableHlo.binaryIndexed_writes, StableHlo.TRef.nullary, StableHlo.TRef.unary, StableHlo.TRef.binary, StableHlo.TRef.ternary, Finset.mem_singleton]
      repeat' apply And.intro
      all_goals exact StableHlo.devRef_ne_of_ne (by decide)))).trans (U5_arg9 m c)
theorem U0_arg10 : U0 m c (Proc.devRef .tc main_arg10) = m ((c.tc : Thread nD τ).loc main_arg10) := rfl
theorem U1_arg10 : U1 m c (Proc.devRef .tc main_arg10) = m ((c.tc : Thread nD τ).loc main_arg10) :=
  (show after S1 (U0 m c) (Proc.devRef .tc main_arg10) = U0 m c (Proc.devRef .tc main_arg10) from
    StableHlo.after_of_forall_not_mem (b := Proc.devRef .tc main_arg10) _ _ (List.forall_iff_forall_mem.mp (by
      simp only [S1, List.Forall, StableHlo.nullary_writes, StableHlo.unary_writes, StableHlo.binary_writes, StableHlo.ternary_writes, StableHlo.quaternary_writes, StableHlo.reshape_writes, StableHlo.binaryIndexed_writes, StableHlo.TRef.nullary, StableHlo.TRef.unary, StableHlo.TRef.binary, StableHlo.TRef.ternary, Finset.mem_singleton]
      repeat' apply And.intro
      all_goals exact StableHlo.devRef_ne_of_ne (by decide)))).trans (U0_arg10 m c)
theorem U2_arg10 : U2 m c (Proc.devRef .tc main_arg10) = m ((c.tc : Thread nD τ).loc main_arg10) :=
  (show after S2 (U1 m c) (Proc.devRef .tc main_arg10) = U1 m c (Proc.devRef .tc main_arg10) from
    StableHlo.after_of_forall_not_mem (b := Proc.devRef .tc main_arg10) _ _ (List.forall_iff_forall_mem.mp (by
      simp only [S2, List.Forall, StableHlo.nullary_writes, StableHlo.unary_writes, StableHlo.binary_writes, StableHlo.ternary_writes, StableHlo.quaternary_writes, StableHlo.reshape_writes, StableHlo.binaryIndexed_writes, StableHlo.TRef.nullary, StableHlo.TRef.unary, StableHlo.TRef.binary, StableHlo.TRef.ternary, Finset.mem_singleton]
      repeat' apply And.intro
      all_goals exact StableHlo.devRef_ne_of_ne (by decide)))).trans (U1_arg10 m c)
theorem U3_arg10 : U3 m c (Proc.devRef .tc main_arg10) = m ((c.tc : Thread nD τ).loc main_arg10) :=
  (show after S3 (U2 m c) (Proc.devRef .tc main_arg10) = U2 m c (Proc.devRef .tc main_arg10) from
    StableHlo.after_of_forall_not_mem (b := Proc.devRef .tc main_arg10) _ _ (List.forall_iff_forall_mem.mp (by
      simp only [S3, List.Forall, StableHlo.nullary_writes, StableHlo.unary_writes, StableHlo.binary_writes, StableHlo.ternary_writes, StableHlo.quaternary_writes, StableHlo.reshape_writes, StableHlo.binaryIndexed_writes, StableHlo.TRef.nullary, StableHlo.TRef.unary, StableHlo.TRef.binary, StableHlo.TRef.ternary, Finset.mem_singleton]
      repeat' apply And.intro
      all_goals exact StableHlo.devRef_ne_of_ne (by decide)))).trans (U2_arg10 m c)
theorem U4_arg10 : U4 m c (Proc.devRef .tc main_arg10) = m ((c.tc : Thread nD τ).loc main_arg10) :=
  (show after S4 (U3 m c) (Proc.devRef .tc main_arg10) = U3 m c (Proc.devRef .tc main_arg10) from
    StableHlo.after_of_forall_not_mem (b := Proc.devRef .tc main_arg10) _ _ (List.forall_iff_forall_mem.mp (by
      simp only [S4, List.Forall, StableHlo.nullary_writes, StableHlo.unary_writes, StableHlo.binary_writes, StableHlo.ternary_writes, StableHlo.quaternary_writes, StableHlo.reshape_writes, StableHlo.binaryIndexed_writes, StableHlo.TRef.nullary, StableHlo.TRef.unary, StableHlo.TRef.binary, StableHlo.TRef.ternary, Finset.mem_singleton]
      repeat' apply And.intro
      all_goals exact StableHlo.devRef_ne_of_ne (by decide)))).trans (U3_arg10 m c)
theorem U5_arg10 : U5 m c (Proc.devRef .tc main_arg10) = m ((c.tc : Thread nD τ).loc main_arg10) :=
  (show after S5 (U4 m c) (Proc.devRef .tc main_arg10) = U4 m c (Proc.devRef .tc main_arg10) from
    StableHlo.after_of_forall_not_mem (b := Proc.devRef .tc main_arg10) _ _ (List.forall_iff_forall_mem.mp (by
      simp only [S5, List.Forall, StableHlo.nullary_writes, StableHlo.unary_writes, StableHlo.binary_writes, StableHlo.ternary_writes, StableHlo.quaternary_writes, StableHlo.reshape_writes, StableHlo.binaryIndexed_writes, StableHlo.TRef.nullary, StableHlo.TRef.unary, StableHlo.TRef.binary, StableHlo.TRef.ternary, Finset.mem_singleton]
      repeat' apply And.intro
      all_goals exact StableHlo.devRef_ne_of_ne (by decide)))).trans (U4_arg10 m c)
theorem U6_arg10 : U6 m c (Proc.devRef .tc main_arg10) = m ((c.tc : Thread nD τ).loc main_arg10) :=
  (show after S6 (U5 m c) (Proc.devRef .tc main_arg10) = U5 m c (Proc.devRef .tc main_arg10) from
    StableHlo.after_of_forall_not_mem (b := Proc.devRef .tc main_arg10) _ _ (List.forall_iff_forall_mem.mp (by
      simp only [S6, List.Forall, StableHlo.nullary_writes, StableHlo.unary_writes, StableHlo.binary_writes, StableHlo.ternary_writes, StableHlo.quaternary_writes, StableHlo.reshape_writes, StableHlo.binaryIndexed_writes, StableHlo.TRef.nullary, StableHlo.TRef.unary, StableHlo.TRef.binary, StableHlo.TRef.ternary, Finset.mem_singleton]
      repeat' apply And.intro
      all_goals exact StableHlo.devRef_ne_of_ne (by decide)))).trans (U5_arg10 m c)
theorem U0_arg11 : U0 m c (Proc.devRef .tc main_arg11) = m ((c.tc : Thread nD τ).loc main_arg11) := rfl
theorem U1_arg11 : U1 m c (Proc.devRef .tc main_arg11) = m ((c.tc : Thread nD τ).loc main_arg11) :=
  (show after S1 (U0 m c) (Proc.devRef .tc main_arg11) = U0 m c (Proc.devRef .tc main_arg11) from
    StableHlo.after_of_forall_not_mem (b := Proc.devRef .tc main_arg11) _ _ (List.forall_iff_forall_mem.mp (by
      simp only [S1, List.Forall, StableHlo.nullary_writes, StableHlo.unary_writes, StableHlo.binary_writes, StableHlo.ternary_writes, StableHlo.quaternary_writes, StableHlo.reshape_writes, StableHlo.binaryIndexed_writes, StableHlo.TRef.nullary, StableHlo.TRef.unary, StableHlo.TRef.binary, StableHlo.TRef.ternary, Finset.mem_singleton]
      repeat' apply And.intro
      all_goals exact StableHlo.devRef_ne_of_ne (by decide)))).trans (U0_arg11 m c)
theorem U2_arg11 : U2 m c (Proc.devRef .tc main_arg11) = m ((c.tc : Thread nD τ).loc main_arg11) :=
  (show after S2 (U1 m c) (Proc.devRef .tc main_arg11) = U1 m c (Proc.devRef .tc main_arg11) from
    StableHlo.after_of_forall_not_mem (b := Proc.devRef .tc main_arg11) _ _ (List.forall_iff_forall_mem.mp (by
      simp only [S2, List.Forall, StableHlo.nullary_writes, StableHlo.unary_writes, StableHlo.binary_writes, StableHlo.ternary_writes, StableHlo.quaternary_writes, StableHlo.reshape_writes, StableHlo.binaryIndexed_writes, StableHlo.TRef.nullary, StableHlo.TRef.unary, StableHlo.TRef.binary, StableHlo.TRef.ternary, Finset.mem_singleton]
      repeat' apply And.intro
      all_goals exact StableHlo.devRef_ne_of_ne (by decide)))).trans (U1_arg11 m c)
theorem U3_arg11 : U3 m c (Proc.devRef .tc main_arg11) = m ((c.tc : Thread nD τ).loc main_arg11) :=
  (show after S3 (U2 m c) (Proc.devRef .tc main_arg11) = U2 m c (Proc.devRef .tc main_arg11) from
    StableHlo.after_of_forall_not_mem (b := Proc.devRef .tc main_arg11) _ _ (List.forall_iff_forall_mem.mp (by
      simp only [S3, List.Forall, StableHlo.nullary_writes, StableHlo.unary_writes, StableHlo.binary_writes, StableHlo.ternary_writes, StableHlo.quaternary_writes, StableHlo.reshape_writes, StableHlo.binaryIndexed_writes, StableHlo.TRef.nullary, StableHlo.TRef.unary, StableHlo.TRef.binary, StableHlo.TRef.ternary, Finset.mem_singleton]
      repeat' apply And.intro
      all_goals exact StableHlo.devRef_ne_of_ne (by decide)))).trans (U2_arg11 m c)
theorem U4_arg11 : U4 m c (Proc.devRef .tc main_arg11) = m ((c.tc : Thread nD τ).loc main_arg11) :=
  (show after S4 (U3 m c) (Proc.devRef .tc main_arg11) = U3 m c (Proc.devRef .tc main_arg11) from
    StableHlo.after_of_forall_not_mem (b := Proc.devRef .tc main_arg11) _ _ (List.forall_iff_forall_mem.mp (by
      simp only [S4, List.Forall, StableHlo.nullary_writes, StableHlo.unary_writes, StableHlo.binary_writes, StableHlo.ternary_writes, StableHlo.quaternary_writes, StableHlo.reshape_writes, StableHlo.binaryIndexed_writes, StableHlo.TRef.nullary, StableHlo.TRef.unary, StableHlo.TRef.binary, StableHlo.TRef.ternary, Finset.mem_singleton]
      repeat' apply And.intro
      all_goals exact StableHlo.devRef_ne_of_ne (by decide)))).trans (U3_arg11 m c)
theorem U5_arg11 : U5 m c (Proc.devRef .tc main_arg11) = m ((c.tc : Thread nD τ).loc main_arg11) :=
  (show after S5 (U4 m c) (Proc.devRef .tc main_arg11) = U4 m c (Proc.devRef .tc main_arg11) from
    StableHlo.after_of_forall_not_mem (b := Proc.devRef .tc main_arg11) _ _ (List.forall_iff_forall_mem.mp (by
      simp only [S5, List.Forall, StableHlo.nullary_writes, StableHlo.unary_writes, StableHlo.binary_writes, StableHlo.ternary_writes, StableHlo.quaternary_writes, StableHlo.reshape_writes, StableHlo.binaryIndexed_writes, StableHlo.TRef.nullary, StableHlo.TRef.unary, StableHlo.TRef.binary, StableHlo.TRef.ternary, Finset.mem_singleton]
      repeat' apply And.intro
      all_goals exact StableHlo.devRef_ne_of_ne (by decide)))).trans (U4_arg11 m c)
theorem U6_arg11 : U6 m c (Proc.devRef .tc main_arg11) = m ((c.tc : Thread nD τ).loc main_arg11) :=
  (show after S6 (U5 m c) (Proc.devRef .tc main_arg11) = U5 m c (Proc.devRef .tc main_arg11) from
    StableHlo.after_of_forall_not_mem (b := Proc.devRef .tc main_arg11) _ _ (List.forall_iff_forall_mem.mp (by
      simp only [S6, List.Forall, StableHlo.nullary_writes, StableHlo.unary_writes, StableHlo.binary_writes, StableHlo.ternary_writes, StableHlo.quaternary_writes, StableHlo.reshape_writes, StableHlo.binaryIndexed_writes, StableHlo.TRef.nullary, StableHlo.TRef.unary, StableHlo.TRef.binary, StableHlo.TRef.ternary, Finset.mem_singleton]
      repeat' apply And.intro
      all_goals exact StableHlo.devRef_ne_of_ne (by decide)))).trans (U5_arg11 m c)

/-- The third piece leaves the first layer's pre-activation as the second piece wrote it. -/
theorem U3_pre : U3 m c (Proc.devRef .tc main_v51) = U2 m c (Proc.devRef .tc main_v51) :=
  show after S3 (U2 m c) (Proc.devRef .tc main_v51) = U2 m c (Proc.devRef .tc main_v51) from
    StableHlo.after_of_forall_not_mem (b := Proc.devRef .tc main_v51) _ _ (List.forall_iff_forall_mem.mp (by
      simp only [S3, List.Forall, StableHlo.nullary_writes, StableHlo.unary_writes, StableHlo.binary_writes, StableHlo.ternary_writes, StableHlo.quaternary_writes, StableHlo.reshape_writes, StableHlo.binaryIndexed_writes, StableHlo.TRef.nullary, StableHlo.TRef.unary, StableHlo.TRef.binary, StableHlo.TRef.ternary, Finset.mem_singleton]
      repeat' apply And.intro
      all_goals exact StableHlo.devRef_ne_of_ne (by decide)))

end Cert.ReferenceIdeal.Kept

end
-- ==== Proof.LibCat.lean ====
/-
  Two arrays joined along an axis, with the two operands as plain arguments.  The joined array as the
  programs print it takes its operands inside a list of (shape, array) pairs, and the fact that the shapes
  fit is stated about that list; here the same array is a function of the two operands directly, so that a
  value inside an operand can be replaced by an equal one.
-/
import Idealize.ShloMosaic.PureOps.ShapeOps

namespace Cert.LibCat

open Idealize.ShloMosaic

variable {α : Type}

/-- The join of a and b along axis ax of t. -/
def cat2 (t : Shape) (ax : Fin t.rank) (s1 s2 : Shape) (h : Shape.Concatenates [s1, s2] t ax)
    (a : s1.Idx → α) (b : s2.Idx → α) : t.Idx → α :=
  concatenate t ax [⟨s1, a⟩, ⟨s2, b⟩] h

/-- The printed join of two operands is `cat2` of them. -/
theorem cat2_eq (t : Shape) (ax : Fin t.rank) (s1 s2 : Shape) (h : Shape.Concatenates [s1, s2] t ax)
    (a : s1.Idx → α) (b : s2.Idx → α) :
    concatenate t ax [⟨s1, a⟩, ⟨s2, b⟩] h = cat2 t ax s1 s2 h a b := rfl

end Cert.LibCat
-- ==== Proof.RefRun.lean ====
/-
  The reference's run read back in stages.  After each of the six pieces of @main the buffer a later piece
  reads is the corresponding stage of the reference as a function of the launch arguments: the aggregation
  over the edges of each layer, the projections, the bias/activation steps and the final row-wise
  log-softmax.  A piece that only adds a bias row, mixes, takes a positive part or multiplies matrices is
  read operation by operation, and so is a piece that aggregates over the edges, once the concatenations of
  the self loops onto the edge lists are written with their two operands as plain arguments.  Every
  weakly fair execution of the reference terminates with its result buffer at the last stage of the launch
  arguments, and the argument arrays unchanged.
-/
import proofs.«109993_j29592324669623_1_alg».proof.Proof.RefSegs
import proofs.«109993_j29592324669623_1_alg».proof.Proof.RefKept
import proofs.«109993_j29592324669623_1_alg».proof.Proof.RefReadP
import proofs.«109993_j29592324669623_1_alg».proof.Proof.LibCat
import Idealize.ShloMosaic.PureOps.Ideal

set_option maxRecDepth 65536

noncomputable section

namespace Cert.ReferenceIdeal.RefRun

open Cert.ReferenceIdeal Cert.ReferenceIdeal.Gen Idealize.ShloMosaic Idealize.ShloMosaic.TcCoe Idealize.SL.Sem Idealize.ShloMosaic.StableHlo
open Cert.ReferenceIdeal.ValueP Cert.ReferenceIdeal.Segs Cert.ReferenceIdeal.ReadP
open Cert.LibCat (cat2 cat2_eq)

/-! A value passed to or returned by an outlined function travels through its buffer's type, which for a
    literal buffer is the value's own type: the transport is the identity. -/
theorem toBuf_main_cst_4 (v : (⟨S_, .f32⟩ : BufTy).Contents (Elt Ideal)) :
    (TRef.of (sig := sig) (T := ⟨S_, .f32⟩) main_cst_4).toBuf (Val := Elt Ideal) v = v := rfl
theorem ofBuf_main_cst_4 (v : (⟨S_, .f32⟩ : BufTy).Contents (Elt Ideal)) :
    (TRef.of (sig := sig) (T := ⟨S_, .f32⟩) main_cst_4).ofBuf (Val := Elt Ideal) v = v := rfl
theorem toBuf_main_call0_v0 (v : (⟨S_, .f32⟩ : BufTy).Contents (Elt Ideal)) :
    (TRef.of (sig := sig) (T := ⟨S_, .f32⟩) main_call0_v0).toBuf (Val := Elt Ideal) v = v := rfl
theorem ofBuf_main_call0_v0 (v : (⟨S_, .f32⟩ : BufTy).Contents (Elt Ideal)) :
    (TRef.of (sig := sig) (T := ⟨S_, .f32⟩) main_call0_v0).ofBuf (Val := Elt Ideal) v = v := rfl
theorem toBuf_main_call0_v1 (v : (⟨S100000, .f32⟩ : BufTy).Contents (Elt Ideal)) :
    (TRef.of (sig := sig) (T := ⟨S100000, .f32⟩) main_call0_v1).toBuf (Val := Elt Ideal) v = v := rfl
theorem ofBuf_main_call0_v1 (v : (⟨S100000, .f32⟩ : BufTy).Contents (Elt Ideal)) :
    (TRef.of (sig := sig) (T := ⟨S100000, .f32⟩) main_call0_v1).ofBuf (Val := Elt Ideal) v = v := rfl
theorem toBuf_main_v15 (v : (⟨S100000, .i1⟩ : BufTy).Contents (Elt Ideal)) :
    (TRef.of (sig := sig) (T := ⟨S100000, .i1⟩) main_v15).toBuf (Val := Elt Ideal) v = v := rfl
theorem ofBuf_main_v15 (v : (⟨S100000, .i1⟩ : BufTy).Contents (Elt Ideal)) :
    (TRef.of (sig := sig) (T := ⟨S100000, .i1⟩) main_v15).ofBuf (Val := Elt Ideal) v = v := rfl
theorem toBuf_main_v18 (v : (⟨S100000, .f32⟩ : BufTy).Contents (Elt Ideal)) :
    (TRef.of (sig := sig) (T := ⟨S100000, .f32⟩) main_v18).toBuf (Val := Elt Ideal) v = v := rfl
theorem ofBuf_main_v18 (v : (⟨S100000, .f32⟩ : BufTy).Contents (Elt Ideal)) :
    (TRef.of (sig := sig) (T := ⟨S100000, .f32⟩) main_v18).ofBuf (Val := Elt Ideal) v = v := rfl
theorem toBuf_main_v19 (v : (⟨S100000, .f32⟩ : BufTy).Contents (Elt Ideal)) :
    (TRef.of (sig := sig) (T := ⟨S100000, .f32⟩) main_v19).toBuf (Val := Elt Ideal) v = v := rfl
theorem ofBuf_main_v19 (v : (⟨S100000, .f32⟩ : BufTy).Contents (Elt Ideal)) :
    (TRef.of (sig := sig) (T := ⟨S100000, .f32⟩) main_v19).ofBuf (Val := Elt Ideal) v = v := rfl
theorem toBuf_main_call1_cst (v : (⟨S_, .f32⟩ : BufTy).Contents (Elt Ideal)) :
    (TRef.of (sig := sig) (T := ⟨S_, .f32⟩) main_call1_cst).toBuf (Val := Elt Ideal) v = v := rfl
theorem ofBuf_main_call1_cst (v : (⟨S_, .f32⟩ : BufTy).Contents (Elt Ideal)) :
    (TRef.of (sig := sig) (T := ⟨S_, .f32⟩) main_call1_cst).ofBuf (Val := Elt Ideal) v = v := rfl
theorem toBuf_main_call1_v0 (v : (⟨S100000x128, .f32⟩ : BufTy).Contents (Elt Ideal)) :
    (TRef.of (sig := sig) (T := ⟨S100000x128, .f32⟩) main_call1_v0).toBuf (Val := Elt Ideal) v = v := rfl
theorem ofBuf_main_call1_v0 (v : (⟨S100000x128, .f32⟩ : BufTy).Contents (Elt Ideal)) :
    (TRef.of (sig := sig) (T := ⟨S100000x128, .f32⟩) main_call1_v0).ofBuf (Val := Elt Ideal) v = v := rfl
theorem toBuf_main_v51 (v : (⟨S100000x128, .f32⟩ : BufTy).Contents (Elt Ideal)) :
    (TRef.of (sig := sig) (T := ⟨S100000x128, .f32⟩) main_v51).toBuf (Val := Elt Ideal) v = v := rfl
theorem ofBuf_main_v51 (v : (⟨S100000x128, .f32⟩ : BufTy).Contents (Elt Ideal)) :
    (TRef.of (sig := sig) (T := ⟨S100000x128, .f32⟩) main_v51).ofBuf (Val := Elt Ideal) v = v := rfl
theorem toBuf_main_v52 (v : (⟨S100000x128, .f32⟩ : BufTy).Contents (Elt Ideal)) :
    (TRef.of (sig := sig) (T := ⟨S100000x128, .f32⟩) main_v52).toBuf (Val := Elt Ideal) v = v := rfl
theorem ofBuf_main_v52 (v : (⟨S100000x128, .f32⟩ : BufTy).Contents (Elt Ideal)) :
    (TRef.of (sig := sig) (T := ⟨S100000x128, .f32⟩) main_v52).ofBuf (Val := Elt Ideal) v = v := rfl
theorem toBuf_main_cst_15 (v : (⟨S_, .f32⟩ : BufTy).Contents (Elt Ideal)) :
    (TRef.of (sig := sig) (T := ⟨S_, .f32⟩) main_cst_15).toBuf (Val := Elt Ideal) v = v := rfl
theorem ofBuf_main_cst_15 (v : (⟨S_, .f32⟩ : BufTy).Contents (Elt Ideal)) :
    (TRef.of (sig := sig) (T := ⟨S_, .f32⟩) main_cst_15).ofBuf (Val := Elt Ideal) v = v := rfl
theorem toBuf_main_call2_v0 (v : (⟨S_, .f32⟩ : BufTy).Contents (Elt Ideal)) :
    (TRef.of (sig := sig) (T := ⟨S_, .f32⟩) main_call2_v0).toBuf (Val := Elt Ideal) v = v := rfl
theorem ofBuf_main_call2_v0 (v : (⟨S_, .f32⟩ : BufTy).Contents (Elt Ideal)) :
    (TRef.of (sig := sig) (T := ⟨S_, .f32⟩) main_call2_v0).ofBuf (Val := Elt Ideal) v = v := rfl
theorem toBuf_main_call2_v1 (v : (⟨S100000, .f32⟩ : BufTy).Contents (Elt Ideal)) :
    (TRef.of (sig := sig) (T := ⟨S100000, .f32⟩) main_call2_v1).toBuf (Val := Elt Ideal) v = v := rfl
theorem ofBuf_main_call2_v1 (v : (⟨S100000, .f32⟩ : BufTy).Contents (Elt Ideal)) :
    (TRef.of (sig := sig) (T := ⟨S100000, .f32⟩) main_call2_v1).ofBuf (Val := Elt Ideal) v = v := rfl
theorem toBuf_main_v67 (v : (⟨S100000, .i1⟩ : BufTy).Contents (Elt Ideal)) :
    (TRef.of (sig := sig) (T := ⟨S100000, .i1⟩) main_v67).toBuf (Val := Elt Ideal) v = v := rfl
theorem ofBuf_main_v67 (v : (⟨S100000, .i1⟩ : BufTy).Contents (Elt Ideal)) :
    (TRef.of (sig := sig) (T := ⟨S100000, .i1⟩) main_v67).ofBuf (Val := Elt Ideal) v = v := rfl
theorem toBuf_main_v70 (v : (⟨S100000, .f32⟩ : BufTy).Contents (Elt Ideal)) :
    (TRef.of (sig := sig) (T := ⟨S100000, .f32⟩) main_v70).toBuf (Val := Elt Ideal) v = v := rfl
theorem ofBuf_main_v70 (v : (⟨S100000, .f32⟩ : BufTy).Contents (Elt Ideal)) :
    (TRef.of (sig := sig) (T := ⟨S100000, .f32⟩) main_v70).ofBuf (Val := Elt Ideal) v = v := rfl
theorem toBuf_main_v71 (v : (⟨S100000, .f32⟩ : BufTy).Contents (Elt Ideal)) :
    (TRef.of (sig := sig) (T := ⟨S100000, .f32⟩) main_v71).toBuf (Val := Elt Ideal) v = v := rfl
theorem ofBuf_main_v71 (v : (⟨S100000, .f32⟩ : BufTy).Contents (Elt Ideal)) :
    (TRef.of (sig := sig) (T := ⟨S100000, .f32⟩) main_v71).ofBuf (Val := Elt Ideal) v = v := rfl
theorem toBuf_main_call3_cst (v : (⟨S_, .f32⟩ : BufTy).Contents (Elt Ideal)) :
    (TRef.of (sig := sig) (T := ⟨S_, .f32⟩) main_call3_cst).toBuf (Val := Elt Ideal) v = v := rfl
theorem ofBuf_main_call3_cst (v : (⟨S_, .f32⟩ : BufTy).Contents (Elt Ideal)) :
    (TRef.of (sig := sig) (T := ⟨S_, .f32⟩) main_call3_cst).ofBuf (Val := Elt Ideal) v = v := rfl
theorem toBuf_main_call3_v0 (v : (⟨S100000x128, .f32⟩ : BufTy).Contents (Elt Ideal)) :
    (TRef.of (sig := sig) (T := ⟨S100000x128, .f32⟩) main_call3_v0).toBuf (Val := Elt Ideal) v = v := rfl
theorem ofBuf_main_call3_v0 (v : (⟨S100000x128, .f32⟩ : BufTy).Contents (Elt Ideal)) :
    (TRef.of (sig := sig) (T := ⟨S100000x128, .f32⟩) main_call3_v0).ofBuf (Val := Elt Ideal) v = v := rfl
theorem toBuf_main_v108 (v : (⟨S100000x128, .f32⟩ : BufTy).Contents (Elt Ideal)) :
    (TRef.of (sig := sig) (T := ⟨S100000x128, .f32⟩) main_v108).toBuf (Val := Elt Ideal) v = v := rfl
theorem ofBuf_main_v108 (v : (⟨S100000x128, .f32⟩ : BufTy).Contents (Elt Ideal)) :
    (TRef.of (sig := sig) (T := ⟨S100000x128, .f32⟩) main_v108).ofBuf (Val := Elt Ideal) v = v := rfl
theorem toBuf_main_v109 (v : (⟨S100000x128, .f32⟩ : BufTy).Contents (Elt Ideal)) :
    (TRef.of (sig := sig) (T := ⟨S100000x128, .f32⟩) main_v109).toBuf (Val := Elt Ideal) v = v := rfl
theorem ofBuf_main_v109 (v : (⟨S100000x128, .f32⟩ : BufTy).Contents (Elt Ideal)) :
    (TRef.of (sig := sig) (T := ⟨S100000x128, .f32⟩) main_v109).ofBuf (Val := Elt Ideal) v = v := rfl
theorem toBuf_main_cst_29 (v : (⟨S_, .f32⟩ : BufTy).Contents (Elt Ideal)) :
    (TRef.of (sig := sig) (T := ⟨S_, .f32⟩) main_cst_29).toBuf (Val := Elt Ideal) v = v := rfl
theorem ofBuf_main_cst_29 (v : (⟨S_, .f32⟩ : BufTy).Contents (Elt Ideal)) :
    (TRef.of (sig := sig) (T := ⟨S_, .f32⟩) main_cst_29).ofBuf (Val := Elt Ideal) v = v := rfl
theorem toBuf_main_call4_v0 (v : (⟨S_, .f32⟩ : BufTy).Contents (Elt Ideal)) :
    (TRef.of (sig := sig) (T := ⟨S_, .f32⟩) main_call4_v0).toBuf (Val := Elt Ideal) v = v := rfl
theorem ofBuf_main_call4_v0 (v : (⟨S_, .f32⟩ : BufTy).Contents (Elt Ideal)) :
    (TRef.of (sig := sig) (T := ⟨S_, .f32⟩) main_call4_v0).ofBuf (Val := Elt Ideal) v = v := rfl
theorem toBuf_main_call4_v1 (v : (⟨S100000, .f32⟩ : BufTy).Contents (Elt Ideal)) :
    (TRef.of (sig := sig) (T := ⟨S100000, .f32⟩) main_call4_v1).toBuf (Val := Elt Ideal) v = v := rfl
theorem ofBuf_main_call4_v1 (v : (⟨S100000, .f32⟩ : BufTy).Contents (Elt Ideal)) :
    (TRef.of (sig := sig) (T := ⟨S100000, .f32⟩) main_call4_v1).ofBuf (Val := Elt Ideal) v = v := rfl
theorem toBuf_main_v124 (v : (⟨S100000, .i1⟩ : BufTy).Contents (Elt Ideal)) :
    (TRef.of (sig := sig) (T := ⟨S100000, .i1⟩) main_v124).toBuf (Val := Elt Ideal) v = v := rfl
theorem ofBuf_main_v124 (v : (⟨S100000, .i1⟩ : BufTy).Contents (Elt Ideal)) :
    (TRef.of (sig := sig) (T := ⟨S100000, .i1⟩) main_v124).ofBuf (Val := Elt Ideal) v = v := rfl
theorem toBuf_main_v127 (v : (⟨S100000, .f32⟩ : BufTy).Contents (Elt Ideal)) :
    (TRef.of (sig := sig) (T := ⟨S100000, .f32⟩) main_v127).toBuf (Val := Elt Ideal) v = v := rfl
theorem ofBuf_main_v127 (v : (⟨S100000, .f32⟩ : BufTy).Contents (Elt Ideal)) :
    (TRef.of (sig := sig) (T := ⟨S100000, .f32⟩) main_v127).ofBuf (Val := Elt Ideal) v = v := rfl
theorem toBuf_main_v128 (v : (⟨S100000, .f32⟩ : BufTy).Contents (Elt Ideal)) :
    (TRef.of (sig := sig) (T := ⟨S100000, .f32⟩) main_v128).toBuf (Val := Elt Ideal) v = v := rfl
theorem ofBuf_main_v128 (v : (⟨S100000, .f32⟩ : BufTy).Contents (Elt Ideal)) :
    (TRef.of (sig := sig) (T := ⟨S100000, .f32⟩) main_v128).ofBuf (Val := Elt Ideal) v = v := rfl
theorem toBuf_main_call5_cst (v : (⟨S_, .f32⟩ : BufTy).Contents (Elt Ideal)) :
    (TRef.of (sig := sig) (T := ⟨S_, .f32⟩) main_call5_cst).toBuf (Val := Elt Ideal) v = v := rfl
theorem ofBuf_main_call5_cst (v : (⟨S_, .f32⟩ : BufTy).Contents (Elt Ideal)) :
    (TRef.of (sig := sig) (T := ⟨S_, .f32⟩) main_call5_cst).ofBuf (Val := Elt Ideal) v = v := rfl
theorem toBuf_main_v160 (v : (⟨S100000x40, .f32⟩ : BufTy).Contents (Elt Ideal)) :
    (TRef.of (sig := sig) (T := ⟨S100000x40, .f32⟩) main_v160).toBuf (Val := Elt Ideal) v = v := rfl
theorem ofBuf_main_v160 (v : (⟨S100000x40, .f32⟩ : BufTy).Contents (Elt Ideal)) :
    (TRef.of (sig := sig) (T := ⟨S100000x40, .f32⟩) main_v160).ofBuf (Val := Elt Ideal) v = v := rfl
theorem toBuf_main_call5_v0 (v : (⟨S100000, .f32⟩ : BufTy).Contents (Elt Ideal)) :
    (TRef.of (sig := sig) (T := ⟨S100000, .f32⟩) main_call5_v0).toBuf (Val := Elt Ideal) v = v := rfl
theorem ofBuf_main_call5_v0 (v : (⟨S100000, .f32⟩ : BufTy).Contents (Elt Ideal)) :
    (TRef.of (sig := sig) (T := ⟨S100000, .f32⟩) main_call5_v0).ofBuf (Val := Elt Ideal) v = v := rfl
theorem toBuf_main_call5_cst_0 (v : (⟨S_, .f32⟩ : BufTy).Contents (Elt Ideal)) :
    (TRef.of (sig := sig) (T := ⟨S_, .f32⟩) main_call5_cst_0).toBuf (Val := Elt Ideal) v = v := rfl
theorem ofBuf_main_call5_cst_0 (v : (⟨S_, .f32⟩ : BufTy).Contents (Elt Ideal)) :
    (TRef.of (sig := sig) (T := ⟨S_, .f32⟩) main_call5_cst_0).ofBuf (Val := Elt Ideal) v = v := rfl
theorem toBuf_main_call5_v1 (v : (⟨S100000, .f32⟩ : BufTy).Contents (Elt Ideal)) :
    (TRef.of (sig := sig) (T := ⟨S100000, .f32⟩) main_call5_v1).toBuf (Val := Elt Ideal) v = v := rfl
theorem ofBuf_main_call5_v1 (v : (⟨S100000, .f32⟩ : BufTy).Contents (Elt Ideal)) :
    (TRef.of (sig := sig) (T := ⟨S100000, .f32⟩) main_call5_v1).ofBuf (Val := Elt Ideal) v = v := rfl
theorem toBuf_main_call5_v2 (v : (⟨S100000, .f32⟩ : BufTy).Contents (Elt Ideal)) :
    (TRef.of (sig := sig) (T := ⟨S100000, .f32⟩) main_call5_v2).toBuf (Val := Elt Ideal) v = v := rfl
theorem ofBuf_main_call5_v2 (v : (⟨S100000, .f32⟩ : BufTy).Contents (Elt Ideal)) :
    (TRef.of (sig := sig) (T := ⟨S100000, .f32⟩) main_call5_v2).ofBuf (Val := Elt Ideal) v = v := rfl
theorem toBuf_main_call5_v3 (v : (⟨S100000x1, .f32⟩ : BufTy).Contents (Elt Ideal)) :
    (TRef.of (sig := sig) (T := ⟨S100000x1, .f32⟩) main_call5_v3).toBuf (Val := Elt Ideal) v = v := rfl
theorem ofBuf_main_call5_v3 (v : (⟨S100000x1, .f32⟩ : BufTy).Contents (Elt Ideal)) :
    (TRef.of (sig := sig) (T := ⟨S100000x1, .f32⟩) main_call5_v3).ofBuf (Val := Elt Ideal) v = v := rfl
theorem toBuf_main_call5_v4 (v : (⟨S100000x40, .f32⟩ : BufTy).Contents (Elt Ideal)) :
    (TRef.of (sig := sig) (T := ⟨S100000x40, .f32⟩) main_call5_v4).toBuf (Val := Elt Ideal) v = v := rfl
theorem ofBuf_main_call5_v4 (v : (⟨S100000x40, .f32⟩ : BufTy).Contents (Elt Ideal)) :
    (TRef.of (sig := sig) (T := ⟨S100000x40, .f32⟩) main_call5_v4).ofBuf (Val := Elt Ideal) v = v := rfl
theorem toBuf_main_call5_v5 (v : (⟨S100000x40, .f32⟩ : BufTy).Contents (Elt Ideal)) :
    (TRef.of (sig := sig) (T := ⟨S100000x40, .f32⟩) main_call5_v5).toBuf (Val := Elt Ideal) v = v := rfl
theorem ofBuf_main_call5_v5 (v : (⟨S100000x40, .f32⟩ : BufTy).Contents (Elt Ideal)) :
    (TRef.of (sig := sig) (T := ⟨S100000x40, .f32⟩) main_call5_v5).ofBuf (Val := Elt Ideal) v = v := rfl
theorem toBuf_main_call5_v6 (v : (⟨S100000x40, .f32⟩ : BufTy).Contents (Elt Ideal)) :
    (TRef.of (sig := sig) (T := ⟨S100000x40, .f32⟩) main_call5_v6).toBuf (Val := Elt Ideal) v = v := rfl
theorem ofBuf_main_call5_v6 (v : (⟨S100000x40, .f32⟩ : BufTy).Contents (Elt Ideal)) :
    (TRef.of (sig := sig) (T := ⟨S100000x40, .f32⟩) main_call5_v6).ofBuf (Val := Elt Ideal) v = v := rfl
theorem toBuf_main_call5_cst_1 (v : (⟨S_, .f32⟩ : BufTy).Contents (Elt Ideal)) :
    (TRef.of (sig := sig) (T := ⟨S_, .f32⟩) main_call5_cst_1).toBuf (Val := Elt Ideal) v = v := rfl
theorem ofBuf_main_call5_cst_1 (v : (⟨S_, .f32⟩ : BufTy).Contents (Elt Ideal)) :
    (TRef.of (sig := sig) (T := ⟨S_, .f32⟩) main_call5_cst_1).ofBuf (Val := Elt Ideal) v = v := rfl
theorem toBuf_main_call5_v7 (v : (⟨S100000, .f32⟩ : BufTy).Contents (Elt Ideal)) :
    (TRef.of (sig := sig) (T := ⟨S100000, .f32⟩) main_call5_v7).toBuf (Val := Elt Ideal) v = v := rfl
theorem ofBuf_main_call5_v7 (v : (⟨S100000, .f32⟩ : BufTy).Contents (Elt Ideal)) :
    (TRef.of (sig := sig) (T := ⟨S100000, .f32⟩) main_call5_v7).ofBuf (Val := Elt Ideal) v = v := rfl
theorem toBuf_main_call5_v8 (v : (⟨S100000x1, .f32⟩ : BufTy).Contents (Elt Ideal)) :
    (TRef.of (sig := sig) (T := ⟨S100000x1, .f32⟩) main_call5_v8).toBuf (Val := Elt Ideal) v = v := rfl
theorem ofBuf_main_call5_v8 (v : (⟨S100000x1, .f32⟩ : BufTy).Contents (Elt Ideal)) :
    (TRef.of (sig := sig) (T := ⟨S100000x1, .f32⟩) main_call5_v8).ofBuf (Val := Elt Ideal) v = v := rfl
theorem toBuf_main_call5_v9 (v : (⟨S100000x1, .f32⟩ : BufTy).Contents (Elt Ideal)) :
    (TRef.of (sig := sig) (T := ⟨S100000x1, .f32⟩) main_call5_v9).toBuf (Val := Elt Ideal) v = v := rfl
theorem ofBuf_main_call5_v9 (v : (⟨S100000x1, .f32⟩ : BufTy).Contents (Elt Ideal)) :
    (TRef.of (sig := sig) (T := ⟨S100000x1, .f32⟩) main_call5_v9).ofBuf (Val := Elt Ideal) v = v := rfl
theorem toBuf_main_call5_v10 (v : (⟨S100000x40, .f32⟩ : BufTy).Contents (Elt Ideal)) :
    (TRef.of (sig := sig) (T := ⟨S100000x40, .f32⟩) main_call5_v10).toBuf (Val := Elt Ideal) v = v := rfl
theorem ofBuf_main_call5_v10 (v : (⟨S100000x40, .f32⟩ : BufTy).Contents (Elt Ideal)) :
    (TRef.of (sig := sig) (T := ⟨S100000x40, .f32⟩) main_call5_v10).ofBuf (Val := Elt Ideal) v = v := rfl
theorem toBuf_main_v161 (v : (⟨S100000x40, .f32⟩ : BufTy).Contents (Elt Ideal)) :
    (TRef.of (sig := sig) (T := ⟨S100000x40, .f32⟩) main_v161).toBuf (Val := Elt Ideal) v = v := rfl
theorem ofBuf_main_v161 (v : (⟨S100000x40, .f32⟩ : BufTy).Contents (Elt Ideal)) :
    (TRef.of (sig := sig) (T := ⟨S100000x40, .f32⟩) main_v161).ofBuf (Val := Elt Ideal) v = v := rfl

variable (m : (ℓ : Loc nD τ sig) → Buf (Elt Ideal) ℓ) (c : Dev nD)

set_option maxHeartbeats 4000000 in
/-- After the first piece: the first layer's aggregation over the edges. -/
theorem stage1 : U1 m c (Proc.devRef .tc main_v48) = (val_main_v48 (F := Ideal) (m ((c.tc : Thread nD τ).loc main_arg0)) (m ((c.tc : Thread nD τ).loc main_arg1)) (m ((c.tc : Thread nD τ).loc main_arg6))) := by
  show after S1 (launchContents m c) (Proc.devRef .tc main_v48) = _
  simp only [S1, cat2_eq]
  after_results_simp
  try rw [toBuf_main_cst_4]
  try rw [ofBuf_main_cst_4]
  try rw [toBuf_main_call0_v0]
  try rw [ofBuf_main_call0_v0]
  try rw [toBuf_main_call0_v1]
  try rw [ofBuf_main_call0_v1]
  try rw [toBuf_main_v15]
  try rw [ofBuf_main_v15]
  try rw [toBuf_main_v18]
  try rw [ofBuf_main_v18]
  try rw [toBuf_main_v19]
  try rw [ofBuf_main_v19]
  simp only [val_main_cst, val_main_v0, val_main_v1, val_main_v2, val_main_v3, val_main_v4, val_main_v5, val_main_v6, val_main_v7, val_main_v8, val_main_cst_0, val_main_v9, val_main_v10, val_main_cst_1, val_main_v11, val_main_v12, val_main_v13, val_main_cst_2, val_main_v14, val_main_v15, val_main_cst_3, val_main_v16, val_main_v17, val_main_v18, val_main_cst_4, val_main_call0_v0, val_main_call0_v1, val_main_v19, val_main_c, val_main_v20, val_main_v21, val_main_c_5, val_main_v22, val_main_v23, val_main_v24, val_main_v25, val_main_v26, val_main_v27, val_main_c_6, val_main_v28, val_main_v29, val_main_c_7, val_main_v30, val_main_v31, val_main_v32, val_main_v33, val_main_v34, val_main_v35, val_main_v36, val_main_c_8, val_main_v37, val_main_v38, val_main_c_9, val_main_v39, val_main_v40, val_main_v41, val_main_v42, val_main_v43, val_main_v44, val_main_v45, val_main_cst_10, val_main_v46, val_main_v47, val_main_v48, cat2_eq] <;> rfl

set_option maxHeartbeats 4000000 in
/-- After the second piece: the first layer before its activation … -/
theorem stage2_pre : U2 m c (Proc.devRef .tc main_v51) = (val_main_v51 (F := Ideal) (m ((c.tc : Thread nD τ).loc main_arg0)) (m ((c.tc : Thread nD τ).loc main_arg1)) (m ((c.tc : Thread nD τ).loc main_arg6)) (m ((c.tc : Thread nD τ).loc main_arg7))) := by
  show after S2 (U1 m c) (Proc.devRef .tc main_v51) = _
  simp only [S2, cat2_eq]
  after_results_simp
  rw [stage1 m c, Kept.U1_arg7 m c]
  try rw [toBuf_main_call1_cst]
  try rw [ofBuf_main_call1_cst]
  try rw [toBuf_main_call1_v0]
  try rw [ofBuf_main_call1_v0]
  try rw [toBuf_main_v51]
  try rw [ofBuf_main_v51]
  try rw [toBuf_main_v52]
  try rw [ofBuf_main_v52]
  simp only [val_main_v49, val_main_v50, val_main_v51, cat2_eq] <;> rfl

set_option maxHeartbeats 4000000 in
/-- … and the second projection. -/
theorem stage2_proj : U2 m c (Proc.devRef .tc main_v53) = (val_main_v53 (F := Ideal) (m ((c.tc : Thread nD τ).loc main_arg0)) (m ((c.tc : Thread nD τ).loc main_arg1)) (m ((c.tc : Thread nD τ).loc main_arg6)) (m ((c.tc : Thread nD τ).loc main_arg7)) (m ((c.tc : Thread nD τ).loc main_arg8))) := by
  show after S2 (U1 m c) (Proc.devRef .tc main_v53) = _
  simp only [S2, cat2_eq]
  after_results_simp
  rw [stage1 m c, Kept.U1_arg7 m c, Kept.U1_arg8 m c]
  try rw [toBuf_main_call1_cst]
  try rw [ofBuf_main_call1_cst]
  try rw [toBuf_main_call1_v0]
  try rw [ofBuf_main_call1_v0]
  try rw [toBuf_main_v51]
  try rw [ofBuf_main_v51]
  try rw [toBuf_main_v52]
  try rw [ofBuf_main_v52]
  simp only [val_main_v49, val_main_v50, val_main_v51, val_main_call1_cst, val_main_call1_v0, val_main_v52, val_main_v53, cat2_eq] <;> rfl

set_option maxHeartbeats 4000000 in
/-- After the third piece: the second layer's aggregation over the edges. -/
theorem stage3 : U3 m c (Proc.devRef .tc main_v100) = (val_main_v100 (F := Ideal) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg6)) (m ((c.tc : Thread nD τ).loc main_arg7)) (m ((c.tc : Thread nD τ).loc main_arg8))) := by
  show after S3 (U2 m c) (Proc.devRef .tc main_v100) = _
  simp only [S3, cat2_eq]
  after_results_simp
  rw [stage2_proj m c, Kept.U2_arg2 m c, Kept.U2_arg4 m c]
  try rw [toBuf_main_cst_15]
  try rw [ofBuf_main_cst_15]
  try rw [toBuf_main_call2_v0]
  try rw [ofBuf_main_call2_v0]
  try rw [toBuf_main_call2_v1]
  try rw [ofBuf_main_call2_v1]
  try rw [toBuf_main_v67]
  try rw [ofBuf_main_v67]
  try rw [toBuf_main_v70]
  try rw [ofBuf_main_v70]
  try rw [toBuf_main_v71]
  try rw [ofBuf_main_v71]
  simp only [val_main_v54, val_main_v55, val_main_v56, val_main_v57, val_main_v58, val_main_v59, val_main_v60, val_main_cst_11, val_main_v61, val_main_v62, val_main_cst_12, val_main_v63, val_main_v64, val_main_v65, val_main_cst_13, val_main_v66, val_main_v67, val_main_cst_14, val_main_v68, val_main_v69, val_main_v70, val_main_cst_15, val_main_call2_v0, val_main_call2_v1, val_main_v71, val_main_c_16, val_main_v72, val_main_v73, val_main_c_17, val_main_v74, val_main_v75, val_main_v76, val_main_v77, val_main_v78, val_main_v79, val_main_c_18, val_main_v80, val_main_v81, val_main_c_19, val_main_v82, val_main_v83, val_main_v84, val_main_v85, val_main_v86, val_main_v87, val_main_v88, val_main_c_20, val_main_v89, val_main_v90, val_main_c_21, val_main_v91, val_main_v92, val_main_v93, val_main_v94, val_main_v95, val_main_v96, val_main_v97, val_main_cst_22, val_main_v98, val_main_v99, val_main_v100, cat2_eq] <;> rfl

/-- The first layer's pre-activation is still there after the third piece. -/
theorem stage3_pre : U3 m c (Proc.devRef .tc main_v51) = (val_main_v51 (F := Ideal) (m ((c.tc : Thread nD τ).loc main_arg0)) (m ((c.tc : Thread nD τ).loc main_arg1)) (m ((c.tc : Thread nD τ).loc main_arg6)) (m ((c.tc : Thread nD τ).loc main_arg7))) :=
  (Kept.U3_pre m c).trans (stage2_pre m c)

set_option maxHeartbeats 4000000 in
/-- After the fourth piece: the third projection. -/
theorem stage4 : U4 m c (Proc.devRef .tc main_v110) = (val_main_v110 (F := Ideal) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))) := by
  show after S4 (U3 m c) (Proc.devRef .tc main_v110) = _
  simp only [S4, cat2_eq]
  after_results_simp
  rw [stage3 m c, stage3_pre m c, Kept.U3_arg9 m c, Kept.U3_arg10 m c]
  try rw [toBuf_main_call3_cst]
  try rw [ofBuf_main_call3_cst]
  try rw [toBuf_main_call3_v0]
  try rw [ofBuf_main_call3_v0]
  try rw [toBuf_main_v108]
  try rw [ofBuf_main_v108]
  try rw [toBuf_main_v109]
  try rw [ofBuf_main_v109]
  simp only [val_main_v101, val_main_v102, val_main_v103, val_main_cst_23, val_main_v104, val_main_v105, val_main_cst_24, val_main_v106, val_main_v107, val_main_v108, val_main_call3_cst, val_main_call3_v0, val_main_v109, val_main_v110, cat2_eq] <;> rfl

set_option maxHeartbeats 4000000 in
/-- After the fifth piece: the third layer's aggregation over the edges. -/
theorem stage5 : U5 m c (Proc.devRef .tc main_v157) = (val_main_v157 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))) := by
  show after S5 (U4 m c) (Proc.devRef .tc main_v157) = _
  simp only [S5, cat2_eq]
  after_results_simp
  rw [stage4 m c, Kept.U4_arg3 m c, Kept.U4_arg5 m c]
  try rw [toBuf_main_cst_29]
  try rw [ofBuf_main_cst_29]
  try rw [toBuf_main_call4_v0]
  try rw [ofBuf_main_call4_v0]
  try rw [toBuf_main_call4_v1]
  try rw [ofBuf_main_call4_v1]
  try rw [toBuf_main_v124]
  try rw [ofBuf_main_v124]
  try rw [toBuf_main_v127]
  try rw [ofBuf_main_v127]
  try rw [toBuf_main_v128]
  try rw [ofBuf_main_v128]
  simp only [val_main_v111, val_main_v112, val_main_v113, val_main_v114, val_main_v115, val_main_v116, val_main_v117, val_main_cst_25, val_main_v118, val_main_v119, val_main_cst_26, val_main_v120, val_main_v121, val_main_v122, val_main_cst_27, val_main_v123, val_main_v124, val_main_cst_28, val_main_v125, val_main_v126, val_main_v127, val_main_cst_29, val_main_call4_v0, val_main_call4_v1, val_main_v128, val_main_c_30, val_main_v129, val_main_v130, val_main_c_31, val_main_v131, val_main_v132, val_main_v133, val_main_v134, val_main_v135, val_main_v136, val_main_c_32, val_main_v137, val_main_v138, val_main_c_33, val_main_v139, val_main_v140, val_main_v141, val_main_v142, val_main_v143, val_main_v144, val_main_v145, val_main_c_34, val_main_v146, val_main_v147, val_main_c_35, val_main_v148, val_main_v149, val_main_v150, val_main_v151, val_main_v152, val_main_v153, val_main_v154, val_main_cst_36, val_main_v155, val_main_v156, val_main_v157, cat2_eq] <;> rfl

set_option maxHeartbeats 4000000 in
/-- After the sixth piece: the result. -/
theorem stage6 : U6 m c (Proc.devRef .tc main_v161) = (val_main_v161 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))) := by
  show after S6 (U5 m c) (Proc.devRef .tc main_v161) = _
  simp only [S6, cat2_eq]
  after_results_simp
  rw [stage5 m c, Kept.U5_arg11 m c]
  try rw [toBuf_main_call5_cst]
  try rw [ofBuf_main_call5_cst]
  try rw [toBuf_main_v160]
  try rw [ofBuf_main_v160]
  try rw [toBuf_main_call5_v0]
  try rw [ofBuf_main_call5_v0]
  try rw [toBuf_main_call5_cst_0]
  try rw [ofBuf_main_call5_cst_0]
  try rw [toBuf_main_call5_v1]
  try rw [ofBuf_main_call5_v1]
  try rw [toBuf_main_call5_v2]
  try rw [ofBuf_main_call5_v2]
  try rw [toBuf_main_call5_v3]
  try rw [ofBuf_main_call5_v3]
  try rw [toBuf_main_call5_v4]
  try rw [ofBuf_main_call5_v4]
  try rw [toBuf_main_call5_v5]
  try rw [ofBuf_main_call5_v5]
  try rw [toBuf_main_call5_v6]
  try rw [ofBuf_main_call5_v6]
  try rw [toBuf_main_call5_cst_1]
  try rw [ofBuf_main_call5_cst_1]
  try rw [toBuf_main_call5_v7]
  try rw [ofBuf_main_call5_v7]
  try rw [toBuf_main_call5_v8]
  try rw [ofBuf_main_call5_v8]
  try rw [toBuf_main_call5_v9]
  try rw [ofBuf_main_call5_v9]
  try rw [toBuf_main_call5_v10]
  try rw [ofBuf_main_call5_v10]
  try rw [toBuf_main_v161]
  try rw [ofBuf_main_v161]
  simp only [val_main_v158, val_main_v159, val_main_v160, val_main_call5_cst, val_main_call5_v0, val_main_call5_cst_0, val_main_call5_v1, val_main_call5_v2, val_main_call5_v3, val_main_call5_v4, val_main_call5_v5, val_main_call5_v6, val_main_call5_cst_1, val_main_call5_v7, val_main_call5_v8, val_main_call5_v9, val_main_call5_v10, val_main_v161, cat2_eq] <;> rfl

/-- Every weakly fair execution of the reference terminates with its result at the last stage of the launch
    arguments, the argument arrays unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v161) = (val_main_v161 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun _ h c =>
    ⟨(h c main_v161).trans ((congrFun (after_ops m c) _).trans (stage6 m c)),
      (h c main_arg0).trans ((congrFun (after_ops m c) _).trans (Kept.U6_arg0 m c)),
      (h c main_arg1).trans ((congrFun (after_ops m c) _).trans (Kept.U6_arg1 m c)),
      (h c main_arg2).trans ((congrFun (after_ops m c) _).trans (Kept.U6_arg2 m c)),
      (h c main_arg3).trans ((congrFun (after_ops m c) _).trans (Kept.U6_arg3 m c)),
      (h c main_arg4).trans ((congrFun (after_ops m c) _).trans (Kept.U6_arg4 m c)),
      (h c main_arg5).trans ((congrFun (after_ops m c) _).trans (Kept.U6_arg5 m c)),
      (h c main_arg6).trans ((congrFun (after_ops m c) _).trans (Kept.U6_arg6 m c)),
      (h c main_arg7).trans ((congrFun (after_ops m c) _).trans (Kept.U6_arg7 m c)),
      (h c main_arg8).trans ((congrFun (after_ops m c) _).trans (Kept.U6_arg8 m c)),
      (h c main_arg9).trans ((congrFun (after_ops m c) _).trans (Kept.U6_arg9 m c)),
      (h c main_arg10).trans ((congrFun (after_ops m c) _).trans (Kept.U6_arg10 m c)),
      (h c main_arg11).trans ((congrFun (after_ops m c) _).trans (Kept.U6_arg11 m c))⟩)
    (run_seq scopedRefs_eq scopedSems_eq defs main (fun _ => ops) main_eq (fun _ => ops_sub) m ρ)

end Cert.ReferenceIdeal.RefRun

end
-- ==== Proof.Kept.lean ====
/-
  Buffers no region and no host operation writes between two boundaries of @main keep their contents: each
  argument array read at a later boundary is the launch memory's, and the first layer's pre-activation
  array is still at the fourth region's entry what the second region left.  One walk back per buffer and
  boundary: a region leaves every buffer that is not one of its arrays as it found it, and a stretch of
  host operations leaves every buffer none of them writes.
-/
import proofs.«109993_j29592324669623_1_alg».proof.Proof.Gen.KernelIdeal.Frame

set_option maxRecDepth 16384

noncomputable section

namespace Cert.KernelIdeal.Kept

open Cert.KernelIdeal Cert.KernelIdeal.Gen
open Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

theorem W1_arg1 (c : Dev nD) : W1 m ρ c (Proc.devRef .tc main_arg1) = m ((c : Thread nD τ).loc main_arg1) :=
  (W1_of_ne m ρ c main_arg1 (by decide)).trans rfl
theorem W1_arg2 (c : Dev nD) : W1 m ρ c (Proc.devRef .tc main_arg2) = m ((c : Thread nD τ).loc main_arg2) :=
  (W1_of_ne m ρ c main_arg2 (by decide)).trans rfl
theorem W1_arg3 (c : Dev nD) : W1 m ρ c (Proc.devRef .tc main_arg3) = m ((c : Thread nD τ).loc main_arg3) :=
  (W1_of_ne m ρ c main_arg3 (by decide)).trans rfl
theorem W1_arg4 (c : Dev nD) : W1 m ρ c (Proc.devRef .tc main_arg4) = m ((c : Thread nD τ).loc main_arg4) :=
  (W1_of_ne m ρ c main_arg4 (by decide)).trans rfl
theorem W1_arg5 (c : Dev nD) : W1 m ρ c (Proc.devRef .tc main_arg5) = m ((c : Thread nD τ).loc main_arg5) :=
  (W1_of_ne m ρ c main_arg5 (by decide)).trans rfl
theorem W1_arg7 (c : Dev nD) : W1 m ρ c (Proc.devRef .tc main_arg7) = m ((c : Thread nD τ).loc main_arg7) :=
  (W1_of_ne m ρ c main_arg7 (by decide)).trans rfl
theorem W1_arg8 (c : Dev nD) : W1 m ρ c (Proc.devRef .tc main_arg8) = m ((c : Thread nD τ).loc main_arg8) :=
  (W1_of_ne m ρ c main_arg8 (by decide)).trans rfl
theorem W1_arg9 (c : Dev nD) : W1 m ρ c (Proc.devRef .tc main_arg9) = m ((c : Thread nD τ).loc main_arg9) :=
  (W1_of_ne m ρ c main_arg9 (by decide)).trans rfl
theorem W1_arg10 (c : Dev nD) : W1 m ρ c (Proc.devRef .tc main_arg10) = m ((c : Thread nD τ).loc main_arg10) :=
  (W1_of_ne m ρ c main_arg10 (by decide)).trans rfl
theorem W1_arg11 (c : Dev nD) : W1 m ρ c (Proc.devRef .tc main_arg11) = m ((c : Thread nD τ).loc main_arg11) :=
  (W1_of_ne m ρ c main_arg11 (by decide)).trans rfl
theorem W4_arg2 (c : Dev nD) : W4 m ρ c (Proc.devRef .tc main_arg2) = m ((c : Thread nD τ).loc main_arg2) :=
  calc W4 m ρ c (Proc.devRef .tc main_arg2)
    _ = W3 m ρ c (Proc.devRef .tc main_arg2) := StableHlo.after_of_forall_not_mem (b := Proc.devRef .tc main_arg2) _ _ (List.forall_iff_forall_mem.mp (by
      simp only [hostOps1_2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W2 m ρ c (Proc.devRef .tc main_arg2) := StableHlo.after_of_forall_not_mem (b := Proc.devRef .tc main_arg2) _ _ (List.forall_iff_forall_mem.mp (by
      simp only [hostOps1_1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W1 m ρ c (Proc.devRef .tc main_arg2) := StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg2) := W1_arg2 m ρ c
theorem W4_arg3 (c : Dev nD) : W4 m ρ c (Proc.devRef .tc main_arg3) = m ((c : Thread nD τ).loc main_arg3) :=
  calc W4 m ρ c (Proc.devRef .tc main_arg3)
    _ = W3 m ρ c (Proc.devRef .tc main_arg3) := StableHlo.after_of_forall_not_mem (b := Proc.devRef .tc main_arg3) _ _ (List.forall_iff_forall_mem.mp (by
      simp only [hostOps1_2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W2 m ρ c (Proc.devRef .tc main_arg3) := StableHlo.after_of_forall_not_mem (b := Proc.devRef .tc main_arg3) _ _ (List.forall_iff_forall_mem.mp (by
      simp only [hostOps1_1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W1 m ρ c (Proc.devRef .tc main_arg3) := StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg3) := W1_arg3 m ρ c
theorem W4_arg4 (c : Dev nD) : W4 m ρ c (Proc.devRef .tc main_arg4) = m ((c : Thread nD τ).loc main_arg4) :=
  calc W4 m ρ c (Proc.devRef .tc main_arg4)
    _ = W3 m ρ c (Proc.devRef .tc main_arg4) := StableHlo.after_of_forall_not_mem (b := Proc.devRef .tc main_arg4) _ _ (List.forall_iff_forall_mem.mp (by
      simp only [hostOps1_2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W2 m ρ c (Proc.devRef .tc main_arg4) := StableHlo.after_of_forall_not_mem (b := Proc.devRef .tc main_arg4) _ _ (List.forall_iff_forall_mem.mp (by
      simp only [hostOps1_1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W1 m ρ c (Proc.devRef .tc main_arg4) := StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg4) := W1_arg4 m ρ c
theorem W4_arg5 (c : Dev nD) : W4 m ρ c (Proc.devRef .tc main_arg5) = m ((c : Thread nD τ).loc main_arg5) :=
  calc W4 m ρ c (Proc.devRef .tc main_arg5)
    _ = W3 m ρ c (Proc.devRef .tc main_arg5) := StableHlo.after_of_forall_not_mem (b := Proc.devRef .tc main_arg5) _ _ (List.forall_iff_forall_mem.mp (by
      simp only [hostOps1_2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W2 m ρ c (Proc.devRef .tc main_arg5) := StableHlo.after_of_forall_not_mem (b := Proc.devRef .tc main_arg5) _ _ (List.forall_iff_forall_mem.mp (by
      simp only [hostOps1_1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W1 m ρ c (Proc.devRef .tc main_arg5) := StableHlo.after_of_forall_not_mem (b := Proc.devRef .tc main_arg5) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg5) := W1_arg5 m ρ c
theorem W4_arg7 (c : Dev nD) : W4 m ρ c (Proc.devRef .tc main_arg7) = m ((c : Thread nD τ).loc main_arg7) :=
  calc W4 m ρ c (Proc.devRef .tc main_arg7)
    _ = W3 m ρ c (Proc.devRef .tc main_arg7) := StableHlo.after_of_forall_not_mem (b := Proc.devRef .tc main_arg7) _ _ (List.forall_iff_forall_mem.mp (by
      simp only [hostOps1_2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W2 m ρ c (Proc.devRef .tc main_arg7) := StableHlo.after_of_forall_not_mem (b := Proc.devRef .tc main_arg7) _ _ (List.forall_iff_forall_mem.mp (by
      simp only [hostOps1_1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W1 m ρ c (Proc.devRef .tc main_arg7) := StableHlo.after_of_forall_not_mem (b := Proc.devRef .tc main_arg7) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg7) := W1_arg7 m ρ c
theorem W4_arg8 (c : Dev nD) : W4 m ρ c (Proc.devRef .tc main_arg8) = m ((c : Thread nD τ).loc main_arg8) :=
  calc W4 m ρ c (Proc.devRef .tc main_arg8)
    _ = W3 m ρ c (Proc.devRef .tc main_arg8) := StableHlo.after_of_forall_not_mem (b := Proc.devRef .tc main_arg8) _ _ (List.forall_iff_forall_mem.mp (by
      simp only [hostOps1_2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W2 m ρ c (Proc.devRef .tc main_arg8) := StableHlo.after_of_forall_not_mem (b := Proc.devRef .tc main_arg8) _ _ (List.forall_iff_forall_mem.mp (by
      simp only [hostOps1_1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W1 m ρ c (Proc.devRef .tc main_arg8) := StableHlo.after_of_forall_not_mem (b := Proc.devRef .tc main_arg8) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg8) := W1_arg8 m ρ c
theorem W4_arg9 (c : Dev nD) : W4 m ρ c (Proc.devRef .tc main_arg9) = m ((c : Thread nD τ).loc main_arg9) :=
  calc W4 m ρ c (Proc.devRef .tc main_arg9)
    _ = W3 m ρ c (Proc.devRef .tc main_arg9) := StableHlo.after_of_forall_not_mem (b := Proc.devRef .tc main_arg9) _ _ (List.forall_iff_forall_mem.mp (by
      simp only [hostOps1_2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W2 m ρ c (Proc.devRef .tc main_arg9) := StableHlo.after_of_forall_not_mem (b := Proc.devRef .tc main_arg9) _ _ (List.forall_iff_forall_mem.mp (by
      simp only [hostOps1_1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W1 m ρ c (Proc.devRef .tc main_arg9) := StableHlo.after_of_forall_not_mem (b := Proc.devRef .tc main_arg9) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg9) := W1_arg9 m ρ c
theorem W4_arg10 (c : Dev nD) : W4 m ρ c (Proc.devRef .tc main_arg10) = m ((c : Thread nD τ).loc main_arg10) :=
  calc W4 m ρ c (Proc.devRef .tc main_arg10)
    _ = W3 m ρ c (Proc.devRef .tc main_arg10) := StableHlo.after_of_forall_not_mem (b := Proc.devRef .tc main_arg10) _ _ (List.forall_iff_forall_mem.mp (by
      simp only [hostOps1_2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W2 m ρ c (Proc.devRef .tc main_arg10) := StableHlo.after_of_forall_not_mem (b := Proc.devRef .tc main_arg10) _ _ (List.forall_iff_forall_mem.mp (by
      simp only [hostOps1_1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W1 m ρ c (Proc.devRef .tc main_arg10) := StableHlo.after_of_forall_not_mem (b := Proc.devRef .tc main_arg10) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg10) := W1_arg10 m ρ c
theorem W4_arg11 (c : Dev nD) : W4 m ρ c (Proc.devRef .tc main_arg11) = m ((c : Thread nD τ).loc main_arg11) :=
  calc W4 m ρ c (Proc.devRef .tc main_arg11)
    _ = W3 m ρ c (Proc.devRef .tc main_arg11) := StableHlo.after_of_forall_not_mem (b := Proc.devRef .tc main_arg11) _ _ (List.forall_iff_forall_mem.mp (by
      simp only [hostOps1_2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W2 m ρ c (Proc.devRef .tc main_arg11) := StableHlo.after_of_forall_not_mem (b := Proc.devRef .tc main_arg11) _ _ (List.forall_iff_forall_mem.mp (by
      simp only [hostOps1_1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W1 m ρ c (Proc.devRef .tc main_arg11) := StableHlo.after_of_forall_not_mem (b := Proc.devRef .tc main_arg11) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg11) := W1_arg11 m ρ c
theorem W5_arg2 (c : Dev nD) : W5 m ρ c (Proc.devRef .tc main_arg2) = m ((c : Thread nD τ).loc main_arg2) :=
  (W5_of_ne m ρ c main_arg2 (by decide)).trans (W4_arg2 m ρ c)
theorem W5_arg3 (c : Dev nD) : W5 m ρ c (Proc.devRef .tc main_arg3) = m ((c : Thread nD τ).loc main_arg3) :=
  (W5_of_ne m ρ c main_arg3 (by decide)).trans (W4_arg3 m ρ c)
theorem W5_arg4 (c : Dev nD) : W5 m ρ c (Proc.devRef .tc main_arg4) = m ((c : Thread nD τ).loc main_arg4) :=
  (W5_of_ne m ρ c main_arg4 (by decide)).trans (W4_arg4 m ρ c)
theorem W5_arg5 (c : Dev nD) : W5 m ρ c (Proc.devRef .tc main_arg5) = m ((c : Thread nD τ).loc main_arg5) :=
  (W5_of_ne m ρ c main_arg5 (by decide)).trans (W4_arg5 m ρ c)
theorem W5_arg8 (c : Dev nD) : W5 m ρ c (Proc.devRef .tc main_arg8) = m ((c : Thread nD τ).loc main_arg8) :=
  (W5_of_ne m ρ c main_arg8 (by decide)).trans (W4_arg8 m ρ c)
theorem W5_arg9 (c : Dev nD) : W5 m ρ c (Proc.devRef .tc main_arg9) = m ((c : Thread nD τ).loc main_arg9) :=
  (W5_of_ne m ρ c main_arg9 (by decide)).trans (W4_arg9 m ρ c)
theorem W5_arg10 (c : Dev nD) : W5 m ρ c (Proc.devRef .tc main_arg10) = m ((c : Thread nD τ).loc main_arg10) :=
  (W5_of_ne m ρ c main_arg10 (by decide)).trans (W4_arg10 m ρ c)
theorem W5_arg11 (c : Dev nD) : W5 m ρ c (Proc.devRef .tc main_arg11) = m ((c : Thread nD τ).loc main_arg11) :=
  (W5_of_ne m ρ c main_arg11 (by decide)).trans (W4_arg11 m ρ c)
theorem W6_arg2 (c : Dev nD) : W6 m ρ c (Proc.devRef .tc main_arg2) = m ((c : Thread nD τ).loc main_arg2) :=
  (W6_of_ne m ρ c main_arg2 (by decide)).trans (W5_arg2 m ρ c)
theorem W6_arg3 (c : Dev nD) : W6 m ρ c (Proc.devRef .tc main_arg3) = m ((c : Thread nD τ).loc main_arg3) :=
  (W6_of_ne m ρ c main_arg3 (by decide)).trans (W5_arg3 m ρ c)
theorem W6_arg4 (c : Dev nD) : W6 m ρ c (Proc.devRef .tc main_arg4) = m ((c : Thread nD τ).loc main_arg4) :=
  (W6_of_ne m ρ c main_arg4 (by decide)).trans (W5_arg4 m ρ c)
theorem W6_arg5 (c : Dev nD) : W6 m ρ c (Proc.devRef .tc main_arg5) = m ((c : Thread nD τ).loc main_arg5) :=
  (W6_of_ne m ρ c main_arg5 (by decide)).trans (W5_arg5 m ρ c)
theorem W6_arg9 (c : Dev nD) : W6 m ρ c (Proc.devRef .tc main_arg9) = m ((c : Thread nD τ).loc main_arg9) :=
  (W6_of_ne m ρ c main_arg9 (by decide)).trans (W5_arg9 m ρ c)
theorem W6_arg10 (c : Dev nD) : W6 m ρ c (Proc.devRef .tc main_arg10) = m ((c : Thread nD τ).loc main_arg10) :=
  (W6_of_ne m ρ c main_arg10 (by decide)).trans (W5_arg10 m ρ c)
theorem W6_arg11 (c : Dev nD) : W6 m ρ c (Proc.devRef .tc main_arg11) = m ((c : Thread nD τ).loc main_arg11) :=
  (W6_of_ne m ρ c main_arg11 (by decide)).trans (W5_arg11 m ρ c)
theorem W9_arg3 (c : Dev nD) : W9 m ρ c (Proc.devRef .tc main_arg3) = m ((c : Thread nD τ).loc main_arg3) :=
  calc W9 m ρ c (Proc.devRef .tc main_arg3)
    _ = W8 m ρ c (Proc.devRef .tc main_arg3) := StableHlo.after_of_forall_not_mem (b := Proc.devRef .tc main_arg3) _ _ (List.forall_iff_forall_mem.mp (by
      simp only [hostOps3_2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W7 m ρ c (Proc.devRef .tc main_arg3) := StableHlo.after_of_forall_not_mem (b := Proc.devRef .tc main_arg3) _ _ (List.forall_iff_forall_mem.mp (by
      simp only [hostOps3_1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W6 m ρ c (Proc.devRef .tc main_arg3) := StableHlo.after_of_forall_not_mem (b := Proc.devRef .tc main_arg3) _ _ (List.forall_iff_forall_mem.mp (by
      simp only [hostOps3, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg3) := W6_arg3 m ρ c
theorem W9_arg5 (c : Dev nD) : W9 m ρ c (Proc.devRef .tc main_arg5) = m ((c : Thread nD τ).loc main_arg5) :=
  calc W9 m ρ c (Proc.devRef .tc main_arg5)
    _ = W8 m ρ c (Proc.devRef .tc main_arg5) := StableHlo.after_of_forall_not_mem (b := Proc.devRef .tc main_arg5) _ _ (List.forall_iff_forall_mem.mp (by
      simp only [hostOps3_2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W7 m ρ c (Proc.devRef .tc main_arg5) := StableHlo.after_of_forall_not_mem (b := Proc.devRef .tc main_arg5) _ _ (List.forall_iff_forall_mem.mp (by
      simp only [hostOps3_1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W6 m ρ c (Proc.devRef .tc main_arg5) := StableHlo.after_of_forall_not_mem (b := Proc.devRef .tc main_arg5) _ _ (List.forall_iff_forall_mem.mp (by
      simp only [hostOps3, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg5) := W6_arg5 m ρ c
theorem W9_arg9 (c : Dev nD) : W9 m ρ c (Proc.devRef .tc main_arg9) = m ((c : Thread nD τ).loc main_arg9) :=
  calc W9 m ρ c (Proc.devRef .tc main_arg9)
    _ = W8 m ρ c (Proc.devRef .tc main_arg9) := StableHlo.after_of_forall_not_mem (b := Proc.devRef .tc main_arg9) _ _ (List.forall_iff_forall_mem.mp (by
      simp only [hostOps3_2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W7 m ρ c (Proc.devRef .tc main_arg9) := StableHlo.after_of_forall_not_mem (b := Proc.devRef .tc main_arg9) _ _ (List.forall_iff_forall_mem.mp (by
      simp only [hostOps3_1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W6 m ρ c (Proc.devRef .tc main_arg9) := StableHlo.after_of_forall_not_mem (b := Proc.devRef .tc main_arg9) _ _ (List.forall_iff_forall_mem.mp (by
      simp only [hostOps3, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg9) := W6_arg9 m ρ c
theorem W9_arg10 (c : Dev nD) : W9 m ρ c (Proc.devRef .tc main_arg10) = m ((c : Thread nD τ).loc main_arg10) :=
  calc W9 m ρ c (Proc.devRef .tc main_arg10)
    _ = W8 m ρ c (Proc.devRef .tc main_arg10) := StableHlo.after_of_forall_not_mem (b := Proc.devRef .tc main_arg10) _ _ (List.forall_iff_forall_mem.mp (by
      simp only [hostOps3_2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W7 m ρ c (Proc.devRef .tc main_arg10) := StableHlo.after_of_forall_not_mem (b := Proc.devRef .tc main_arg10) _ _ (List.forall_iff_forall_mem.mp (by
      simp only [hostOps3_1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W6 m ρ c (Proc.devRef .tc main_arg10) := StableHlo.after_of_forall_not_mem (b := Proc.devRef .tc main_arg10) _ _ (List.forall_iff_forall_mem.mp (by
      simp only [hostOps3, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg10) := W6_arg10 m ρ c
theorem W9_arg11 (c : Dev nD) : W9 m ρ c (Proc.devRef .tc main_arg11) = m ((c : Thread nD τ).loc main_arg11) :=
  calc W9 m ρ c (Proc.devRef .tc main_arg11)
    _ = W8 m ρ c (Proc.devRef .tc main_arg11) := StableHlo.after_of_forall_not_mem (b := Proc.devRef .tc main_arg11) _ _ (List.forall_iff_forall_mem.mp (by
      simp only [hostOps3_2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W7 m ρ c (Proc.devRef .tc main_arg11) := StableHlo.after_of_forall_not_mem (b := Proc.devRef .tc main_arg11) _ _ (List.forall_iff_forall_mem.mp (by
      simp only [hostOps3_1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W6 m ρ c (Proc.devRef .tc main_arg11) := StableHlo.after_of_forall_not_mem (b := Proc.devRef .tc main_arg11) _ _ (List.forall_iff_forall_mem.mp (by
      simp only [hostOps3, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg11) := W6_arg11 m ρ c
theorem W10_arg3 (c : Dev nD) : W10 m ρ c (Proc.devRef .tc main_arg3) = m ((c : Thread nD τ).loc main_arg3) :=
  (W10_of_ne m ρ c main_arg3 (by decide)).trans (W9_arg3 m ρ c)
theorem W10_arg5 (c : Dev nD) : W10 m ρ c (Proc.devRef .tc main_arg5) = m ((c : Thread nD τ).loc main_arg5) :=
  (W10_of_ne m ρ c main_arg5 (by decide)).trans (W9_arg5 m ρ c)
theorem W10_arg10 (c : Dev nD) : W10 m ρ c (Proc.devRef .tc main_arg10) = m ((c : Thread nD τ).loc main_arg10) :=
  (W10_of_ne m ρ c main_arg10 (by decide)).trans (W9_arg10 m ρ c)
theorem W10_arg11 (c : Dev nD) : W10 m ρ c (Proc.devRef .tc main_arg11) = m ((c : Thread nD τ).loc main_arg11) :=
  (W10_of_ne m ρ c main_arg11 (by decide)).trans (W9_arg11 m ρ c)
theorem W11_arg3 (c : Dev nD) : W11 m ρ c (Proc.devRef .tc main_arg3) = m ((c : Thread nD τ).loc main_arg3) :=
  (W11_of_ne m ρ c main_arg3 (by decide)).trans (W10_arg3 m ρ c)
theorem W11_arg5 (c : Dev nD) : W11 m ρ c (Proc.devRef .tc main_arg5) = m ((c : Thread nD τ).loc main_arg5) :=
  (W11_of_ne m ρ c main_arg5 (by decide)).trans (W10_arg5 m ρ c)
theorem W11_arg11 (c : Dev nD) : W11 m ρ c (Proc.devRef .tc main_arg11) = m ((c : Thread nD τ).loc main_arg11) :=
  (W11_of_ne m ρ c main_arg11 (by decide)).trans (W10_arg11 m ρ c)
theorem W14_arg11 (c : Dev nD) : W14 m ρ c (Proc.devRef .tc main_arg11) = m ((c : Thread nD τ).loc main_arg11) :=
  calc W14 m ρ c (Proc.devRef .tc main_arg11)
    _ = W13 m ρ c (Proc.devRef .tc main_arg11) := StableHlo.after_of_forall_not_mem (b := Proc.devRef .tc main_arg11) _ _ (List.forall_iff_forall_mem.mp (by
      simp only [hostOps5_2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W12 m ρ c (Proc.devRef .tc main_arg11) := StableHlo.after_of_forall_not_mem (b := Proc.devRef .tc main_arg11) _ _ (List.forall_iff_forall_mem.mp (by
      simp only [hostOps5_1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W11 m ρ c (Proc.devRef .tc main_arg11) := StableHlo.after_of_forall_not_mem (b := Proc.devRef .tc main_arg11) _ _ (List.forall_iff_forall_mem.mp (by
      simp only [hostOps5, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg11) := W11_arg11 m ρ c

/-- The first layer's pre-activation array at the fourth region's entry is what the second region left. -/
theorem W9_pre (c : Dev nD) : W9 m ρ c (Proc.devRef .tc main_v49_0) = W5 m ρ c (Proc.devRef .tc main_v49_0) :=
  calc W9 m ρ c (Proc.devRef .tc main_v49_0)
    _ = W8 m ρ c (Proc.devRef .tc main_v49_0) := StableHlo.after_of_forall_not_mem (b := Proc.devRef .tc main_v49_0) _ _ (List.forall_iff_forall_mem.mp (by
      simp only [hostOps3_2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W7 m ρ c (Proc.devRef .tc main_v49_0) := StableHlo.after_of_forall_not_mem (b := Proc.devRef .tc main_v49_0) _ _ (List.forall_iff_forall_mem.mp (by
      simp only [hostOps3_1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W6 m ρ c (Proc.devRef .tc main_v49_0) := StableHlo.after_of_forall_not_mem (b := Proc.devRef .tc main_v49_0) _ _ (List.forall_iff_forall_mem.mp (by
      simp only [hostOps3, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W5 m ρ c (Proc.devRef .tc main_v49_0) := W6_of_ne m ρ c main_v49_0 (by decide)

end Cert.KernelIdeal.Kept

end
-- ==== Proof.LibMatmul.lean ====
/-
  Plain matrix products read at an index, at the ideal values.  For dimension numbers that contract the
  left operand's axis 1 with the right operand's axis 0, keep the left operand's axis 0 and the right
  operand's axis 1 and have no batch axis, a `tpu.matmul` into the zero accumulator and the host's
  `dot_general` are both, at the output index (p, q), the sum over k of x(p, k) · w(k, q).
-/
import Idealize.ShloMosaic.PureOps.Ideal.Laws
import Idealize.ShloMosaic.Lib.ValueIdx

noncomputable section

open scoped BigOperators

namespace Cert.LibMatmul

open Idealize.ShloMosaic Idealize.ShloMosaic.ValueIdx

/-- The matrix product of two arrays of extended reals, index by index. -/
def MM {A K B : Nat} (x : (⟨2, ![A, K]⟩ : Shape).Idx → EReal) (w : (⟨2, ![K, B]⟩ : Shape).Idx → EReal) :
    (⟨2, ![A, B]⟩ : Shape).Idx → EReal :=
  fun i => ∑ k : Fin K, x (ix2 (i 0) k) * w (ix2 k (i 1))

theorem MM_apply {A K B : Nat} (x : (⟨2, ![A, K]⟩ : Shape).Idx → EReal) (w : (⟨2, ![K, B]⟩ : Shape).Idx → EReal)
    (p : Fin A) (q : Fin B) : MM x w (ix2 p q) = ∑ k : Fin K, x (ix2 p k) * w (ix2 k q) := rfl

section Plain
variable {A K B : Nat} (d : DotDims ⟨2, ![A, K]⟩ ⟨2, ![K, B]⟩ ⟨2, ![A, B]⟩)
  (hlb : d.lhsBatch = []) (hln : d.lhsNonContracting = [0]) (hlc : d.lhsContracting = [1])
  (hrb : d.rhsBatch = []) (hrn : d.rhsNonContracting = [1]) (hrc : d.rhsContracting = [0])

include hlc in
theorem contr_rank : d.contr.rank = 1 := by rw [d.rank_contr, hlc]; rfl

include hlc in
theorem contr_size : d.contr.size ⟨0, by rw [contr_rank d hlc]; exact Nat.one_pos⟩ = K := by
  have hp : 0 < d.lhsContracting.length := by rw [hlc]; exact Nat.one_pos
  have := d.size_contr 0 hp
  simp only [hlc] at this
  exact this

include hlb hln hlc in
/-- The left operand's index at output index `j` and contraction position `k` is (j₀, k). -/
theorem lhsIdx_eq (j : (⟨2, ![A, B]⟩ : Shape).Idx) (k : d.contr.Idx) :
    d.lhsIdx j k = ix2 (j 0) ((contrEquiv1 d K (contr_rank d hlc) (contr_size d hlc)) k) := by
  funext a; apply Fin.ext
  match a with
  | ⟨0, _⟩ =>
    show (d.lhsIdx j k 0).val = (j 0).val
    have h0b : (0 : Fin (⟨2, ![A, K]⟩ : Shape).rank) ∉ d.lhsBatch := by rw [hlb]; exact List.not_mem_nil
    have h0n : (0 : Fin (⟨2, ![A, K]⟩ : Shape).rank) ∈ d.lhsNonContracting := by rw [hln]; exact List.mem_singleton.mpr rfl
    unfold DotDims.lhsIdx
    rw [dif_neg h0b, dif_pos h0n]
    simp only [Fin.val_cast]
    have key : ∀ (p q : Nat) (hp : p < (⟨2, ![A, B]⟩ : Shape).rank) (hq : q < (⟨2, ![A, B]⟩ : Shape).rank), p = q →
        (j ⟨p, hp⟩).val = (j ⟨q, hq⟩).val := fun p q hp hq h => by subst h; rfl
    exact key _ _ _ _ (by simp [hlb, hln])
  | ⟨1, _⟩ =>
    show (d.lhsIdx j k 1).val = _
    rw [d.lhsIdx_val_of_single hlc j k]
    simp [contrEquiv1]

include hrb hrn hrc hlb hln hlc in
/-- The right operand's index at output index `j` and contraction position `k` is (k, j₁). -/
theorem rhsIdx_eq (j : (⟨2, ![A, B]⟩ : Shape).Idx) (k : d.contr.Idx) :
    d.rhsIdx j k = ix2 ((contrEquiv1 d K (contr_rank d hlc) (contr_size d hlc)) k) (j 1) := by
  funext a; apply Fin.ext
  match a with
  | ⟨0, _⟩ =>
    show (d.rhsIdx j k 0).val = _
    rw [d.rhsIdx_val_of_single hrc j k]
    simp [contrEquiv1]
  | ⟨1, _⟩ =>
    show (d.rhsIdx j k 1).val = (j 1).val
    have h1b : (1 : Fin (⟨2, ![K, B]⟩ : Shape).rank) ∉ d.rhsBatch := by rw [hrb]; exact List.not_mem_nil
    have h1n : (1 : Fin (⟨2, ![K, B]⟩ : Shape).rank) ∈ d.rhsNonContracting := by rw [hrn]; exact List.mem_singleton.mpr rfl
    unfold DotDims.rhsIdx
    rw [dif_neg h1b, dif_pos h1n]
    simp only [Fin.val_cast]
    have key : ∀ (p q : Nat) (hp : p < (⟨2, ![A, B]⟩ : Shape).rank) (hq : q < (⟨2, ![A, B]⟩ : Shape).rank), p = q →
        (j ⟨p, hp⟩).val = (j ⟨q, hq⟩).val := fun p q hp hq h => by subst h; rfl
    exact key _ _ _ _ (by simp [hlb, hln, hrn])

include hrb hrn hrc hlb hln hlc in
/-- The contraction's sum is the matrix product at the index. -/
theorem plain_sum (x : (⟨2, ![A, K]⟩ : Shape).Idx → EReal) (w : (⟨2, ![K, B]⟩ : Shape).Idx → EReal)
    (j : (⟨2, ![A, B]⟩ : Shape).Idx) :
    ∑ k : d.contr.Idx, x (d.lhsIdx j k) * w (d.rhsIdx j k) = MM x w j := by
  unfold MM
  rw [← Equiv.sum_comp (contrEquiv1 d K (contr_rank d hlc) (contr_size d hlc)) (fun k' => x (ix2 (j 0) k') * w (ix2 k' (j 1)))]
  refine Finset.sum_congr rfl fun k _ => ?_
  rw [lhsIdx_eq d hlb hln hlc j k, rhsIdx_eq d hlb hln hlc hrb hrn hrc j k]
  rfl

include hrb hrn hrc hlb hln hlc in
/-- A `tpu.matmul` into the zero accumulator is the matrix product. -/
theorem matmul_zero_eq {φ₁ φ₂ : FTy} (prec : Option ContractPrecision) (x : FVec Ideal ⟨2, ![A, K]⟩ φ₁) (w : FVec Ideal ⟨2, ![K, B]⟩ φ₂) :
    FloatOps.matmul d prec x w (constant ⟨2, ![A, B]⟩ .f32 0x00000000#32) = MM x w := by
  funext j
  rw [Ideal.matmul_constant_zero_apply]
  exact plain_sum d hlb hln hlc hrb hrn hrc x w j

include hrb hrn hrc hlb hln hlc in
/-- The host's `dot_general` is the matrix product. -/
theorem dotGeneral_eq {φ₁ φ₂ : FTy} (prec : Option ContractPrecision) (sched : HostSchedule) (x : FVec Ideal ⟨2, ![A, K]⟩ φ₁) (w : FVec Ideal ⟨2, ![K, B]⟩ φ₂) :
    FloatOps.dotGeneral d prec sched x w = MM x w := by
  funext j
  rw [Ideal.dotGeneral_apply]
  exact plain_sum d hlb hln hlc hrb hrn hrc x w j

end Plain

end Cert.LibMatmul

end
-- ==== Proof.LibRowBlocks.lean ====
/-
  Row blocks of a matrix product.  If a block x₀ holds rows off … off + R − 1 of a matrix X (all K columns)
  and w is the whole second factor W, then the product of the block with w is the same rows of the product
  X · W: each entry is the sum over k of one row of X against one column of W, and the block's row is X's.
-/
import proofs.«109993_j29592324669623_1_alg».proof.Proof.LibMatmul

noncomputable section

open scoped BigOperators

namespace Cert.LibRowBlocks

open Idealize.ShloMosaic Idealize.ShloMosaic.ValueIdx Cert.LibMatmul

/-- The product of a block of R rows of X with the whole of W, at an entry, is the product X · W at the
    entry of the same row of X and the same column. -/
theorem MM_rowBlock {N R K B : Nat} (X : (⟨2, ![N, K]⟩ : Shape).Idx → EReal) (W : (⟨2, ![K, B]⟩ : Shape).Idx → EReal)
    (x0 : (⟨2, ![R, K]⟩ : Shape).Idx → EReal) (w : (⟨2, ![K, B]⟩ : Shape).Idx → EReal) (off : Nat)
    (hx0 : ∀ (y : (⟨2, ![R, K]⟩ : Shape).Idx) (i : (⟨2, ![N, K]⟩ : Shape).Idx),
      (i 0).val = off + (y 0).val → (i 1).val = (y 1).val → x0 y = X i)
    (hw : ∀ z, w z = W z)
    (y : (⟨2, ![R, B]⟩ : Shape).Idx) (i : (⟨2, ![N, B]⟩ : Shape).Idx)
    (h0 : (i 0).val = off + (y 0).val) (h1 : (i 1).val = (y 1).val) :
    MM x0 w y = MM X W i := by
  unfold MM
  refine Finset.sum_congr rfl fun k _ => ?_
  have e1 : (i 1) = (y 1) := Fin.ext h1
  rw [hx0 (ix2 (y 0) k) (ix2 (i 0) k) h0 rfl, hw, e1]

end Cert.LibRowBlocks

end
-- ==== Proof.Project0.lean ====
/-
  The first kernel region: the node features times the first weight matrix.  Each grid point t holds rows
  5000·t … 5000·t + 4999 of the [100000, 256] feature array and the whole [256, 128] weight matrix, and
  stores their product into a zero accumulator, which is rows 5000·t … of the [100000, 128] result.  At the
  extended reals that product is, entry by entry, the sum over k of x(i, k) · w(k, j), so after the region
  the result array is the matrix product of the two arrays the region found on entry.
-/
import proofs.«109993_j29592324669623_1_alg».proof.Proof.Gen.KernelIdeal.Frame
import proofs.«109993_j29592324669623_1_alg».proof.Proof.LibRowBlocks
import Idealize.ShloMosaic.Lib.Pipeline.Value
import Idealize.ShloMosaic.Lib.ValueIdx

noncomputable section

open Idealize.ShloMosaic Idealize.ShloMosaic.TcCoe Idealize.SL.Sem Idealize.ShloMosaic.ValueIdx
open Idealize.ShloMosaic.Pipeline (Dat)

namespace Cert.KernelIdeal.Project0

open Cert.KernelIdeal Cert.KernelIdeal.Gen Cert.LibMatmul Cert.LibRowBlocks

theorem hz2 : (![0, 0] : Fin 2 → Nat) = fun _ => 0 := funext fun a => by fin_cases a <;> rfl

/-- The body's product into the zero accumulator is the matrix product of its two loaded blocks (the
    change of float format before the product is the identity on the extended reals). -/
theorem pay_eq (x0 : Vec Ideal S5000x256 .f32) (x1 : Vec Ideal S256x128 .f32) :
    k0_pay1 (F := Ideal) x0 x1 = MM (A := 5000) (K := 256) (B := 128) x0 x1 := by
  unfold k0_pay1
  exact matmul_zero_eq dot_S5000x256_S256x128_S5000x128_1_0_0_1_n_n rfl rfl rfl rfl rfl rfl none _ _

/-- The printed index maps over the grid: the row blocks move with the point, the second factor stays. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

variable (V : (c : Dev nD) → (b : Ref sig .tc) → Buf (Elt Ideal) ((c : Thread nD τ).loc b))

/-- The first input block at point t is rows 5000·t … of the first factor as the region found it. -/
theorem iblk_x (c : Dev nD) (t : Fin cfg0.N) (y : S5000x256.Idx) (i : S100000x256.Idx)
    (h0 : (i 0).val = t.val * 5000 + (y 0).val) (h1 : (i 1).val = (y 1).val) :
    (iblk0 V c 0 t : Vec Ideal S5000x256 .f32) y = (V c main_arg0 : S100000x256.Idx → EReal) i := by
  obtain ⟨e0, e1, -⟩ := idx_facts t
  unfold iblk0
  rw [View.read_apply]
  show (V c main_arg0 : S100000x256.Idx → EReal) _ = _
  congr 1
  funext a
  apply Fin.ext
  match a with
  | ⟨0, _⟩ => show win0_0.index t (0 : Fin 2) * 5000 + 1 * (y 0).val = (i 0).val; rw [e0, h0]; omega
  | ⟨1, _⟩ => show win0_0.index t (1 : Fin 2) * 256 + 1 * (y 1).val = (i 1).val; rw [e1, h1]; omega

/-- The second input block is the whole second factor at every point. -/
theorem iblk_w (c : Dev nD) (t : Fin cfg0.N) (z : S256x128.Idx) :
    (iblk0 V c 1 t : Vec Ideal S256x128 .f32) z = (V c main_arg6 : S256x128.Idx → EReal) z := by
  obtain ⟨-, -, e2, e3, -⟩ := idx_facts t
  unfold iblk0
  rw [View.read_apply]
  show (V c main_arg6 : S256x128.Idx → EReal) _ = _
  congr 1
  funext a
  apply Fin.ext
  match a with
  | ⟨0, _⟩ => show win0_1.index t (0 : Fin 2) * 256 + 1 * (z 0).val = (z 0).val; rw [e2]; omega
  | ⟨1, _⟩ => show win0_1.index t (1 : Fin 2) * 128 + 1 * (z 1).val = (z 1).val; rw [e3]; omega

/-- What point t writes back: block t of the product of the two arrays the region found. -/
theorem flushed_eq (c : Dev nD) (t : Fin cfg0.N) :
    (dat0 V c).flushed 2 t = ((cfg0.win 2).blk t).view.read (Elt Ideal)
      (MM (A := 100000) (K := 256) (B := 128) (V c main_arg0 : S100000x256.Idx → EReal) (V c main_arg6 : S256x128.Idx → EReal)) := by
  obtain ⟨-, -, -, -, e4, e5⟩ := idx_facts t
  show (cfg0.win 2).cut (grid0.coords t) ((dat0 V c).after 2 t) = _
  rw [after0_2]
  unfold out0_2
  rw [View.canon_unit_zero hz2]
  simp only [View.ld_unit_zero (S := S5000x256) hz2, View.ld_unit_zero (S := S256x128) hz2]
  rw [pay_eq]
  funext j
  rw [View.read_apply]
  refine MM_rowBlock (N := 100000) (R := 5000) (K := 256) (B := 128) (V c main_arg0) (V c main_arg6) (iblk0 V c 0 t) (iblk0 V c 1 t) (t.val * 5000)
    (fun y i h0 h1 => iblk_x V c t y i h0 h1) (fun z => iblk_w V c t z) _ _ ?_ ?_
  · show win0_2.index t (0 : Fin 2) * 5000 + 1 * (j 0).val = t.val * 5000 + (j 0).val
    rw [e4]; omega
  · show win0_2.index t (1 : Fin 2) * 128 + 1 * (j 1).val = (j 1).val
    rw [e5]; omega

/-- An index of the array is in point t's block iff each coordinate is in the block's range on its axis. -/
theorem mem_blk (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v0).slice (win0_2.rect t)).set ↔ _
  rw [View.set_slice_whole, Rect.mem_set_unit]
  exact Iff.rfl

/-- Row r lies in the block of point r / 5000: the twenty blocks cover the array. -/
theorem cover (i : S100000x128.Idx) : ∃ t : Fin cfg0.N, (cfg0.win 2).flush t = true ∧ i ∈ ((cfg0.win 2).blk t).view.set := by
  have hN : cfg0.N = 20 := N_0
  have hi0 : (i 0).val < 100000 := (i 0).isLt
  have hi1 : (i 1).val < 128 := (i 1).isLt
  refine ⟨⟨(i 0).val / 5000, by rw [hN]; omega⟩, flush0_2 _, ?_⟩
  obtain ⟨-, -, -, -, e4, e5⟩ := idx_facts ⟨(i 0).val / 5000, by rw [hN]; omega⟩
  rw [mem_blk]
  intro a
  match a with
  | ⟨0, _⟩ => show win0_2.index _ (0 : Fin 2) * 5000 ≤ (i 0).val ∧ (i 0).val < win0_2.index _ (0 : Fin 2) * 5000 + 5000; rw [e4]; show (i 0).val / 5000 * 5000 ≤ (i 0).val ∧ (i 0).val < (i 0).val / 5000 * 5000 + 5000; omega
  | ⟨1, _⟩ => show win0_2.index _ (1 : Fin 2) * 128 ≤ (i 1).val ∧ (i 1).val < win0_2.index _ (1 : Fin 2) * 128 + 128; rw [e5]; omega

/-- After the region the result array is the matrix product of the two arrays the region found. -/
theorem final (c : Dev nD) : (dat0 V c).arrAt 2 cfg0.N
    = MM (A := 100000) (K := 256) (B := 128) (V c main_arg0 : S100000x256.Idx → EReal) (V c main_arg6 : S256x128.Idx → EReal) :=
  (dat0 V c).arrAt_eq_of_cover 2 _ (fun t _ => flushed_eq V c t) cover

end Cert.KernelIdeal.Project0

end
-- ==== Proof.Project1.lean ====
/-
  The third kernel region: the first layer's activations times the second weight matrix.  Each grid point t
  holds rows 5000·t … 5000·t + 4999 of the [100000, 128] activation array and the whole [128, 128] weight
  matrix, and stores their product into a zero accumulator.  At the extended reals that product is, entry by
  entry, the sum over k of x(i, k) · w(k, j), so after the region the result array is the matrix product of
  the two arrays the region found on entry.
-/
import proofs.«109993_j29592324669623_1_alg».proof.Proof.Gen.KernelIdeal.Frame
import proofs.«109993_j29592324669623_1_alg».proof.Proof.LibRowBlocks
import Idealize.ShloMosaic.Lib.Pipeline.Value
import Idealize.ShloMosaic.Lib.ValueIdx

noncomputable section

open Idealize.ShloMosaic Idealize.ShloMosaic.TcCoe Idealize.SL.Sem Idealize.ShloMosaic.ValueIdx
open Idealize.ShloMosaic.Pipeline (Dat)

namespace Cert.KernelIdeal.Project1

open Cert.KernelIdeal Cert.KernelIdeal.Gen Cert.LibMatmul Cert.LibRowBlocks

theorem hz2 : (![0, 0] : Fin 2 → Nat) = fun _ => 0 := funext fun a => by fin_cases a <;> rfl

/-- The body's product into the zero accumulator is the matrix product of its two loaded blocks (the
    change of float format before the product is the identity on the extended reals). -/
theorem pay_eq (x0 : Vec Ideal S5000x128 .f32) (x1 : Vec Ideal S128x128 .f32) :
    k2_pay1 (F := Ideal) x0 x1 = MM (A := 5000) (K := 128) (B := 128) x0 x1 := by
  unfold k2_pay1
  rw [shapeCast_self]
  exact matmul_zero_eq dot_S5000x128_S128x128_S5000x128_1_0_0_1_n_n rfl rfl rfl rfl rfl rfl none _ _

/-- The printed index maps over the grid: the row blocks move with the point, the second factor stays. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

variable (V : (c : Dev nD) → (b : Ref sig .tc) → Buf (Elt Ideal) ((c : Thread nD τ).loc b))

/-- The first input block at point t is rows 5000·t … of the first factor as the region found it. -/
theorem iblk_x (c : Dev nD) (t : Fin cfg2.N) (y : S5000x128.Idx) (i : S100000x128.Idx)
    (h0 : (i 0).val = t.val * 5000 + (y 0).val) (h1 : (i 1).val = (y 1).val) :
    (iblk2 V c 0 t : Vec Ideal S5000x128 .f32) y = (V c main_v49_1 : S100000x128.Idx → EReal) i := by
  obtain ⟨e0, e1, -⟩ := idx_facts t
  unfold iblk2
  rw [View.read_apply]
  show (V c main_v49_1 : S100000x128.Idx → EReal) _ = _
  congr 1
  funext a
  apply Fin.ext
  match a with
  | ⟨0, _⟩ => show win2_0.index t (0 : Fin 2) * 5000 + 1 * (y 0).val = (i 0).val; rw [e0, h0]; omega
  | ⟨1, _⟩ => show win2_0.index t (1 : Fin 2) * 128 + 1 * (y 1).val = (i 1).val; rw [e1, h1]; omega

/-- The second input block is the whole second factor at every point. -/
theorem iblk_w (c : Dev nD) (t : Fin cfg2.N) (z : S128x128.Idx) :
    (iblk2 V c 1 t : Vec Ideal S128x128 .f32) z = (V c main_arg8 : S128x128.Idx → EReal) z := by
  obtain ⟨-, -, e2, e3, -⟩ := idx_facts t
  unfold iblk2
  rw [View.read_apply]
  show (V c main_arg8 : S128x128.Idx → EReal) _ = _
  congr 1
  funext a
  apply Fin.ext
  match a with
  | ⟨0, _⟩ => show win2_1.index t (0 : Fin 2) * 128 + 1 * (z 0).val = (z 0).val; rw [e2]; omega
  | ⟨1, _⟩ => show win2_1.index t (1 : Fin 2) * 128 + 1 * (z 1).val = (z 1).val; rw [e3]; omega

/-- What point t writes back: block t of the product of the two arrays the region found. -/
theorem flushed_eq (c : Dev nD) (t : Fin cfg2.N) :
    (dat2 V c).flushed 2 t = ((cfg2.win 2).blk t).view.read (Elt Ideal)
      (MM (A := 100000) (K := 128) (B := 128) (V c main_v49_1 : S100000x128.Idx → EReal) (V c main_arg8 : S128x128.Idx → EReal)) := by
  obtain ⟨-, -, -, -, e4, e5⟩ := idx_facts t
  show (cfg2.win 2).cut (grid2.coords t) ((dat2 V c).after 2 t) = _
  rw [after2_2]
  unfold out2_2
  rw [View.canon_unit_zero hz2]
  simp only [View.ld_unit_zero (S := S5000x128) hz2, View.ld_unit_zero (S := S128x128) hz2]
  rw [pay_eq]
  funext j
  rw [View.read_apply]
  refine MM_rowBlock (N := 100000) (R := 5000) (K := 128) (B := 128) (V c main_v49_1) (V c main_arg8) (iblk2 V c 0 t) (iblk2 V c 1 t) (t.val * 5000)
    (fun y i h0 h1 => iblk_x V c t y i h0 h1) (fun z => iblk_w V c t z) _ _ ?_ ?_
  · show win2_2.index t (0 : Fin 2) * 5000 + 1 * (j 0).val = t.val * 5000 + (j 0).val
    rw [e4]; omega
  · show win2_2.index t (1 : Fin 2) * 128 + 1 * (j 1).val = (j 1).val
    rw [e5]; omega

/-- An index of the array is in point t's block iff each coordinate is in the block's range on its axis. -/
theorem mem_blk (t : Fin cfg2.N) (i : S100000x128.Idx) :
    i ∈ ((cfg2.win 2).blk t).view.set ↔ ∀ a : Fin 2, win2_2.index t a * S5000x128.size a ≤ (i a).val ∧ (i a).val < win2_2.index t a * S5000x128.size a + S5000x128.size a := by
  show i ∈ ((View.whole main_v50).slice (win2_2.rect t)).set ↔ _
  rw [View.set_slice_whole, Rect.mem_set_unit]
  exact Iff.rfl

/-- Row r lies in the block of point r / 5000: the twenty blocks cover the array. -/
theorem cover (i : S100000x128.Idx) : ∃ t : Fin cfg2.N, (cfg2.win 2).flush t = true ∧ i ∈ ((cfg2.win 2).blk t).view.set := by
  have hN : cfg2.N = 20 := N_2
  have hi0 : (i 0).val < 100000 := (i 0).isLt
  have hi1 : (i 1).val < 128 := (i 1).isLt
  refine ⟨⟨(i 0).val / 5000, by rw [hN]; omega⟩, flush2_2 _, ?_⟩
  obtain ⟨-, -, -, -, e4, e5⟩ := idx_facts ⟨(i 0).val / 5000, by rw [hN]; omega⟩
  rw [mem_blk]
  intro a
  match a with
  | ⟨0, _⟩ => show win2_2.index _ (0 : Fin 2) * 5000 ≤ (i 0).val ∧ (i 0).val < win2_2.index _ (0 : Fin 2) * 5000 + 5000; rw [e4]; show (i 0).val / 5000 * 5000 ≤ (i 0).val ∧ (i 0).val < (i 0).val / 5000 * 5000 + 5000; omega
  | ⟨1, _⟩ => show win2_2.index _ (1 : Fin 2) * 128 ≤ (i 1).val ∧ (i 1).val < win2_2.index _ (1 : Fin 2) * 128 + 128; rw [e5]; omega

/-- After the region the result array is the matrix product of the two arrays the region found. -/
theorem final (c : Dev nD) : (dat2 V c).arrAt 2 cfg2.N
    = MM (A := 100000) (K := 128) (B := 128) (V c main_v49_1 : S100000x128.Idx → EReal) (V c main_arg8 : S128x128.Idx → EReal) :=
  (dat2 V c).arrAt_eq_of_cover 2 _ (fun t _ => flushed_eq V c t) cover

end Cert.KernelIdeal.Project1

end
-- ==== Proof.Project2.lean ====
/-
  The fifth kernel region: the second layer's activations times the third weight matrix.  Each grid point t
  holds rows 5000·t … 5000·t + 4999 of the [100000, 128] activation array and the whole [128, 40] weight
  matrix, and stores their product into a zero accumulator.  At the extended reals that product is, entry by
  entry, the sum over k of x(i, k) · w(k, j), so after the region the [100000, 40] result array is the matrix
  product of the two arrays the region found on entry.
-/
import proofs.«109993_j29592324669623_1_alg».proof.Proof.Gen.KernelIdeal.Frame
import proofs.«109993_j29592324669623_1_alg».proof.Proof.LibRowBlocks
import Idealize.ShloMosaic.Lib.Pipeline.Value
import Idealize.ShloMosaic.Lib.ValueIdx

noncomputable section

open Idealize.ShloMosaic Idealize.ShloMosaic.TcCoe Idealize.SL.Sem Idealize.ShloMosaic.ValueIdx
open Idealize.ShloMosaic.Pipeline (Dat)

namespace Cert.KernelIdeal.Project2

open Cert.KernelIdeal Cert.KernelIdeal.Gen Cert.LibMatmul Cert.LibRowBlocks

theorem hz2 : (![0, 0] : Fin 2 → Nat) = fun _ => 0 := funext fun a => by fin_cases a <;> rfl

/-- The body's product into the zero accumulator is the matrix product of its two loaded blocks (the
    change of float format before the product is the identity on the extended reals). -/
theorem pay_eq (x0 : Vec Ideal S5000x128 .f32) (x1 : Vec Ideal S128x40 .f32) :
    k4_pay1 (F := Ideal) x0 x1 = MM (A := 5000) (K := 128) (B := 40) x0 x1 := by
  unfold k4_pay1
  rw [shapeCast_self]
  exact matmul_zero_eq dot_S5000x128_S128x40_S5000x40_1_0_0_1_n_n rfl rfl rfl rfl rfl rfl none _ _

/-- The printed index maps over the grid: the row blocks move with the point, the second factor stays. -/
theorem idx_facts : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

variable (V : (c : Dev nD) → (b : Ref sig .tc) → Buf (Elt Ideal) ((c : Thread nD τ).loc b))

/-- The first input block at point t is rows 5000·t … of the first factor as the region found it. -/
theorem iblk_x (c : Dev nD) (t : Fin cfg4.N) (y : S5000x128.Idx) (i : S100000x128.Idx)
    (h0 : (i 0).val = t.val * 5000 + (y 0).val) (h1 : (i 1).val = (y 1).val) :
    (iblk4 V c 0 t : Vec Ideal S5000x128 .f32) y = (V c main_v98 : S100000x128.Idx → EReal) i := by
  obtain ⟨e0, e1, -⟩ := idx_facts t
  unfold iblk4
  rw [View.read_apply]
  show (V c main_v98 : S100000x128.Idx → EReal) _ = _
  congr 1
  funext a
  apply Fin.ext
  match a with
  | ⟨0, _⟩ => show win4_0.index t (0 : Fin 2) * 5000 + 1 * (y 0).val = (i 0).val; rw [e0, h0]; omega
  | ⟨1, _⟩ => show win4_0.index t (1 : Fin 2) * 128 + 1 * (y 1).val = (i 1).val; rw [e1, h1]; omega

/-- The second input block is the whole second factor at every point. -/
theorem iblk_w (c : Dev nD) (t : Fin cfg4.N) (z : S128x40.Idx) :
    (iblk4 V c 1 t : Vec Ideal S128x40 .f32) z = (V c main_arg10 : S128x40.Idx → EReal) z := by
  obtain ⟨-, -, e2, e3, -⟩ := idx_facts t
  unfold iblk4
  rw [View.read_apply]
  show (V c main_arg10 : S128x40.Idx → EReal) _ = _
  congr 1
  funext a
  apply Fin.ext
  match a with
  | ⟨0, _⟩ => show win4_1.index t (0 : Fin 2) * 128 + 1 * (z 0).val = (z 0).val; rw [e2]; omega
  | ⟨1, _⟩ => show win4_1.index t (1 : Fin 2) * 40 + 1 * (z 1).val = (z 1).val; rw [e3]; omega

/-- What point t writes back: block t of the product of the two arrays the region found. -/
theorem flushed_eq (c : Dev nD) (t : Fin cfg4.N) :
    (dat4 V c).flushed 2 t = ((cfg4.win 2).blk t).view.read (Elt Ideal)
      (MM (A := 100000) (K := 128) (B := 40) (V c main_v98 : S100000x128.Idx → EReal) (V c main_arg10 : S128x40.Idx → EReal)) := by
  obtain ⟨-, -, -, -, e4, e5⟩ := idx_facts t
  show (cfg4.win 2).cut (grid4.coords t) ((dat4 V c).after 2 t) = _
  rw [after4_2]
  unfold out4_2
  rw [View.canon_unit_zero hz2]
  simp only [View.ld_unit_zero (S := S5000x128) hz2, View.ld_unit_zero (S := S128x40) hz2]
  rw [pay_eq]
  funext j
  rw [View.read_apply]
  refine MM_rowBlock (N := 100000) (R := 5000) (K := 128) (B := 40) (V c main_v98) (V c main_arg10) (iblk4 V c 0 t) (iblk4 V c 1 t) (t.val * 5000)
    (fun y i h0 h1 => iblk_x V c t y i h0 h1) (fun z => iblk_w V c t z) _ _ ?_ ?_
  · show win4_2.index t (0 : Fin 2) * 5000 + 1 * (j 0).val = t.val * 5000 + (j 0).val
    rw [e4]; omega
  · show win4_2.index t (1 : Fin 2) * 40 + 1 * (j 1).val = (j 1).val
    rw [e5]; omega

/-- An index of the array is in point t's block iff each coordinate is in the block's range on its axis. -/
theorem mem_blk (t : Fin cfg4.N) (i : S100000x40.Idx) :
    i ∈ ((cfg4.win 2).blk t).view.set ↔ ∀ a : Fin 2, win4_2.index t a * S5000x40.size a ≤ (i a).val ∧ (i a).val < win4_2.index t a * S5000x40.size a + S5000x40.size a := by
  show i ∈ ((View.whole main_v99).slice (win4_2.rect t)).set ↔ _
  rw [View.set_slice_whole, Rect.mem_set_unit]
  exact Iff.rfl

/-- Row r lies in the block of point r / 5000: the twenty blocks cover the array. -/
theorem cover (i : S100000x40.Idx) : ∃ t : Fin cfg4.N, (cfg4.win 2).flush t = true ∧ i ∈ ((cfg4.win 2).blk t).view.set := by
  have hN : cfg4.N = 20 := N_4
  have hi0 : (i 0).val < 100000 := (i 0).isLt
  have hi1 : (i 1).val < 40 := (i 1).isLt
  refine ⟨⟨(i 0).val / 5000, by rw [hN]; omega⟩, flush4_2 _, ?_⟩
  obtain ⟨-, -, -, -, e4, e5⟩ := idx_facts ⟨(i 0).val / 5000, by rw [hN]; omega⟩
  rw [mem_blk]
  intro a
  match a with
  | ⟨0, _⟩ => show win4_2.index _ (0 : Fin 2) * 5000 ≤ (i 0).val ∧ (i 0).val < win4_2.index _ (0 : Fin 2) * 5000 + 5000; rw [e4]; show (i 0).val / 5000 * 5000 ≤ (i 0).val ∧ (i 0).val < (i 0).val / 5000 * 5000 + 5000; omega
  | ⟨1, _⟩ => show win4_2.index _ (1 : Fin 2) * 40 ≤ (i 1).val ∧ (i 1).val < win4_2.index _ (1 : Fin 2) * 40 + 40; rw [e5]; omega

/-- After the region the result array is the matrix product of the two arrays the region found. -/
theorem final (c : Dev nD) : (dat4 V c).arrAt 2 cfg4.N
    = MM (A := 100000) (K := 128) (B := 40) (V c main_v98 : S100000x128.Idx → EReal) (V c main_arg10 : S128x40.Idx → EReal) :=
  (dat4 V c).arrAt_eq_of_cover 2 _ (fun t _ => flushed_eq V c t) cover

end Cert.KernelIdeal.Project2

end
-- ==== Proof.LibCast.lean ====
/-
  Two reshapes read at an index, as functions: an array of shape [a] reshaped to the row shape [1, a] reads,
  at (u, j), its entry j; reshaped to the column shape [a, 1] it reads, at (r, u), its entry r. Stated for any
  proof of the reshape's shape condition, so that either program's own fact can be passed.
-/
import Idealize.ShloMosaic.Lib.ValueLayout

namespace Cert.LibCast

open Idealize.ShloMosaic Idealize.ShloMosaic.ValueIdx

variable {α : Type}

/-- An [a] array reshaped to [a, 1] reads, at (i, u), the operand at i, whatever the unit coordinate u. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a] array reshaped to the row shape [1, a], as a function of the row index. -/
theorem shapeCast_row {a : ℕ} (s : (⟨1, ![a]⟩ : Shape).Idx → α) (h : (⟨1, ![a]⟩ : Shape).ShapeCasts ⟨2, ![1, a]⟩) :
    shapeCast ⟨2, ![1, a]⟩ s h = fun i => s (ix1 (i 1)) := by
  funext i
  exact (congrArg (shapeCast ⟨2, ![1, a]⟩ s h) (eq_ix2 i)).trans (shapeCast_a_1a_apply s h (i 0) (i 1))

/-- An [a] array reshaped to the column shape [a, 1], as a function of the column index. -/
theorem shapeCast_col {a : ℕ} (d : (⟨1, ![a]⟩ : Shape).Idx → α) (h : (⟨1, ![a]⟩ : Shape).ShapeCasts ⟨2, ![a, 1]⟩) :
    shapeCast ⟨2, ![a, 1]⟩ d h = fun i => d (ix1 (i 0)) := by
  funext i
  exact (congrArg (shapeCast ⟨2, ![a, 1]⟩ d h) (eq_ix2 i)).trans (shapeCast_a_a1_apply d h (i 0) (i 1))

end Cert.LibCast
-- ==== Proof.BiasRelu.lean ====
/-
  The second kernel region: the aggregated first-layer features plus the bias row, and its positive part.
  Each grid point t holds rows 5000·t … 5000·t + 4999 of the [100000, 128] array; the body adds the bias
  entry of the column to every entry of the block and stores that sum, and stores the maximum of that sum
  and zero.  So after the region the two result arrays are, index by index, x(i, j) + b(j) and
  max (x(i, j) + b(j)) 0 of the array x and the row b the region found on entry.
-/
import proofs.«109993_j29592324669623_1_alg».proof.Proof.Gen.KernelIdeal.Frame
import proofs.«109993_j29592324669623_1_alg».proof.Proof.LibCast
import Idealize.ShloMosaic.Lib.Pipeline.Value
import Idealize.ShloMosaic.Lib.ValueIdx
import Idealize.ShloMosaic.Lib.ValueLayout

noncomputable section

open Idealize.ShloMosaic Idealize.ShloMosaic.TcCoe Idealize.SL.Sem Idealize.ShloMosaic.ValueIdx
open Idealize.ShloMosaic.Pipeline (Dat)

namespace Cert.KernelIdeal.BiasRelu

open Cert.KernelIdeal Cert.KernelIdeal.Gen

/-- A row added to every row of a two-axis array. -/
def addRow {N D : Nat} (x : (⟨2, ![N, D]⟩ : Shape).Idx → EReal) (b : (⟨1, ![D]⟩ : Shape).Idx → EReal) :
    (⟨2, ![N, D]⟩ : Shape).Idx → EReal := fun i => x i + b (ix1 (i 1))

/-- The positive part, entry by entry, against the zero word of f32. -/
def posPart {N D : Nat} (x : (⟨2, ![N, D]⟩ : Shape).Idx → EReal) : (⟨2, ![N, D]⟩ : Shape).Idx → EReal :=
  fun i => max (x i) (Ideal.ofBits .f32 0x00000000#32)

theorem hz2 : (![0, 0] : Fin 2 → Nat) = fun _ => 0 := funext fun a => by fin_cases a <;> rfl
theorem hz1 : (![0] : Fin 1 → Nat) = fun _ => 0 := funext fun a => by fin_cases a <;> rfl

/-- The body's sum at an entry of the block: the block's entry plus the bias entry of its column. -/
theorem sum_apply (x0 : Vec Ideal S5000x128 .f32) (x1 : Vec Ideal S128 .f32) (p : Fin 5000) (q : Fin 128) :
    k1_pay1 (F := Ideal) x0 x1 (ix2 p q) = x0 (ix2 p q) + x1 (ix1 q) := by
  unfold k1_pay1
  rw [addf_apply, shapeCast_self, broadcastTo_1b_ab_apply, shapeCast_a_1a_apply]

/-- The body's second store at an entry: the maximum of that sum and zero. -/
theorem relu_apply (x0 : Vec Ideal S5000x128 .f32) (x1 : Vec Ideal S128 .f32) (p : Fin 5000) (q : Fin 128) :
    k1_pay2 (F := Ideal) x0 x1 (ix2 p q) = max (x0 (ix2 p q) + x1 (ix1 q)) (Ideal.ofBits .f32 0x00000000#32) := by
  unfold k1_pay2
  rw [maximumf_apply, sum_apply, broadcast_apply]
  rfl

/-- A block of rows tv·5000 … of x with the whole row b: the body's sum is the block of `addRow x b`. -/
theorem block_sum (X : S100000x128.Idx → EReal) (B : S128.Idx → EReal)
    (x0 : Vec Ideal S5000x128 .f32) (x1 : Vec Ideal S128 .f32) (tv : Nat)
    (hx0 : ∀ (y : S5000x128.Idx) (i : S100000x128.Idx), (i 0).val = tv * 5000 + (y 0).val → (i 1).val = (y 1).val → x0 y = X i)
    (hx1 : ∀ q : Fin 128, x1 (ix1 q) = B (ix1 q))
    (y : S5000x128.Idx) (i : S100000x128.Idx) (h0 : (i 0).val = tv * 5000 + (y 0).val) (h1 : (i 1).val = (y 1).val) :
    k1_pay1 (F := Ideal) x0 x1 y = addRow X B i := by
  have hy := (congrArg (k1_pay1 (F := Ideal) x0 x1) (eq_ix2 y)).trans (sum_apply x0 x1 (y 0) (y 1))
  have e1 : (i 1) = (y 1) := Fin.ext h1
  have ex : x0 (ix2 (n0 := 5000) (n1 := 128) (y 0) (y 1)) = X i := (congrArg x0 (eq_ix2 y).symm).trans (hx0 y i h0 h1)
  have eb : x1 (ix1 (n := 128) (y 1)) = B (ix1 (i 1)) := (hx1 (y 1)).trans (congrArg (fun q => B (ix1 q)) e1.symm)
  exact hy.trans (congrArg₂ (· + ·) ex eb)

/-- The same for the second store: the block of the positive part of `addRow x b`. -/
theorem block_relu (X : S100000x128.Idx → EReal) (B : S128.Idx → EReal)
    (x0 : Vec Ideal S5000x128 .f32) (x1 : Vec Ideal S128 .f32) (tv : Nat)
    (hx0 : ∀ (y : S5000x128.Idx) (i : S100000x128.Idx), (i 0).val = tv * 5000 + (y 0).val → (i 1).val = (y 1).val → x0 y = X i)
    (hx1 : ∀ q : Fin 128, x1 (ix1 q) = B (ix1 q))
    (y : S5000x128.Idx) (i : S100000x128.Idx) (h0 : (i 0).val = tv * 5000 + (y 0).val) (h1 : (i 1).val = (y 1).val) :
    k1_pay2 (F := Ideal) x0 x1 y = posPart (addRow X B) i := by
  have hy := (congrArg (k1_pay2 (F := Ideal) x0 x1) (eq_ix2 y)).trans (relu_apply x0 x1 (y 0) (y 1))
  have e1 : (i 1) = (y 1) := Fin.ext h1
  have ex : x0 (ix2 (n0 := 5000) (n1 := 128) (y 0) (y 1)) = X i := (congrArg x0 (eq_ix2 y).symm).trans (hx0 y i h0 h1)
  have eb : x1 (ix1 (n := 128) (y 1)) = B (ix1 (i 1)) := (hx1 (y 1)).trans (congrArg (fun q => B (ix1 q)) e1.symm)
  exact hy.trans (congrArg (fun v => max v (Ideal.ofBits .f32 0x00000000#32)) (congrArg₂ (· + ·) ex eb))

/-- The printed index maps over the grid: the row blocks move with the point, the bias row stays. -/
theorem idx_facts : ∀ t : Fin cfg1.N, win1_0.index t (0 : Fin 2) = t.val ∧ win1_0.index t (1 : Fin 2) = 0
    ∧ win1_1.index t (0 : Fin 1) = 0
    ∧ win1_2.index t (0 : Fin 2) = t.val ∧ win1_2.index t (1 : Fin 2) = 0
    ∧ win1_3.index t (0 : Fin 2) = t.val ∧ win1_3.index t (1 : Fin 2) = 0 :=
  (by decide +kernel : ∀ t : Fin grid1.N, _)

variable (V : (c : Dev nD) → (b : Ref sig .tc) → Buf (Elt Ideal) ((c : Thread nD τ).loc b))

/-- The first input block at point t is rows 5000·t … of the array the region found. -/
theorem iblk_x (c : Dev nD) (t : Fin cfg1.N) (y : S5000x128.Idx) (i : S100000x128.Idx)
    (h0 : (i 0).val = t.val * 5000 + (y 0).val) (h1 : (i 1).val = (y 1).val) :
    (iblk1 V c 0 t : Vec Ideal S5000x128 .f32) y = (V c main_v48 : S100000x128.Idx → EReal) i := by
  obtain ⟨e0, e1, -⟩ := idx_facts t
  unfold iblk1
  rw [View.read_apply]
  show (V c main_v48 : S100000x128.Idx → EReal) _ = _
  congr 1
  funext a
  apply Fin.ext
  match a with
  | ⟨0, _⟩ => show win1_0.index t (0 : Fin 2) * 5000 + 1 * (y 0).val = (i 0).val; rw [e0, h0]; omega
  | ⟨1, _⟩ => show win1_0.index t (1 : Fin 2) * 128 + 1 * (y 1).val = (i 1).val; rw [e1, h1]; omega

/-- The second input block is the whole bias row at every point. -/
theorem iblk_b (c : Dev nD) (t : Fin cfg1.N) (q : Fin 128) :
    (iblk1 V c 1 t : Vec Ideal S128 .f32) (ix1 q) = (V c main_arg7 : S128.Idx → EReal) (ix1 q) := by
  obtain ⟨-, -, e2, -⟩ := idx_facts t
  unfold iblk1
  rw [View.read_apply]
  show (V c main_arg7 : S128.Idx → EReal) _ = _
  congr 1
  funext a
  apply Fin.ext
  match a with
  | ⟨0, _⟩ => show win1_1.index t (0 : Fin 1) * 128 + 1 * q.val = q.val; rw [e2]; omega

/-- What point t writes back through the first output window: block t of x + b. -/
theorem flushed_sum (c : Dev nD) (t : Fin cfg1.N) :
    (dat1 V c).flushed 2 t = ((cfg1.win 2).blk t).view.read (Elt Ideal)
      (addRow (V c main_v48 : S100000x128.Idx → EReal) (V c main_arg7 : S128.Idx → EReal)) := by
  obtain ⟨-, -, -, e3, e4, -, -⟩ := idx_facts t
  show (cfg1.win 2).cut (grid1.coords t) ((dat1 V c).after 2 t) = _
  rw [after1_2]
  unfold out1_2
  rw [View.canon_unit_zero hz2]
  simp only [View.ld_unit_zero (S := S5000x128) hz2, View.ld_unit_zero (S := S128) hz1]
  funext j
  rw [View.read_apply]
  refine block_sum (V c main_v48) (V c main_arg7) (iblk1 V c 0 t) (iblk1 V c 1 t) t.val
    (fun y i h0 h1 => iblk_x V c t y i h0 h1) (fun q => iblk_b V c t q) _ _ ?_ ?_
  · show win1_2.index t (0 : Fin 2) * 5000 + 1 * (j 0).val = t.val * 5000 + (j 0).val
    rw [e3]; omega
  · show win1_2.index t (1 : Fin 2) * 128 + 1 * (j 1).val = (j 1).val
    rw [e4]; omega

/-- What point t writes back through the second output window: block t of max (x + b) 0. -/
theorem flushed_relu (c : Dev nD) (t : Fin cfg1.N) :
    (dat1 V c).flushed 3 t = ((cfg1.win 3).blk t).view.read (Elt Ideal)
      (posPart (addRow (V c main_v48 : S100000x128.Idx → EReal) (V c main_arg7 : S128.Idx → EReal))) := by
  obtain ⟨-, -, -, -, -, e5, e6⟩ := idx_facts t
  show (cfg1.win 3).cut (grid1.coords t) ((dat1 V c).after 3 t) = _
  rw [after1_3]
  unfold out1_3
  rw [View.canon_unit_zero hz2]
  simp only [View.ld_unit_zero (S := S5000x128) hz2, View.ld_unit_zero (S := S128) hz1]
  funext j
  rw [View.read_apply]
  refine block_relu (V c main_v48) (V c main_arg7) (iblk1 V c 0 t) (iblk1 V c 1 t) t.val
    (fun y i h0 h1 => iblk_x V c t y i h0 h1) (fun q => iblk_b V c t q) _ _ ?_ ?_
  · show win1_3.index t (0 : Fin 2) * 5000 + 1 * (j 0).val = t.val * 5000 + (j 0).val
    rw [e5]; omega
  · show win1_3.index t (1 : Fin 2) * 128 + 1 * (j 1).val = (j 1).val
    rw [e6]; omega

/-- An index of the array is in point t's block of an output window iff each coordinate is in the block's range. -/
theorem mem_blk2 (t : Fin cfg1.N) (i : S100000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v49_0).slice (win1_2.rect t)).set ↔ _
  rw [View.set_slice_whole, Rect.mem_set_unit]
  exact Iff.rfl

theorem mem_blk3 (t : Fin cfg1.N) (i : S100000x128.Idx) :
    i ∈ ((cfg1.win 3).blk t).view.set ↔ ∀ a : Fin 2, win1_3.index t a * S5000x128.size a ≤ (i a).val ∧ (i a).val < win1_3.index t a * S5000x128.size a + S5000x128.size a := by
  show i ∈ ((View.whole main_v49_1).slice (win1_3.rect t)).set ↔ _
  rw [View.set_slice_whole, Rect.mem_set_unit]
  exact Iff.rfl

/-- Row r lies in the block of point r / 5000: the twenty blocks cover the array. -/
theorem cover2 (i : S100000x128.Idx) : ∃ t : Fin cfg1.N, (cfg1.win 2).flush t = true ∧ i ∈ ((cfg1.win 2).blk t).view.set := by
  have hN : cfg1.N = 20 := N_1
  have hi0 : (i 0).val < 100000 := (i 0).isLt
  have hi1 : (i 1).val < 128 := (i 1).isLt
  refine ⟨⟨(i 0).val / 5000, by rw [hN]; omega⟩, flush1_2 _, ?_⟩
  obtain ⟨-, -, -, e3, e4, -, -⟩ := idx_facts ⟨(i 0).val / 5000, by rw [hN]; omega⟩
  rw [mem_blk2]
  intro a
  match a with
  | ⟨0, _⟩ => show win1_2.index _ (0 : Fin 2) * 5000 ≤ (i 0).val ∧ (i 0).val < win1_2.index _ (0 : Fin 2) * 5000 + 5000; rw [e3]; show (i 0).val / 5000 * 5000 ≤ (i 0).val ∧ (i 0).val < (i 0).val / 5000 * 5000 + 5000; omega
  | ⟨1, _⟩ => show win1_2.index _ (1 : Fin 2) * 128 ≤ (i 1).val ∧ (i 1).val < win1_2.index _ (1 : Fin 2) * 128 + 128; rw [e4]; omega

theorem cover3 (i : S100000x128.Idx) : ∃ t : Fin cfg1.N, (cfg1.win 3).flush t = true ∧ i ∈ ((cfg1.win 3).blk t).view.set := by
  have hN : cfg1.N = 20 := N_1
  have hi0 : (i 0).val < 100000 := (i 0).isLt
  have hi1 : (i 1).val < 128 := (i 1).isLt
  refine ⟨⟨(i 0).val / 5000, by rw [hN]; omega⟩, flush1_3 _, ?_⟩
  obtain ⟨-, -, -, -, -, e5, e6⟩ := idx_facts ⟨(i 0).val / 5000, by rw [hN]; omega⟩
  rw [mem_blk3]
  intro a
  match a with
  | ⟨0, _⟩ => show win1_3.index _ (0 : Fin 2) * 5000 ≤ (i 0).val ∧ (i 0).val < win1_3.index _ (0 : Fin 2) * 5000 + 5000; rw [e5]; show (i 0).val / 5000 * 5000 ≤ (i 0).val ∧ (i 0).val < (i 0).val / 5000 * 5000 + 5000; omega
  | ⟨1, _⟩ => show win1_3.index _ (1 : Fin 2) * 128 ≤ (i 1).val ∧ (i 1).val < win1_3.index _ (1 : Fin 2) * 128 + 128; rw [e6]; omega

/-- After the region the first result array is x + b … -/
theorem final_sum (c : Dev nD) : (dat1 V c).arrAt 2 cfg1.N
    = addRow (V c main_v48 : S100000x128.Idx → EReal) (V c main_arg7 : S128.Idx → EReal) :=
  (dat1 V c).arrAt_eq_of_cover 2 _ (fun t _ => flushed_sum V c t) cover2

/-- … and the second its positive part. -/
theorem final_relu (c : Dev nD) : (dat1 V c).arrAt 3 cfg1.N
    = posPart (addRow (V c main_v48 : S100000x128.Idx → EReal) (V c main_arg7 : S128.Idx → EReal)) :=
  (dat1 V c).arrAt_eq_of_cover 3 _ (fun t _ => flushed_relu V c t) cover3

end Cert.KernelIdeal.BiasRelu

end
-- ==== Proof.Blend.lean ====
/-
  The fourth kernel region: the second layer's aggregated features plus their bias row, mixed half and half
  with the first layer's pre-activation, and the positive part of the mix.  Each grid point t holds rows
  5000·t … 5000·t + 4999 of both [100000, 128] arrays and the whole bias row; the body computes, entry by
  entry, max (½·(x(i, j) + b(j)) + ½·p(i, j)) 0 and stores it.  So after the region the result array is that
  function of the three arrays the region found on entry.
-/
import proofs.«109993_j29592324669623_1_alg».proof.Proof.Gen.KernelIdeal.Frame
import Idealize.ShloMosaic.Lib.Pipeline.Value
import Idealize.ShloMosaic.Lib.ValueIdx
import Idealize.ShloMosaic.Lib.ValueLayout

noncomputable section

open Idealize.ShloMosaic Idealize.ShloMosaic.TcCoe Idealize.SL.Sem Idealize.ShloMosaic.ValueIdx
open Idealize.ShloMosaic.Pipeline (Dat)

namespace Cert.KernelIdeal.Blend

open Cert.KernelIdeal Cert.KernelIdeal.Gen

/-- The half-and-half mix of x + b with p, cut off below at zero; the two constants are the f32 words of
    one half and of zero. -/
def mix {N D : Nat} (x : (⟨2, ![N, D]⟩ : Shape).Idx → EReal) (b : (⟨1, ![D]⟩ : Shape).Idx → EReal)
    (p : (⟨2, ![N, D]⟩ : Shape).Idx → EReal) : (⟨2, ![N, D]⟩ : Shape).Idx → EReal :=
  fun i => max (Ideal.ofBits .f32 0x3F000000#32 * (x i + b (ix1 (i 1))) + Ideal.ofBits .f32 0x3F000000#32 * p i)
    (Ideal.ofBits .f32 0x00000000#32)

theorem hz2 : (![0, 0] : Fin 2 → Nat) = fun _ => 0 := funext fun a => by fin_cases a <;> rfl
theorem hz1 : (![0] : Fin 1 → Nat) = fun _ => 0 := funext fun a => by fin_cases a <;> rfl

/-- The body's store at an entry of the block. -/
theorem mix_apply (x0 : Vec Ideal S5000x128 .f32) (x1 : Vec Ideal S128 .f32) (x2 : Vec Ideal S5000x128 .f32)
    (p : Fin 5000) (q : Fin 128) :
    k3_pay1 (F := Ideal) x0 x1 x2 (ix2 p q)
      = max (Ideal.ofBits .f32 0x3F000000#32 * (x0 (ix2 p q) + x1 (ix1 q)) + Ideal.ofBits .f32 0x3F000000#32 * x2 (ix2 p q))
          (Ideal.ofBits .f32 0x00000000#32) := by
  unfold k3_pay1
  simp only [maximumf_apply, addf_apply, mulf_apply, broadcast_apply, shapeCast_self]
  rw [broadcastTo_1b_ab_apply, shapeCast_a_1a_apply]
  rfl

/-- Blocks of rows tv·5000 … of x and of p with the whole row b: the body's store is the block of the mix. -/
theorem block_mix (X P : S100000x128.Idx → EReal) (B : S128.Idx → EReal)
    (x0 x2 : Vec Ideal S5000x128 .f32) (x1 : Vec Ideal S128 .f32) (tv : Nat)
    (hx0 : ∀ (y : S5000x128.Idx) (i : S100000x128.Idx), (i 0).val = tv * 5000 + (y 0).val → (i 1).val = (y 1).val → x0 y = X i)
    (hx1 : ∀ q : Fin 128, x1 (ix1 q) = B (ix1 q))
    (hx2 : ∀ (y : S5000x128.Idx) (i : S100000x128.Idx), (i 0).val = tv * 5000 + (y 0).val → (i 1).val = (y 1).val → x2 y = P i)
    (y : S5000x128.Idx) (i : S100000x128.Idx) (h0 : (i 0).val = tv * 5000 + (y 0).val) (h1 : (i 1).val = (y 1).val) :
    k3_pay1 (F := Ideal) x0 x1 x2 y = mix X B P i := by
  have hy := (congrArg (k3_pay1 (F := Ideal) x0 x1 x2) (eq_ix2 y)).trans (mix_apply x0 x1 x2 (y 0) (y 1))
  have e1 : (i 1) = (y 1) := Fin.ext h1
  have ex : x0 (ix2 (n0 := 5000) (n1 := 128) (y 0) (y 1)) = X i := (congrArg x0 (eq_ix2 y).symm).trans (hx0 y i h0 h1)
  have ep : x2 (ix2 (n0 := 5000) (n1 := 128) (y 0) (y 1)) = P i := (congrArg x2 (eq_ix2 y).symm).trans (hx2 y i h0 h1)
  have eb : x1 (ix1 (n := 128) (y 1)) = B (ix1 (i 1)) := (hx1 (y 1)).trans (congrArg (fun q => B (ix1 q)) e1.symm)
  exact hy.trans (congrArg (fun v => max v (Ideal.ofBits .f32 0x00000000#32))
    (congrArg₂ (· + ·) (congrArg (fun v => Ideal.ofBits .f32 0x3F000000#32 * v) (congrArg₂ (· + ·) ex eb))
      (congrArg (fun v => Ideal.ofBits .f32 0x3F000000#32 * v) ep)))

/-- The printed index maps over the grid: the row blocks move with the point, the bias row stays. -/
theorem idx_facts : ∀ t : Fin cfg3.N, win3_0.index t (0 : Fin 2) = t.val ∧ win3_0.index t (1 : Fin 2) = 0
    ∧ win3_1.index t (0 : Fin 1) = 0
    ∧ win3_2.index t (0 : Fin 2) = t.val ∧ win3_2.index t (1 : Fin 2) = 0
    ∧ win3_3.index t (0 : Fin 2) = t.val ∧ win3_3.index t (1 : Fin 2) = 0 :=
  (by decide +kernel : ∀ t : Fin grid3.N, _)

variable (V : (c : Dev nD) → (b : Ref sig .tc) → Buf (Elt Ideal) ((c : Thread nD τ).loc b))

/-- The first input block at point t is rows 5000·t … of the aggregated array. -/
theorem iblk_x (c : Dev nD) (t : Fin cfg3.N) (y : S5000x128.Idx) (i : S100000x128.Idx)
    (h0 : (i 0).val = t.val * 5000 + (y 0).val) (h1 : (i 1).val = (y 1).val) :
    (iblk3 V c 0 t : Vec Ideal S5000x128 .f32) y = (V c main_v97 : S100000x128.Idx → EReal) i := by
  obtain ⟨e0, e1, -⟩ := idx_facts t
  unfold iblk3
  rw [View.read_apply]
  show (V c main_v97 : S100000x128.Idx → EReal) _ = _
  congr 1
  funext a
  apply Fin.ext
  match a with
  | ⟨0, _⟩ => show win3_0.index t (0 : Fin 2) * 5000 + 1 * (y 0).val = (i 0).val; rw [e0, h0]; omega
  | ⟨1, _⟩ => show win3_0.index t (1 : Fin 2) * 128 + 1 * (y 1).val = (i 1).val; rw [e1, h1]; omega

/-- The second input block is the whole bias row at every point. -/
theorem iblk_b (c : Dev nD) (t : Fin cfg3.N) (q : Fin 128) :
    (iblk3 V c 1 t : Vec Ideal S128 .f32) (ix1 q) = (V c main_arg9 : S128.Idx → EReal) (ix1 q) := by
  obtain ⟨-, -, e2, -⟩ := idx_facts t
  unfold iblk3
  rw [View.read_apply]
  show (V c main_arg9 : S128.Idx → EReal) _ = _
  congr 1
  funext a
  apply Fin.ext
  match a with
  | ⟨0, _⟩ => show win3_1.index t (0 : Fin 1) * 128 + 1 * q.val = q.val; rw [e2]; omega

/-- The third input block at point t is rows 5000·t … of the first layer's pre-activation. -/
theorem iblk_p (c : Dev nD) (t : Fin cfg3.N) (y : S5000x128.Idx) (i : S100000x128.Idx)
    (h0 : (i 0).val = t.val * 5000 + (y 0).val) (h1 : (i 1).val = (y 1).val) :
    (iblk3 V c 2 t : Vec Ideal S5000x128 .f32) y = (V c main_v49_0 : S100000x128.Idx → EReal) i := by
  obtain ⟨-, -, -, e3, e4, -, -⟩ := idx_facts t
  unfold iblk3
  rw [View.read_apply]
  show (V c main_v49_0 : S100000x128.Idx → EReal) _ = _
  congr 1
  funext a
  apply Fin.ext
  match a with
  | ⟨0, _⟩ => show win3_2.index t (0 : Fin 2) * 5000 + 1 * (y 0).val = (i 0).val; rw [e3, h0]; omega
  | ⟨1, _⟩ => show win3_2.index t (1 : Fin 2) * 128 + 1 * (y 1).val = (i 1).val; rw [e4, h1]; omega

/-- What point t writes back: block t of the mix of the three arrays the region found. -/
theorem flushed_eq (c : Dev nD) (t : Fin cfg3.N) :
    (dat3 V c).flushed 3 t = ((cfg3.win 3).blk t).view.read (Elt Ideal)
      (mix (V c main_v97 : S100000x128.Idx → EReal) (V c main_arg9 : S128.Idx → EReal) (V c main_v49_0 : S100000x128.Idx → EReal)) := by
  obtain ⟨-, -, -, -, -, e5, e6⟩ := idx_facts t
  show (cfg3.win 3).cut (grid3.coords t) ((dat3 V c).after 3 t) = _
  rw [after3_3]
  unfold out3_3
  rw [View.canon_unit_zero hz2]
  simp only [View.ld_unit_zero (S := S5000x128) hz2, View.ld_unit_zero (S := S128) hz1]
  funext j
  rw [View.read_apply]
  refine block_mix (V c main_v97) (V c main_v49_0) (V c main_arg9) (iblk3 V c 0 t) (iblk3 V c 2 t) (iblk3 V c 1 t) t.val
    (fun y i h0 h1 => iblk_x V c t y i h0 h1) (fun q => iblk_b V c t q) (fun y i h0 h1 => iblk_p V c t y i h0 h1) _ _ ?_ ?_
  · show win3_3.index t (0 : Fin 2) * 5000 + 1 * (j 0).val = t.val * 5000 + (j 0).val
    rw [e5]; omega
  · show win3_3.index t (1 : Fin 2) * 128 + 1 * (j 1).val = (j 1).val
    rw [e6]; omega

/-- An index of the array is in point t's block iff each coordinate is in the block's range on its axis. -/
theorem mem_blk (t : Fin cfg3.N) (i : S100000x128.Idx) :
    i ∈ ((cfg3.win 3).blk t).view.set ↔ ∀ a : Fin 2, win3_3.index t a * S5000x128.size a ≤ (i a).val ∧ (i a).val < win3_3.index t a * S5000x128.size a + S5000x128.size a := by
  show i ∈ ((View.whole main_v98).slice (win3_3.rect t)).set ↔ _
  rw [View.set_slice_whole, Rect.mem_set_unit]
  exact Iff.rfl

/-- Row r lies in the block of point r / 5000: the twenty blocks cover the array. -/
theorem cover (i : S100000x128.Idx) : ∃ t : Fin cfg3.N, (cfg3.win 3).flush t = true ∧ i ∈ ((cfg3.win 3).blk t).view.set := by
  have hN : cfg3.N = 20 := N_3
  have hi0 : (i 0).val < 100000 := (i 0).isLt
  have hi1 : (i 1).val < 128 := (i 1).isLt
  refine ⟨⟨(i 0).val / 5000, by rw [hN]; omega⟩, flush3_3 _, ?_⟩
  obtain ⟨-, -, -, -, -, e5, e6⟩ := idx_facts ⟨(i 0).val / 5000, by rw [hN]; omega⟩
  rw [mem_blk]
  intro a
  match a with
  | ⟨0, _⟩ => show win3_3.index _ (0 : Fin 2) * 5000 ≤ (i 0).val ∧ (i 0).val < win3_3.index _ (0 : Fin 2) * 5000 + 5000; rw [e5]; show (i 0).val / 5000 * 5000 ≤ (i 0).val ∧ (i 0).val < (i 0).val / 5000 * 5000 + 5000; omega
  | ⟨1, _⟩ => show win3_3.index _ (1 : Fin 2) * 128 ≤ (i 1).val ∧ (i 1).val < win3_3.index _ (1 : Fin 2) * 128 + 128; rw [e6]; omega

/-- After the region the result array is the mix of the three arrays the region found. -/
theorem final (c : Dev nD) : (dat3 V c).arrAt 3 cfg3.N
    = mix (V c main_v97 : S100000x128.Idx → EReal) (V c main_arg9 : S128.Idx → EReal) (V c main_v49_0 : S100000x128.Idx → EReal) :=
  (dat3 V c).arrAt_eq_of_cover 3 _ (fun t _ => flushed_eq V c t) cover

end Cert.KernelIdeal.Blend

end
-- ==== Proof.LogSoftmax.lean ====
/-
  The sixth kernel region: the third layer's aggregated features plus their bias row, then the logarithm of
  the softmax along each row of 40.  Each grid point t holds rows 5000·t … 5000·t + 4999 of the
  [100000, 40] array and the whole bias row; a row's result depends on that row only.  With
  s(k) = x(r, k) + b(k), M = the maximum of the s(k) (taken from the f32 word of −∞), the entry (r, q) is
  (s(q) − M) − log (Σ_k exp (s(k) − M)).  So after the region the result array is that function of the
  array and the row the region found on entry.
-/
import proofs.«109993_j29592324669623_1_alg».proof.Proof.Gen.KernelIdeal.Frame
import proofs.«109993_j29592324669623_1_alg».proof.Proof.LibCast
import Idealize.ShloMosaic.Lib.Pipeline.Value
import Idealize.ShloMosaic.Lib.ValueIdx
import Idealize.ShloMosaic.Lib.ValueLayout
import Idealize.ShloMosaic.PureOps.Ideal.Laws

noncomputable section

open scoped BigOperators
open Idealize.ShloMosaic Idealize.ShloMosaic.TcCoe Idealize.SL.Sem Idealize.ShloMosaic.ValueIdx
open Idealize.ShloMosaic.Pipeline (Dat)

namespace Cert.KernelIdeal.LogSoftmax

open Cert.KernelIdeal Cert.KernelIdeal.Gen

/-- Row r of x + b, as a function of the column. -/
def rowOf {N D : Nat} (x : (⟨2, ![N, D]⟩ : Shape).Idx → EReal) (b : (⟨1, ![D]⟩ : Shape).Idx → EReal) (r : Fin N) :
    Fin D → EReal := fun k => x (ix2 r k) + b (ix1 k)

/-- The logarithm of the softmax of one row s at column q, the maximum taken from the f32 word of −∞. -/
def lsmRow {D : Nat} (s : Fin D → EReal) (q : Fin D) : EReal :=
  (s q - Finset.univ.fold max (Ideal.ofBits .f32 0xFF800000#32) s)
    - Ideal.log (∑ k : Fin D, Ideal.exp (s k - Finset.univ.fold max (Ideal.ofBits .f32 0xFF800000#32) s))

/-- Row by row: the logarithm of the softmax of x + b. -/
def logSoftmaxRows {N D : Nat} (x : (⟨2, ![N, D]⟩ : Shape).Idx → EReal) (b : (⟨1, ![D]⟩ : Shape).Idx → EReal) :
    (⟨2, ![N, D]⟩ : Shape).Idx → EReal := fun i => lsmRow (rowOf x b (i 0)) (i 1)

theorem hz2 : (![0, 0] : Fin 2 → Nat) = fun _ => 0 := funext fun a => by fin_cases a <;> rfl
theorem hz1 : (![0] : Fin 1 → Nat) = fun _ => 0 := funext fun a => by fin_cases a <;> rfl

/-- A column [a, 1] broadcast to [a, b] reads, at (p, c), the column's entry p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The index over a row index with a column inserted is (row, column). -/
theorem lift_eq (h : S5000x40.Reduces [1] S5000) (p : Fin 5000) (k : Fin 40) :
    h.lift (ix1 p) k = ix2 p k := by
  funext a
  apply Fin.ext
  match a with
  | ⟨0, _⟩ => rfl
  | ⟨1, _⟩ => rfl

/-- A row maximum, made a column and broadcast back over the row: at (p, q) the maximum of row p. -/
theorem rowmax_bcast (v : FVec Ideal S5000x40 .f32) (h : S5000x40.Reduces [1] S5000) (hφ : FKind.Formats .f32)
    (hacc : (0xFF800000#32 : BitVec 32) = 0xFF800000#32)
    (hc : S5000.ShapeCasts S5000x1) (hb : S5000x1.Broadcasts S5000x40) (p : Fin 5000) (q : Fin 40) :
    broadcastTo S5000x40 (shapeCast S5000x1 (multiReduction .maximumf [1] S5000 v 0xFF800000#32 h hφ hacc) hc) hb (ix2 p q)
      = Finset.univ.fold max (Ideal.ofBits .f32 0xFF800000#32) (fun k : Fin 40 => v (ix2 p k)) := by
  rw [broadcastTo_a1_ab_apply, Cert.LibCast.shapeCast_a_a1_apply]
  refine (Ideal.multiReduction_maximumf_single v (0xFF800000#32) h hφ hacc (ix1 p)).trans ?_
  show Finset.univ.fold max (Ideal.ofBits .f32 0xFF800000#32) (fun k : Fin 40 => v (h.lift (ix1 p) k)) = _
  simp only [lift_eq]

/-- A row sum, made a column, its logarithm broadcast back over the row: at (p, q) the logarithm of the sum of row p. -/
theorem rowlogsum_bcast (w : FVec Ideal S5000x40 .f32) (h : S5000x40.Reduces [1] S5000) (hφ : FKind.Formats .f32)
    (hacc : (0x00000000#32 : BitVec 32) = 0x00000000#32)
    (hc : S5000.ShapeCasts S5000x1) (hb : S5000x1.Broadcasts S5000x40) (p : Fin 5000) (q : Fin 40) :
    broadcastTo S5000x40 (log (shapeCast S5000x1 (multiReduction .add [1] S5000 w 0x00000000#32 h hφ hacc) hc)) hb (ix2 p q)
      = Ideal.log (∑ k : Fin 40, w (ix2 p k)) := by
  rw [broadcastTo_a1_ab_apply]
  show Ideal.log (shapeCast S5000x1 (multiReduction .add [1] S5000 w 0x00000000#32 h hφ hacc) hc (ix2 p (0 : Fin 1))) = _
  rw [Cert.LibCast.shapeCast_a_a1_apply]
  refine congrArg Ideal.log ((Ideal.multiReduction_add_single w (0x00000000#32) h hφ hacc (ix1 p)).trans ?_)
  show (∑ k : Fin 40, w (h.lift (ix1 p) k)) = _
  simp only [lift_eq]

/-- The bias added to a block, at an entry. -/
theorem row_apply (x0 : Vec Ideal S5000x40 .f32) (x1 : Vec Ideal S40 .f32) (hs : S5000x40.ShapeCasts S5000x40)
    (hc : S40.ShapeCasts S1x40) (hb : S1x40.Broadcasts S5000x40) (p : Fin 5000) (k : Fin 40) :
    addf (F := Ideal) (φ := .f32) (shapeCast S5000x40 x0 hs) (broadcastTo S5000x40 (shapeCast S1x40 x1 hc) hb) (ix2 p k) = rowOf x0 x1 p k := by
  rw [addf_apply, shapeCast_self, broadcastTo_1b_ab_apply, shapeCast_a_1a_apply]
  rfl

/-- The exponential of an array of extended reals, at an entry. -/
theorem exp_at {s : Shape} (v : FVec Ideal s .f32) (i : s.Idx) : exp v i = Ideal.exp (v i) := rfl

/-- The body's store at an entry of the block: the logarithm of the softmax of the block's row. -/
theorem lsm_apply (x0 : Vec Ideal S5000x40 .f32) (x1 : Vec Ideal S40 .f32) (p : Fin 5000) (q : Fin 40) :
    k5_pay1 (F := Ideal) x0 x1 (ix2 p q) = lsmRow (rowOf x0 x1 p) q := by
  unfold k5_pay1
  have hrow : ∀ k : Fin 40, addf (F := Ideal) (φ := .f32) (shapeCast S5000x40 x0 shapeCasts_S5000x40_S5000x40)
      (broadcastTo S5000x40 (shapeCast S1x40 x1 shapeCasts_S40_S1x40) broadcasts_S1x40_S5000x40) (ix2 p k) = rowOf x0 x1 p k :=
    fun k => row_apply x0 x1 _ _ _ p k
  generalize addf (F := Ideal) (φ := .f32) (shapeCast S5000x40 x0 shapeCasts_S5000x40_S5000x40)
      (broadcastTo S5000x40 (shapeCast S1x40 x1 shapeCasts_S40_S1x40) broadcasts_S1x40_S5000x40) = v5 at hrow ⊢
  rw [subf_apply, rowlogsum_bcast, subf_apply, rowmax_bcast]
  have hfun : (fun k : Fin 40 => v5 (ix2 p k)) = rowOf x0 x1 p := funext hrow
  have hsum : ∀ k : Fin 40, exp (subf v5 (broadcastTo S5000x40 (shapeCast S5000x1
      (multiReduction .maximumf [1] S5000 v5 0xFF800000#32 reduces_S5000x40_S5000 (.inl rfl) rfl) shapeCasts_S5000_S5000x1)
      broadcasts_S5000x1_S5000x40)) (ix2 p k)
      = Ideal.exp (rowOf x0 x1 p k - Finset.univ.fold max (Ideal.ofBits .f32 0xFF800000#32) (rowOf x0 x1 p)) := fun k => by
    rw [exp_at, subf_apply, rowmax_bcast, hfun, hrow k]
  rw [Finset.sum_congr rfl (fun k _ => hsum k), hfun, hrow q]
  rfl

/-- A block of rows tv·5000 … of x with the whole row b: the body's store is the block of the row-wise
    logarithm of the softmax of x + b (a row of the block is a whole row of x). -/
theorem block_lsm (X : S100000x40.Idx → EReal) (B : S40.Idx → EReal)
    (x0 : Vec Ideal S5000x40 .f32) (x1 : Vec Ideal S40 .f32) (tv : Nat)
    (hx0 : ∀ (y : S5000x40.Idx) (i : S100000x40.Idx), (i 0).val = tv * 5000 + (y 0).val → (i 1).val = (y 1).val → x0 y = X i)
    (hx1 : ∀ q : Fin 40, x1 (ix1 q) = B (ix1 q))
    (y : S5000x40.Idx) (i : S100000x40.Idx) (h0 : (i 0).val = tv * 5000 + (y 0).val) (h1 : (i 1).val = (y 1).val) :
    k5_pay1 (F := Ideal) x0 x1 y = logSoftmaxRows X B i := by
  have hy := (congrArg (k5_pay1 (F := Ideal) x0 x1) (eq_ix2 y)).trans (lsm_apply x0 x1 (y 0) (y 1))
  have e1 : (y 1) = (i 1) := Fin.ext h1.symm
  have hrow : rowOf (N := 5000) (D := 40) x0 x1 (y 0) = rowOf (N := 100000) (D := 40) X B (i 0) := by
    funext k
    unfold rowOf
    exact congrArg₂ (· + ·) (hx0 (ix2 (y 0) k) (ix2 (i 0) k) h0 rfl) (hx1 k)
  exact hy.trans (congrArg₂ lsmRow hrow e1)

/-- The printed index maps over the grid: the row blocks move with the point, the bias row stays. -/
theorem idx_facts : ∀ t : Fin cfg5.N, win5_0.index t (0 : Fin 2) = t.val ∧ win5_0.index t (1 : Fin 2) = 0
    ∧ win5_1.index t (0 : Fin 1) = 0
    ∧ win5_2.index t (0 : Fin 2) = t.val ∧ win5_2.index t (1 : Fin 2) = 0 :=
  (by decide +kernel : ∀ t : Fin grid5.N, _)

variable (V : (c : Dev nD) → (b : Ref sig .tc) → Buf (Elt Ideal) ((c : Thread nD τ).loc b))

/-- The first input block at point t is rows 5000·t … of the aggregated array. -/
theorem iblk_x (c : Dev nD) (t : Fin cfg5.N) (y : S5000x40.Idx) (i : S100000x40.Idx)
    (h0 : (i 0).val = t.val * 5000 + (y 0).val) (h1 : (i 1).val = (y 1).val) :
    (iblk5 V c 0 t : Vec Ideal S5000x40 .f32) y = (V c main_v146 : S100000x40.Idx → EReal) i := by
  obtain ⟨e0, e1, -⟩ := idx_facts t
  unfold iblk5
  rw [View.read_apply]
  show (V c main_v146 : S100000x40.Idx → EReal) _ = _
  congr 1
  funext a
  apply Fin.ext
  match a with
  | ⟨0, _⟩ => show win5_0.index t (0 : Fin 2) * 5000 + 1 * (y 0).val = (i 0).val; rw [e0, h0]; omega
  | ⟨1, _⟩ => show win5_0.index t (1 : Fin 2) * 40 + 1 * (y 1).val = (i 1).val; rw [e1, h1]; omega

/-- The second input block is the whole bias row at every point. -/
theorem iblk_b (c : Dev nD) (t : Fin cfg5.N) (q : Fin 40) :
    (iblk5 V c 1 t : Vec Ideal S40 .f32) (ix1 q) = (V c main_arg11 : S40.Idx → EReal) (ix1 q) := by
  obtain ⟨-, -, e2, -⟩ := idx_facts t
  unfold iblk5
  rw [View.read_apply]
  show (V c main_arg11 : S40.Idx → EReal) _ = _
  congr 1
  funext a
  apply Fin.ext
  match a with
  | ⟨0, _⟩ => show win5_1.index t (0 : Fin 1) * 40 + 1 * q.val = q.val; rw [e2]; omega

/-- What point t writes back: block t of the row-wise logarithm of the softmax of x + b. -/
theorem flushed_eq (c : Dev nD) (t : Fin cfg5.N) :
    (dat5 V c).flushed 2 t = ((cfg5.win 2).blk t).view.read (Elt Ideal)
      (logSoftmaxRows (V c main_v146 : S100000x40.Idx → EReal) (V c main_arg11 : S40.Idx → EReal)) := by
  obtain ⟨-, -, -, e3, e4⟩ := idx_facts t
  show (cfg5.win 2).cut (grid5.coords t) ((dat5 V c).after 2 t) = _
  rw [after5_2]
  unfold out5_2
  rw [View.canon_unit_zero hz2]
  simp only [View.ld_unit_zero (S := S5000x40) hz2, View.ld_unit_zero (S := S40) hz1]
  funext j
  rw [View.read_apply]
  refine block_lsm (V c main_v146) (V c main_arg11) (iblk5 V c 0 t) (iblk5 V c 1 t) t.val
    (fun y i h0 h1 => iblk_x V c t y i h0 h1) (fun q => iblk_b V c t q) _ _ ?_ ?_
  · show win5_2.index t (0 : Fin 2) * 5000 + 1 * (j 0).val = t.val * 5000 + (j 0).val
    rw [e3]; omega
  · show win5_2.index t (1 : Fin 2) * 40 + 1 * (j 1).val = (j 1).val
    rw [e4]; omega

/-- An index of the array is in point t's block iff each coordinate is in the block's range on its axis. -/
theorem mem_blk (t : Fin cfg5.N) (i : S100000x40.Idx) :
    i ∈ ((cfg5.win 2).blk t).view.set ↔ ∀ a : Fin 2, win5_2.index t a * S5000x40.size a ≤ (i a).val ∧ (i a).val < win5_2.index t a * S5000x40.size a + S5000x40.size a := by
  show i ∈ ((View.whole main_v147).slice (win5_2.rect t)).set ↔ _
  rw [View.set_slice_whole, Rect.mem_set_unit]
  exact Iff.rfl

/-- Row r lies in the block of point r / 5000: the twenty blocks cover the array. -/
theorem cover (i : S100000x40.Idx) : ∃ t : Fin cfg5.N, (cfg5.win 2).flush t = true ∧ i ∈ ((cfg5.win 2).blk t).view.set := by
  have hN : cfg5.N = 20 := N_5
  have hi0 : (i 0).val < 100000 := (i 0).isLt
  have hi1 : (i 1).val < 40 := (i 1).isLt
  refine ⟨⟨(i 0).val / 5000, by rw [hN]; omega⟩, flush5_2 _, ?_⟩
  obtain ⟨-, -, -, e3, e4⟩ := idx_facts ⟨(i 0).val / 5000, by rw [hN]; omega⟩
  rw [mem_blk]
  intro a
  match a with
  | ⟨0, _⟩ => show win5_2.index _ (0 : Fin 2) * 5000 ≤ (i 0).val ∧ (i 0).val < win5_2.index _ (0 : Fin 2) * 5000 + 5000; rw [e3]; show (i 0).val / 5000 * 5000 ≤ (i 0).val ∧ (i 0).val < (i 0).val / 5000 * 5000 + 5000; omega
  | ⟨1, _⟩ => show win5_2.index _ (1 : Fin 2) * 40 ≤ (i 1).val ∧ (i 1).val < win5_2.index _ (1 : Fin 2) * 40 + 40; rw [e4]; omega

/-- After the region the result array is the row-wise logarithm of the softmax of x + b. -/
theorem final (c : Dev nD) : (dat5 V c).arrAt 2 cfg5.N
    = logSoftmaxRows (V c main_v146 : S100000x40.Idx → EReal) (V c main_arg11 : S40.Idx → EReal) :=
  (dat5 V c).arrAt_eq_of_cover 2 _ (fun t _ => flushed_eq V c t) cover

end Cert.KernelIdeal.LogSoftmax

end
-- ==== Proof.LibHostRows.lean ====
/-
  Host operations of the reference read at an index, at the extended reals: a row of length D broadcast to
  [1, D] and then down N rows; a one-axis maximum along the rows from an initial value (and the maximum of
  that with the same initial value again, which changes nothing); a one-axis sum along the rows from zero.
-/
import Idealize.ShloMosaic.Lib.Pipeline.Value
import Idealize.ShloMosaic.Lib.ValueIdx
import Idealize.ShloMosaic.PureOps.Ideal.Laws
import Mathlib.Data.Finset.Fold

noncomputable section

open scoped BigOperators
open Idealize.ShloMosaic Idealize.ShloMosaic.ValueIdx

namespace Cert.LibHostRows

/-- A row broadcast to [1, D] and then to [N, D] reads, at (r, q), the row's entry q. -/
theorem bcastRow_apply {N D : Nat} (b : (⟨1, ![D]⟩ : Shape).Idx → EReal)
    (h1 : (⟨1, ![D]⟩ : Shape).BroadcastsInDim ⟨2, ![1, D]⟩ ![1])
    (h2 : (⟨2, ![1, D]⟩ : Shape).BroadcastsInDim ⟨2, ![N, D]⟩ ![0, 1]) (i : (⟨2, ![N, D]⟩ : Shape).Idx) :
    broadcastInDim ⟨2, ![N, D]⟩ ![0, 1] h2 (broadcastInDim ⟨2, ![1, D]⟩ ![1] h1 b) i = b (ix1 (i 1)) := by
  have hi1 : (i 1).val < D := (i 1).isLt
  refine (broadcastInDim_apply ![0, 1] h2 _ i (ix2 (0 : Fin 1) (i 1)) fun a => ?_).trans
    (broadcastInDim_apply ![1] h1 b (ix2 (0 : Fin 1) (i 1)) (ix1 (i 1)) fun a => ?_)
  · match a with
    | ⟨0, _⟩ => show (0 : Nat) = if (1 : Nat) = 1 then 0 else (i 0).val; rw [if_pos rfl]
    | ⟨1, _⟩ => show (i 1).val = if D = 1 then 0 else (i 1).val; split <;> omega
  · match a with
    | ⟨0, _⟩ => show (i 1).val = if D = 1 then 0 else (i 1).val; split <;> omega

/-- The index over a row index with a column inserted is (row, column). -/
theorem lift_eq {N D : Nat} (h : (⟨2, ![N, D]⟩ : Shape).Reduces [1] ⟨1, ![N]⟩) (j : (⟨1, ![N]⟩ : Shape).Idx) (k : Fin D) :
    h.lift j k = ix2 (j 0) k := by
  funext a
  apply Fin.ext
  match a with
  | ⟨0, _⟩ => rfl
  | ⟨1, _⟩ => rfl

/-- The host's maximum along each row from the initial value c, then its maximum with c once more: the
    fold of max over the row from c. -/
theorem hostRowMax {N D : Nat} (Z : (⟨2, ![N, D]⟩ : Shape).Idx → EReal) (c0 : (⟨0, ![]⟩ : Shape).Idx → EReal) (c : EReal)
    (hc0 : ∀ u, c0 u = c) (h' : (⟨2, ![N, D]⟩ : Shape).ReducesTo [1] ⟨1, ![N]⟩)
    (hR : (⟨2, ![N, D]⟩ : Shape).Reduces [1] ⟨1, ![N]⟩) (hu : 0 < (⟨0, ![]⟩ : Shape).numel) (j : (⟨1, ![N]⟩ : Shape).Idx) :
    max c (Host.reduce (FloatOps.maximumf (F := Ideal) (φ := .f32)) Z c0 h' hu j)
      = Finset.univ.fold max c (fun k : Fin D => Z (ix2 (j 0) k)) := by
  rw [Host.reduce_eq_fold_single (FloatOps.maximumf (F := Ideal) (φ := .f32)) Z c0 h' hR hu j, hc0]
  show max c (Finset.univ.fold max c (fun k : Fin D => Z (hR.lift j k))) = _
  rw [max_eq_right ((Finset.le_fold_max c).mpr (Or.inl (le_refl c)))]
  simp only [lift_eq]
  rfl

/-- The host's sum along each row from the zero word of f32: the sum over the row. -/
theorem hostRowSum {N D : Nat} (Z : (⟨2, ![N, D]⟩ : Shape).Idx → EReal) (c0 : (⟨0, ![]⟩ : Shape).Idx → EReal)
    (hc0 : ∀ u, c0 u = Ideal.ofBits .f32 0x00000000#32) (h' : (⟨2, ![N, D]⟩ : Shape).ReducesTo [1] ⟨1, ![N]⟩)
    (hR : (⟨2, ![N, D]⟩ : Shape).Reduces [1] ⟨1, ![N]⟩) (hu : 0 < (⟨0, ![]⟩ : Shape).numel) (j : (⟨1, ![N]⟩ : Shape).Idx) :
    Host.reduceAdd (F := Ideal) (φ := .f32) Z c0 h' hu j = ∑ k : Fin D, Z (ix2 (j 0) k) := by
  simp only [Host.reduceAdd, Ideal.hostReduceAdd_def]
  rw [Ideal.hostReduceAdd_single h' hR, hc0, Ideal.ofBits_zero_f32, zero_add]
  show ∑ k : Fin D, Z (hR.lift j k) = _
  simp only [lift_eq]
  rfl

end Cert.LibHostRows

end
-- ==== Proof.RefStages.lean ====
/-
  The reference, stage by stage, as the same functions the kernel's regions compute: its three
  `dot_general`s are matrix products; a bias row broadcast and added is the row added to every row; a
  maximum with a broadcast zero is the positive part; the half-and-half mix and its positive part; and
  `log_softmax` along axis 1 is, row by row, (s − M) − log Σ exp (s − M) with M the row's maximum (the
  host takes that maximum from −∞ and then once more against −∞, which changes nothing).
-/
import proofs.«109993_j29592324669623_1_alg».proof.Proof.RefReadP
import proofs.«109993_j29592324669623_1_alg».proof.Proof.LibMatmul
import proofs.«109993_j29592324669623_1_alg».proof.Proof.LibHostRows
import proofs.«109993_j29592324669623_1_alg».proof.Proof.BiasRelu
import proofs.«109993_j29592324669623_1_alg».proof.Proof.Blend
import proofs.«109993_j29592324669623_1_alg».proof.Proof.LogSoftmax

noncomputable section

open scoped BigOperators

namespace Cert.ReferenceIdeal.Stages

open Cert.ReferenceIdeal Cert.ReferenceIdeal.Gen Cert.ReferenceIdeal.ReadP Idealize.ShloMosaic Idealize.ShloMosaic.ValueIdx
open Cert.LibMatmul (MM dotGeneral_eq)
open Cert.KernelIdeal.BiasRelu (addRow posPart)
open Cert.KernelIdeal.Blend (mix)
open Cert.KernelIdeal.LogSoftmax (rowOf lsmRow logSoftmaxRows)

/-- The first projection is the matrix product of the features and the first weight matrix. -/
theorem v1_eq (x0 : (⟨S100000x256, .f32⟩ : BufTy).Contents (Elt Ideal)) (x6 : (⟨S256x128, .f32⟩ : BufTy).Contents (Elt Ideal)) :
    val_main_v1 (F := Ideal) x0 x6 = MM (A := 100000) (K := 256) (B := 128) x0 x6 := by
  unfold val_main_v1
  exact dotGeneral_eq dot_S100000x256_S256x128_S100000x128_1_0_0_1_n_n rfl rfl rfl rfl rfl rfl none .single x0 x6

/-- The first layer before its activation: the aggregated features plus the bias row. -/
theorem v51_eq (x0 : (⟨S100000x256, .f32⟩ : BufTy).Contents (Elt Ideal)) (x1 : (⟨S2x1600000, .i32⟩ : BufTy).Contents (Elt Ideal)) (x6 : (⟨S256x128, .f32⟩ : BufTy).Contents (Elt Ideal)) (x7 : (⟨S128, .f32⟩ : BufTy).Contents (Elt Ideal)) :
    val_main_v51 (F := Ideal) x0 x1 x6 x7 = addRow (N := 100000) (D := 128) (val_main_v48 (F := Ideal) x0 x1 x6) x7 := by
  funext i
  rw [val_main_v51_apply]
  unfold val_main_v50 val_main_v49 addRow
  exact congrArg (fun v => val_main_v48 (F := Ideal) x0 x1 x6 i + v) (Cert.LibHostRows.bcastRow_apply (N := 100000) (D := 128) x7 _ _ i)

/-- The first layer's activation: the positive part. -/
theorem v52_eq (x0 : (⟨S100000x256, .f32⟩ : BufTy).Contents (Elt Ideal)) (x1 : (⟨S2x1600000, .i32⟩ : BufTy).Contents (Elt Ideal)) (x6 : (⟨S256x128, .f32⟩ : BufTy).Contents (Elt Ideal)) (x7 : (⟨S128, .f32⟩ : BufTy).Contents (Elt Ideal)) :
    val_main_v52 (F := Ideal) x0 x1 x6 x7 = posPart (N := 100000) (D := 128) (val_main_v51 (F := Ideal) x0 x1 x6 x7) := by
  funext i
  rw [val_main_v52_apply, val_main_call1_v0_apply, val_main_call1_cst_apply]
  rfl

/-- The second projection is the matrix product of the first layer's activations and the second weight matrix. -/
theorem v53_eq (x0 : (⟨S100000x256, .f32⟩ : BufTy).Contents (Elt Ideal)) (x1 : (⟨S2x1600000, .i32⟩ : BufTy).Contents (Elt Ideal)) (x6 : (⟨S256x128, .f32⟩ : BufTy).Contents (Elt Ideal)) (x7 : (⟨S128, .f32⟩ : BufTy).Contents (Elt Ideal)) (x8 : (⟨S128x128, .f32⟩ : BufTy).Contents (Elt Ideal)) :
    val_main_v53 (F := Ideal) x0 x1 x6 x7 x8 = MM (A := 100000) (K := 128) (B := 128) (val_main_v52 (F := Ideal) x0 x1 x6 x7) x8 := by
  unfold val_main_v53
  exact dotGeneral_eq dot_S100000x128_S128x128_S100000x128_1_0_0_1_n_n rfl rfl rfl rfl rfl rfl none .single _ x8

/-- The second layer's activation: the half-and-half mix with the first layer's pre-activation, cut off at zero. -/
theorem v109_eq (x0 : (⟨S100000x256, .f32⟩ : BufTy).Contents (Elt Ideal)) (x1 x2 : (⟨S2x1600000, .i32⟩ : BufTy).Contents (Elt Ideal)) (x4 : (⟨S1600000, .f32⟩ : BufTy).Contents (Elt Ideal)) (x6 : (⟨S256x128, .f32⟩ : BufTy).Contents (Elt Ideal)) (x7 : (⟨S128, .f32⟩ : BufTy).Contents (Elt Ideal)) (x8 : (⟨S128x128, .f32⟩ : BufTy).Contents (Elt Ideal)) (x9 : (⟨S128, .f32⟩ : BufTy).Contents (Elt Ideal)) :
    val_main_v109 (F := Ideal) x0 x1 x2 x4 x6 x7 x8 x9
      = mix (N := 100000) (D := 128) (val_main_v100 (F := Ideal) x0 x1 x2 x4 x6 x7 x8) x9 (val_main_v51 (F := Ideal) x0 x1 x6 x7) := by
  funext i
  rw [val_main_v109_apply, val_main_v108_apply, val_main_v105_apply, val_main_v107_apply, val_main_v103_apply,
    val_main_v104_apply, val_main_cst_23_apply, val_main_v106_apply, val_main_cst_24_apply,
    val_main_call3_v0_apply, val_main_call3_cst_apply]
  unfold val_main_v102 val_main_v101 mix
  rw [Cert.LibHostRows.bcastRow_apply (N := 100000) (D := 128) x9 _ _ i]
  rfl

/-- The third projection is the matrix product of the second layer's activations and the third weight matrix. -/
theorem v110_eq (x0 : (⟨S100000x256, .f32⟩ : BufTy).Contents (Elt Ideal)) (x1 x2 : (⟨S2x1600000, .i32⟩ : BufTy).Contents (Elt Ideal)) (x4 : (⟨S1600000, .f32⟩ : BufTy).Contents (Elt Ideal)) (x6 : (⟨S256x128, .f32⟩ : BufTy).Contents (Elt Ideal)) (x7 : (⟨S128, .f32⟩ : BufTy).Contents (Elt Ideal)) (x8 : (⟨S128x128, .f32⟩ : BufTy).Contents (Elt Ideal)) (x9 : (⟨S128, .f32⟩ : BufTy).Contents (Elt Ideal)) (x10 : (⟨S128x40, .f32⟩ : BufTy).Contents (Elt Ideal)) :
    val_main_v110 (F := Ideal) x0 x1 x2 x4 x6 x7 x8 x9 x10 = MM (A := 100000) (K := 128) (B := 40) (val_main_v109 (F := Ideal) x0 x1 x2 x4 x6 x7 x8 x9) x10 := by
  unfold val_main_v110
  exact dotGeneral_eq dot_S100000x128_S128x40_S100000x40_1_0_0_1_n_n rfl rfl rfl rfl rfl rfl none .single _ x10

/-- The third layer before the softmax, at an entry: the aggregated features plus the bias entry of the column. -/
theorem v160_apply' (x0 : (⟨S100000x256, .f32⟩ : BufTy).Contents (Elt Ideal)) (x1 x2 x3 : (⟨S2x1600000, .i32⟩ : BufTy).Contents (Elt Ideal)) (x4 x5 : (⟨S1600000, .f32⟩ : BufTy).Contents (Elt Ideal)) (x6 : (⟨S256x128, .f32⟩ : BufTy).Contents (Elt Ideal)) (x7 : (⟨S128, .f32⟩ : BufTy).Contents (Elt Ideal)) (x8 : (⟨S128x128, .f32⟩ : BufTy).Contents (Elt Ideal)) (x9 : (⟨S128, .f32⟩ : BufTy).Contents (Elt Ideal)) (x10 : (⟨S128x40, .f32⟩ : BufTy).Contents (Elt Ideal)) (x11 : (⟨S40, .f32⟩ : BufTy).Contents (Elt Ideal)) (i : S100000x40.Idx) :
    val_main_v160 (F := Ideal) x0 x1 x2 x3 x4 x5 x6 x7 x8 x9 x10 x11 i = val_main_v157 (F := Ideal) x0 x1 x2 x3 x4 x5 x6 x7 x8 x9 x10 i + x11 (ix1 (i 1)) := by
  rw [val_main_v160_apply]
  unfold val_main_v159 val_main_v158
  exact congrArg (fun v => val_main_v157 (F := Ideal) x0 x1 x2 x3 x4 x5 x6 x7 x8 x9 x10 i + v) (Cert.LibHostRows.bcastRow_apply (N := 100000) (D := 40) x11 _ _ i)

/-- The row maximum the host computes, at a row. -/
theorem rowmax_eq (x0 : (⟨S100000x256, .f32⟩ : BufTy).Contents (Elt Ideal)) (x1 x2 x3 : (⟨S2x1600000, .i32⟩ : BufTy).Contents (Elt Ideal)) (x4 x5 : (⟨S1600000, .f32⟩ : BufTy).Contents (Elt Ideal)) (x6 : (⟨S256x128, .f32⟩ : BufTy).Contents (Elt Ideal)) (x7 : (⟨S128, .f32⟩ : BufTy).Contents (Elt Ideal)) (x8 : (⟨S128x128, .f32⟩ : BufTy).Contents (Elt Ideal)) (x9 : (⟨S128, .f32⟩ : BufTy).Contents (Elt Ideal)) (x10 : (⟨S128x40, .f32⟩ : BufTy).Contents (Elt Ideal)) (x11 : (⟨S40, .f32⟩ : BufTy).Contents (Elt Ideal)) (j : S100000.Idx) :
    val_main_call5_v2 (F := Ideal) x0 x1 x2 x3 x4 x5 x6 x7 x8 x9 x10 x11 j
      = Finset.univ.fold max (Ideal.ofBits .f32 0xFF800000#32) (fun k : Fin 40 => val_main_v160 (F := Ideal) x0 x1 x2 x3 x4 x5 x6 x7 x8 x9 x10 x11 (ix2 (j 0) k)) := by
  rw [val_main_call5_v2_apply, val_main_call5_v1_apply, val_main_call5_cst_0_apply]
  unfold val_main_call5_v0
  exact Cert.LibHostRows.hostRowMax (N := 100000) (D := 40) (val_main_v160 (F := Ideal) x0 x1 x2 x3 x4 x5 x6 x7 x8 x9 x10 x11) (val_main_call5_cst (F := Ideal))
    (Ideal.ofBits .f32 0xFF800000#32) (fun _ => rfl) reducesTo_S100000x40_S100000_d1 (by decide) h_S_ j

/-- The shifted entries, at an entry: the entry minus its row's maximum. -/
theorem shifted_eq (x0 : (⟨S100000x256, .f32⟩ : BufTy).Contents (Elt Ideal)) (x1 x2 x3 : (⟨S2x1600000, .i32⟩ : BufTy).Contents (Elt Ideal)) (x4 x5 : (⟨S1600000, .f32⟩ : BufTy).Contents (Elt Ideal)) (x6 : (⟨S256x128, .f32⟩ : BufTy).Contents (Elt Ideal)) (x7 : (⟨S128, .f32⟩ : BufTy).Contents (Elt Ideal)) (x8 : (⟨S128x128, .f32⟩ : BufTy).Contents (Elt Ideal)) (x9 : (⟨S128, .f32⟩ : BufTy).Contents (Elt Ideal)) (x10 : (⟨S128x40, .f32⟩ : BufTy).Contents (Elt Ideal)) (x11 : (⟨S40, .f32⟩ : BufTy).Contents (Elt Ideal)) (i : S100000x40.Idx) :
    val_main_call5_v5 (F := Ideal) x0 x1 x2 x3 x4 x5 x6 x7 x8 x9 x10 x11 i
      = val_main_v160 (F := Ideal) x0 x1 x2 x3 x4 x5 x6 x7 x8 x9 x10 x11 i
        - Finset.univ.fold max (Ideal.ofBits .f32 0xFF800000#32) (fun k : Fin 40 => val_main_v160 (F := Ideal) x0 x1 x2 x3 x4 x5 x6 x7 x8 x9 x10 x11 (ix2 (i 0) k)) := by
  rw [val_main_call5_v5_apply, val_main_call5_v4_apply, val_main_call5_v3_apply, rowmax_eq]
  rfl

/-- `log_softmax` along axis 1 of the third layer: row by row the logarithm of the softmax of the
    aggregated features plus the bias row. -/
theorem v161_eq (x0 : (⟨S100000x256, .f32⟩ : BufTy).Contents (Elt Ideal)) (x1 x2 x3 : (⟨S2x1600000, .i32⟩ : BufTy).Contents (Elt Ideal)) (x4 x5 : (⟨S1600000, .f32⟩ : BufTy).Contents (Elt Ideal)) (x6 : (⟨S256x128, .f32⟩ : BufTy).Contents (Elt Ideal)) (x7 : (⟨S128, .f32⟩ : BufTy).Contents (Elt Ideal)) (x8 : (⟨S128x128, .f32⟩ : BufTy).Contents (Elt Ideal)) (x9 : (⟨S128, .f32⟩ : BufTy).Contents (Elt Ideal)) (x10 : (⟨S128x40, .f32⟩ : BufTy).Contents (Elt Ideal)) (x11 : (⟨S40, .f32⟩ : BufTy).Contents (Elt Ideal)) :
    val_main_v161 (F := Ideal) x0 x1 x2 x3 x4 x5 x6 x7 x8 x9 x10 x11
      = logSoftmaxRows (N := 100000) (D := 40) (val_main_v157 (F := Ideal) x0 x1 x2 x3 x4 x5 x6 x7 x8 x9 x10) x11 := by
  funext i
  have hrow : (fun k : Fin 40 => val_main_v160 (F := Ideal) x0 x1 x2 x3 x4 x5 x6 x7 x8 x9 x10 x11 (ix2 (i 0) k)) = rowOf (N := 100000) (D := 40) (val_main_v157 (F := Ideal) x0 x1 x2 x3 x4 x5 x6 x7 x8 x9 x10) x11 (i 0) :=
    funext fun k => v160_apply' x0 x1 x2 x3 x4 x5 x6 x7 x8 x9 x10 x11 (ix2 (i 0) k)
  have hshift : ∀ k : Fin 40, val_main_call5_v5 (F := Ideal) x0 x1 x2 x3 x4 x5 x6 x7 x8 x9 x10 x11 (ix2 (i 0) k) = rowOf (N := 100000) (D := 40) (val_main_v157 (F := Ideal) x0 x1 x2 x3 x4 x5 x6 x7 x8 x9 x10) x11 (i 0) k - Finset.univ.fold max (Ideal.ofBits .f32 0xFF800000#32) (rowOf (N := 100000) (D := 40) (val_main_v157 (F := Ideal) x0 x1 x2 x3 x4 x5 x6 x7 x8 x9 x10) x11 (i 0)) := by
    intro k
    refine (shifted_eq x0 x1 x2 x3 x4 x5 x6 x7 x8 x9 x10 x11 (ix2 (i 0) k)).trans ?_
    show val_main_v160 (F := Ideal) x0 x1 x2 x3 x4 x5 x6 x7 x8 x9 x10 x11 (ix2 (i 0) k)
      - Finset.univ.fold max (Ideal.ofBits .f32 0xFF800000#32) (fun k' : Fin 40 => val_main_v160 (F := Ideal) x0 x1 x2 x3 x4 x5 x6 x7 x8 x9 x10 x11 (ix2 (i 0) k')) = _
    rw [hrow]
    exact congrArg (fun v : EReal => v - Finset.univ.fold max (Ideal.ofBits .f32 0xFF800000#32) (rowOf (N := 100000) (D := 40) (val_main_v157 (F := Ideal) x0 x1 x2 x3 x4 x5 x6 x7 x8 x9 x10) x11 (i 0))) (v160_apply' x0 x1 x2 x3 x4 x5 x6 x7 x8 x9 x10 x11 (ix2 (i 0) k))
  have hshift_i : val_main_call5_v5 (F := Ideal) x0 x1 x2 x3 x4 x5 x6 x7 x8 x9 x10 x11 i = rowOf (N := 100000) (D := 40) (val_main_v157 (F := Ideal) x0 x1 x2 x3 x4 x5 x6 x7 x8 x9 x10) x11 (i 0) (i 1) - Finset.univ.fold max (Ideal.ofBits .f32 0xFF800000#32) (rowOf (N := 100000) (D := 40) (val_main_v157 (F := Ideal) x0 x1 x2 x3 x4 x5 x6 x7 x8 x9 x10) x11 (i 0)) :=
    (congrArg (val_main_call5_v5 (F := Ideal) x0 x1 x2 x3 x4 x5 x6 x7 x8 x9 x10 x11) (eq_ix2 i)).trans (hshift (i 1))
  have hlog : val_main_call5_v10 (F := Ideal) x0 x1 x2 x3 x4 x5 x6 x7 x8 x9 x10 x11 i
      = Ideal.log (∑ k : Fin 40, Ideal.exp (rowOf (N := 100000) (D := 40) (val_main_v157 (F := Ideal) x0 x1 x2 x3 x4 x5 x6 x7 x8 x9 x10) x11 (i 0) k - Finset.univ.fold max (Ideal.ofBits .f32 0xFF800000#32) (rowOf (N := 100000) (D := 40) (val_main_v157 (F := Ideal) x0 x1 x2 x3 x4 x5 x6 x7 x8 x9 x10) x11 (i 0)))) := by
    rw [val_main_call5_v10_apply, val_main_call5_v9_apply, val_main_call5_v8_apply, Ideal.hostUnary_log_def]
    unfold val_main_call5_v7
    refine congrArg Ideal.log ((Cert.LibHostRows.hostRowSum (N := 100000) (D := 40) (val_main_call5_v6 (F := Ideal) x0 x1 x2 x3 x4 x5 x6 x7 x8 x9 x10 x11) (val_main_call5_cst_1 (F := Ideal))
      (fun _ => rfl) reducesTo_S100000x40_S100000_d1 (by decide) h_S_ (idx_main_call5_v8 (idx_main_call5_v10 i))).trans ?_)
    refine Finset.sum_congr rfl fun k _ => ?_
    rw [val_main_call5_v6_apply, Ideal.hostUnary_exp_def]
    exact congrArg Ideal.exp (hshift k)
  rw [val_main_v161_apply]
  unfold logSoftmaxRows lsmRow
  exact congrArg₂ (fun a b : EReal => a - b) hshift_i hlog

end Cert.ReferenceIdeal.Stages

end
-- ==== Proof.Chain.lean ====
/-
  The idealized kernel's result, boundary by boundary, is the reference's stage of the same launch
  arguments.  A kernel region leaves the function its body computes (a matrix product, the bias row added
  and its positive part, the half-and-half mix, the row-wise logarithm of the softmax) of the arrays it found;
  a stretch of host operations between two regions is, operation for operation, the reference's own
  normalised aggregation over the edges, applied to what the region before it left; and the arguments read
  at any boundary are the launch memory's.  Composing these from the launch to the return, the kernel's result
  array is the reference's result term of the arguments.
-/
import proofs.«109993_j29592324669623_1_alg».proof.Proof.Gen.KernelIdeal.Frame
import proofs.«109993_j29592324669623_1_alg».proof.Proof.Kept
import proofs.«109993_j29592324669623_1_alg».proof.Proof.Project0
import proofs.«109993_j29592324669623_1_alg».proof.Proof.Project1
import proofs.«109993_j29592324669623_1_alg».proof.Proof.Project2
import proofs.«109993_j29592324669623_1_alg».proof.Proof.BiasRelu
import proofs.«109993_j29592324669623_1_alg».proof.Proof.Blend
import proofs.«109993_j29592324669623_1_alg».proof.Proof.LogSoftmax
import proofs.«109993_j29592324669623_1_alg».proof.Proof.RefStages
import proofs.«109993_j29592324669623_1_alg».proof.Proof.LibCat
import Idealize.ShloMosaic.Lib.StableHlo.Run

set_option maxRecDepth 65536

noncomputable section

namespace Cert.KernelIdeal.Chain

open Cert.KernelIdeal Cert.KernelIdeal.Gen
open Idealize.ShloMosaic Idealize.ShloMosaic.TcCoe Idealize.SL.Sem Idealize.ShloMosaic.StableHlo
open Cert.ReferenceIdeal.ReadP Cert.ReferenceIdeal.Stages
open Cert.LibMatmul (MM)
open Cert.LibCat (cat2 cat2_eq)
open Cert.KernelIdeal.BiasRelu (addRow posPart)
open Cert.KernelIdeal.Blend (mix)
open Cert.KernelIdeal.LogSoftmax (logSoftmaxRows)

/-! A value passed to or returned by an outlined function travels through its buffer's type, which for a
    literal buffer is the value's own type: the transport is the identity. -/
theorem toBuf_main_cst_4 (v : (⟨S_, .f32⟩ : BufTy).Contents (Elt Ideal)) :
    (TRef.of (sig := sig) (T := ⟨S_, .f32⟩) main_cst_4).toBuf (Val := Elt Ideal) v = v := rfl
theorem ofBuf_main_cst_4 (v : (⟨S_, .f32⟩ : BufTy).Contents (Elt Ideal)) :
    (TRef.of (sig := sig) (T := ⟨S_, .f32⟩) main_cst_4).ofBuf (Val := Elt Ideal) v = v := rfl
theorem toBuf_main_call0_v0 (v : (⟨S_, .f32⟩ : BufTy).Contents (Elt Ideal)) :
    (TRef.of (sig := sig) (T := ⟨S_, .f32⟩) main_call0_v0).toBuf (Val := Elt Ideal) v = v := rfl
theorem ofBuf_main_call0_v0 (v : (⟨S_, .f32⟩ : BufTy).Contents (Elt Ideal)) :
    (TRef.of (sig := sig) (T := ⟨S_, .f32⟩) main_call0_v0).ofBuf (Val := Elt Ideal) v = v := rfl
theorem toBuf_main_call0_v1 (v : (⟨S100000, .f32⟩ : BufTy).Contents (Elt Ideal)) :
    (TRef.of (sig := sig) (T := ⟨S100000, .f32⟩) main_call0_v1).toBuf (Val := Elt Ideal) v = v := rfl
theorem ofBuf_main_call0_v1 (v : (⟨S100000, .f32⟩ : BufTy).Contents (Elt Ideal)) :
    (TRef.of (sig := sig) (T := ⟨S100000, .f32⟩) main_call0_v1).ofBuf (Val := Elt Ideal) v = v := rfl
theorem toBuf_main_v15 (v : (⟨S100000, .i1⟩ : BufTy).Contents (Elt Ideal)) :
    (TRef.of (sig := sig) (T := ⟨S100000, .i1⟩) main_v15).toBuf (Val := Elt Ideal) v = v := rfl
theorem ofBuf_main_v15 (v : (⟨S100000, .i1⟩ : BufTy).Contents (Elt Ideal)) :
    (TRef.of (sig := sig) (T := ⟨S100000, .i1⟩) main_v15).ofBuf (Val := Elt Ideal) v = v := rfl
theorem toBuf_main_v18 (v : (⟨S100000, .f32⟩ : BufTy).Contents (Elt Ideal)) :
    (TRef.of (sig := sig) (T := ⟨S100000, .f32⟩) main_v18).toBuf (Val := Elt Ideal) v = v := rfl
theorem ofBuf_main_v18 (v : (⟨S100000, .f32⟩ : BufTy).Contents (Elt Ideal)) :
    (TRef.of (sig := sig) (T := ⟨S100000, .f32⟩) main_v18).ofBuf (Val := Elt Ideal) v = v := rfl
theorem toBuf_main_v19 (v : (⟨S100000, .f32⟩ : BufTy).Contents (Elt Ideal)) :
    (TRef.of (sig := sig) (T := ⟨S100000, .f32⟩) main_v19).toBuf (Val := Elt Ideal) v = v := rfl
theorem ofBuf_main_v19 (v : (⟨S100000, .f32⟩ : BufTy).Contents (Elt Ideal)) :
    (TRef.of (sig := sig) (T := ⟨S100000, .f32⟩) main_v19).ofBuf (Val := Elt Ideal) v = v := rfl
theorem toBuf_main_cst_15 (v : (⟨S_, .f32⟩ : BufTy).Contents (Elt Ideal)) :
    (TRef.of (sig := sig) (T := ⟨S_, .f32⟩) main_cst_15).toBuf (Val := Elt Ideal) v = v := rfl
theorem ofBuf_main_cst_15 (v : (⟨S_, .f32⟩ : BufTy).Contents (Elt Ideal)) :
    (TRef.of (sig := sig) (T := ⟨S_, .f32⟩) main_cst_15).ofBuf (Val := Elt Ideal) v = v := rfl
theorem toBuf_main_call1_v0 (v : (⟨S_, .f32⟩ : BufTy).Contents (Elt Ideal)) :
    (TRef.of (sig := sig) (T := ⟨S_, .f32⟩) main_call1_v0).toBuf (Val := Elt Ideal) v = v := rfl
theorem ofBuf_main_call1_v0 (v : (⟨S_, .f32⟩ : BufTy).Contents (Elt Ideal)) :
    (TRef.of (sig := sig) (T := ⟨S_, .f32⟩) main_call1_v0).ofBuf (Val := Elt Ideal) v = v := rfl
theorem toBuf_main_call1_v1 (v : (⟨S100000, .f32⟩ : BufTy).Contents (Elt Ideal)) :
    (TRef.of (sig := sig) (T := ⟨S100000, .f32⟩) main_call1_v1).toBuf (Val := Elt Ideal) v = v := rfl
theorem ofBuf_main_call1_v1 (v : (⟨S100000, .f32⟩ : BufTy).Contents (Elt Ideal)) :
    (TRef.of (sig := sig) (T := ⟨S100000, .f32⟩) main_call1_v1).ofBuf (Val := Elt Ideal) v = v := rfl
theorem toBuf_main_v64 (v : (⟨S100000, .i1⟩ : BufTy).Contents (Elt Ideal)) :
    (TRef.of (sig := sig) (T := ⟨S100000, .i1⟩) main_v64).toBuf (Val := Elt Ideal) v = v := rfl
theorem ofBuf_main_v64 (v : (⟨S100000, .i1⟩ : BufTy).Contents (Elt Ideal)) :
    (TRef.of (sig := sig) (T := ⟨S100000, .i1⟩) main_v64).ofBuf (Val := Elt Ideal) v = v := rfl
theorem toBuf_main_v67 (v : (⟨S100000, .f32⟩ : BufTy).Contents (Elt Ideal)) :
    (TRef.of (sig := sig) (T := ⟨S100000, .f32⟩) main_v67).toBuf (Val := Elt Ideal) v = v := rfl
theorem ofBuf_main_v67 (v : (⟨S100000, .f32⟩ : BufTy).Contents (Elt Ideal)) :
    (TRef.of (sig := sig) (T := ⟨S100000, .f32⟩) main_v67).ofBuf (Val := Elt Ideal) v = v := rfl
theorem toBuf_main_v68 (v : (⟨S100000, .f32⟩ : BufTy).Contents (Elt Ideal)) :
    (TRef.of (sig := sig) (T := ⟨S100000, .f32⟩) main_v68).toBuf (Val := Elt Ideal) v = v := rfl
theorem ofBuf_main_v68 (v : (⟨S100000, .f32⟩ : BufTy).Contents (Elt Ideal)) :
    (TRef.of (sig := sig) (T := ⟨S100000, .f32⟩) main_v68).ofBuf (Val := Elt Ideal) v = v := rfl
theorem toBuf_main_cst_27 (v : (⟨S_, .f32⟩ : BufTy).Contents (Elt Ideal)) :
    (TRef.of (sig := sig) (T := ⟨S_, .f32⟩) main_cst_27).toBuf (Val := Elt Ideal) v = v := rfl
theorem ofBuf_main_cst_27 (v : (⟨S_, .f32⟩ : BufTy).Contents (Elt Ideal)) :
    (TRef.of (sig := sig) (T := ⟨S_, .f32⟩) main_cst_27).ofBuf (Val := Elt Ideal) v = v := rfl
theorem toBuf_main_call2_v0 (v : (⟨S_, .f32⟩ : BufTy).Contents (Elt Ideal)) :
    (TRef.of (sig := sig) (T := ⟨S_, .f32⟩) main_call2_v0).toBuf (Val := Elt Ideal) v = v := rfl
theorem ofBuf_main_call2_v0 (v : (⟨S_, .f32⟩ : BufTy).Contents (Elt Ideal)) :
    (TRef.of (sig := sig) (T := ⟨S_, .f32⟩) main_call2_v0).ofBuf (Val := Elt Ideal) v = v := rfl
theorem toBuf_main_call2_v1 (v : (⟨S100000, .f32⟩ : BufTy).Contents (Elt Ideal)) :
    (TRef.of (sig := sig) (T := ⟨S100000, .f32⟩) main_call2_v1).toBuf (Val := Elt Ideal) v = v := rfl
theorem ofBuf_main_call2_v1 (v : (⟨S100000, .f32⟩ : BufTy).Contents (Elt Ideal)) :
    (TRef.of (sig := sig) (T := ⟨S100000, .f32⟩) main_call2_v1).ofBuf (Val := Elt Ideal) v = v := rfl
theorem toBuf_main_v113 (v : (⟨S100000, .i1⟩ : BufTy).Contents (Elt Ideal)) :
    (TRef.of (sig := sig) (T := ⟨S100000, .i1⟩) main_v113).toBuf (Val := Elt Ideal) v = v := rfl
theorem ofBuf_main_v113 (v : (⟨S100000, .i1⟩ : BufTy).Contents (Elt Ideal)) :
    (TRef.of (sig := sig) (T := ⟨S100000, .i1⟩) main_v113).ofBuf (Val := Elt Ideal) v = v := rfl
theorem toBuf_main_v116 (v : (⟨S100000, .f32⟩ : BufTy).Contents (Elt Ideal)) :
    (TRef.of (sig := sig) (T := ⟨S100000, .f32⟩) main_v116).toBuf (Val := Elt Ideal) v = v := rfl
theorem ofBuf_main_v116 (v : (⟨S100000, .f32⟩ : BufTy).Contents (Elt Ideal)) :
    (TRef.of (sig := sig) (T := ⟨S100000, .f32⟩) main_v116).ofBuf (Val := Elt Ideal) v = v := rfl
theorem toBuf_main_v117 (v : (⟨S100000, .f32⟩ : BufTy).Contents (Elt Ideal)) :
    (TRef.of (sig := sig) (T := ⟨S100000, .f32⟩) main_v117).toBuf (Val := Elt Ideal) v = v := rfl
theorem ofBuf_main_v117 (v : (⟨S100000, .f32⟩ : BufTy).Contents (Elt Ideal)) :
    (TRef.of (sig := sig) (T := ⟨S100000, .f32⟩) main_v117).ofBuf (Val := Elt Ideal) v = v := rfl

variable (m : (ℓ : Loc nD τ sig) → Buf (Elt Ideal) ℓ) (ρ : Dev nD → PrngReg) (c : Dev nD)

/-- After the first region: the first projection. -/
theorem proj0 : W1 m ρ c (Proc.devRef .tc main_v0) = val_main_v1 (F := Ideal) (m ((c : Thread nD τ).loc main_arg0)) (m ((c : Thread nD τ).loc main_arg6)) :=
  (W1_arr m ρ c 2).trans ((Project0.final (V0 m ρ) c).trans (v1_eq _ _).symm)

set_option maxHeartbeats 4000000 in
/-- After the first stretch of host operations: the first layer's aggregation over the edges. -/
theorem conv0 : W4 m ρ c (Proc.devRef .tc main_v48) = val_main_v48 (F := Ideal) (m ((c : Thread nD τ).loc main_arg0)) (m ((c : Thread nD τ).loc main_arg1)) (m ((c : Thread nD τ).loc main_arg6)) := by
  show StableHlo.after hostOps1_2 (StableHlo.after hostOps1_1 (StableHlo.after hostOps1 (W1 m ρ c))) (Proc.devRef .tc main_v48) = _
  simp only [hostOps1, hostOps1_1, hostOps1_2, cat2_eq]
  after_results_simp
  rw [proj0 m ρ c, Kept.W1_arg1 m ρ c]
  try rw [toBuf_main_cst_4]
  try rw [ofBuf_main_cst_4]
  try rw [toBuf_main_call0_v0]
  try rw [ofBuf_main_call0_v0]
  try rw [toBuf_main_call0_v1]
  try rw [ofBuf_main_call0_v1]
  try rw [toBuf_main_v15]
  try rw [ofBuf_main_v15]
  try rw [toBuf_main_v18]
  try rw [ofBuf_main_v18]
  try rw [toBuf_main_v19]
  try rw [ofBuf_main_v19]
  simp only [val_main_cst, val_main_v0, val_main_v2, val_main_v3, val_main_v4, val_main_v5, val_main_v6, val_main_v7, val_main_v8, val_main_cst_0, val_main_v9, val_main_v10, val_main_cst_1, val_main_v11, val_main_v12, val_main_v13, val_main_cst_2, val_main_v14, val_main_v15, val_main_cst_3, val_main_v16, val_main_v17, val_main_v18, val_main_cst_4, val_main_call0_v0, val_main_call0_v1, val_main_v19, val_main_c, val_main_v20, val_main_v21, val_main_c_5, val_main_v22, val_main_v23, val_main_v24, val_main_v25, val_main_v26, val_main_v27, val_main_c_6, val_main_v28, val_main_v29, val_main_c_7, val_main_v30, val_main_v31, val_main_v32, val_main_v33, val_main_v34, val_main_v35, val_main_v36, val_main_c_8, val_main_v37, val_main_v38, val_main_c_9, val_main_v39, val_main_v40, val_main_v41, val_main_v42, val_main_v43, val_main_v44, val_main_v45, val_main_cst_10, val_main_v46, val_main_v47, val_main_v48, cat2_eq] <;> rfl

/-- After the second region: the first layer before its activation … -/
theorem pre0 : W5 m ρ c (Proc.devRef .tc main_v49_0) = val_main_v51 (F := Ideal) (m ((c : Thread nD τ).loc main_arg0)) (m ((c : Thread nD τ).loc main_arg1)) (m ((c : Thread nD τ).loc main_arg6)) (m ((c : Thread nD τ).loc main_arg7)) :=
  (W5_arr m ρ c 2).trans ((BiasRelu.final_sum (V4 m ρ) c).trans
    ((congrArg₂ (addRow (N := 100000) (D := 128)) (conv0 m ρ c) (Kept.W4_arg7 m ρ c)).trans (v51_eq _ _ _ _).symm))

/-- … and its activation. -/
theorem act0 : W5 m ρ c (Proc.devRef .tc main_v49_1) = val_main_v52 (F := Ideal) (m ((c : Thread nD τ).loc main_arg0)) (m ((c : Thread nD τ).loc main_arg1)) (m ((c : Thread nD τ).loc main_arg6)) (m ((c : Thread nD τ).loc main_arg7)) :=
  (W5_arr m ρ c 3).trans ((BiasRelu.final_relu (V4 m ρ) c).trans
    ((congrArg (posPart (N := 100000) (D := 128)) ((congrArg₂ (addRow (N := 100000) (D := 128)) (conv0 m ρ c) (Kept.W4_arg7 m ρ c)).trans (v51_eq _ _ _ _).symm)).trans
      (v52_eq _ _ _ _).symm))

/-- After the third region: the second projection. -/
theorem proj1 : W6 m ρ c (Proc.devRef .tc main_v50) = val_main_v53 (F := Ideal) (m ((c : Thread nD τ).loc main_arg0)) (m ((c : Thread nD τ).loc main_arg1)) (m ((c : Thread nD τ).loc main_arg6)) (m ((c : Thread nD τ).loc main_arg7)) (m ((c : Thread nD τ).loc main_arg8)) :=
  (W6_arr m ρ c 2).trans ((Project1.final (V5 m ρ) c).trans
    ((congrArg₂ (MM (A := 100000) (K := 128) (B := 128)) (act0 m ρ c) (Kept.W5_arg8 m ρ c)).trans (v53_eq _ _ _ _ _).symm))

set_option maxHeartbeats 4000000 in
/-- After the second stretch of host operations: the second layer's aggregation over the edges. -/
theorem conv1 : W9 m ρ c (Proc.devRef .tc main_v97)
    = val_main_v100 (F := Ideal) (m ((c : Thread nD τ).loc main_arg0)) (m ((c : Thread nD τ).loc main_arg1)) (m ((c : Thread nD τ).loc main_arg2)) (m ((c : Thread nD τ).loc main_arg4)) (m ((c : Thread nD τ).loc main_arg6)) (m ((c : Thread nD τ).loc main_arg7)) (m ((c : Thread nD τ).loc main_arg8)) := by
  show StableHlo.after hostOps3_2 (StableHlo.after hostOps3_1 (StableHlo.after hostOps3 (W6 m ρ c))) (Proc.devRef .tc main_v97) = _
  simp only [hostOps3, hostOps3_1, hostOps3_2, cat2_eq]
  after_results_simp
  rw [proj1 m ρ c, Kept.W6_arg2 m ρ c, Kept.W6_arg4 m ρ c]
  try rw [toBuf_main_cst_15]
  try rw [ofBuf_main_cst_15]
  try rw [toBuf_main_call1_v0]
  try rw [ofBuf_main_call1_v0]
  try rw [toBuf_main_call1_v1]
  try rw [ofBuf_main_call1_v1]
  try rw [toBuf_main_v64]
  try rw [ofBuf_main_v64]
  try rw [toBuf_main_v67]
  try rw [ofBuf_main_v67]
  try rw [toBuf_main_v68]
  try rw [ofBuf_main_v68]
  simp only [val_main_v54, val_main_v55, val_main_v56, val_main_v57, val_main_v58, val_main_v59, val_main_v60, val_main_cst_11, val_main_v61, val_main_v62, val_main_cst_12, val_main_v63, val_main_v64, val_main_v65, val_main_cst_13, val_main_v66, val_main_v67, val_main_cst_14, val_main_v68, val_main_v69, val_main_v70, val_main_cst_15, val_main_call2_v0, val_main_call2_v1, val_main_v71, val_main_c_16, val_main_v72, val_main_v73, val_main_c_17, val_main_v74, val_main_v75, val_main_v76, val_main_v77, val_main_v78, val_main_v79, val_main_c_18, val_main_v80, val_main_v81, val_main_c_19, val_main_v82, val_main_v83, val_main_v84, val_main_v85, val_main_v86, val_main_v87, val_main_v88, val_main_c_20, val_main_v89, val_main_v90, val_main_c_21, val_main_v91, val_main_v92, val_main_v93, val_main_v94, val_main_v95, val_main_v96, val_main_v97, val_main_cst_22, val_main_v98, val_main_v99, val_main_v100, cat2_eq] <;> rfl

/-- The first layer's pre-activation is still there at the fourth region's entry. -/
theorem pre0_at9 : W9 m ρ c (Proc.devRef .tc main_v49_0) = val_main_v51 (F := Ideal) (m ((c : Thread nD τ).loc main_arg0)) (m ((c : Thread nD τ).loc main_arg1)) (m ((c : Thread nD τ).loc main_arg6)) (m ((c : Thread nD τ).loc main_arg7)) :=
  (Kept.W9_pre m ρ c).trans (pre0 m ρ c)

/-- After the fourth region: the second layer's activation. -/
theorem act1 : W10 m ρ c (Proc.devRef .tc main_v98)
    = val_main_v109 (F := Ideal) (m ((c : Thread nD τ).loc main_arg0)) (m ((c : Thread nD τ).loc main_arg1)) (m ((c : Thread nD τ).loc main_arg2)) (m ((c : Thread nD τ).loc main_arg4)) (m ((c : Thread nD τ).loc main_arg6)) (m ((c : Thread nD τ).loc main_arg7)) (m ((c : Thread nD τ).loc main_arg8)) (m ((c : Thread nD τ).loc main_arg9)) :=
  (W10_arr m ρ c 3).trans ((Blend.final (V9 m ρ) c).trans
    (((congrArg₂ (fun x p => mix (N := 100000) (D := 128) x (V9 m ρ c main_arg9) p) (conv1 m ρ c) (pre0_at9 m ρ c)).trans
      (congrArg (fun b => mix (N := 100000) (D := 128) _ b _) (Kept.W9_arg9 m ρ c))).trans (v109_eq _ _ _ _ _ _ _ _).symm))

/-- After the fifth region: the third projection. -/
theorem proj2 : W11 m ρ c (Proc.devRef .tc main_v99)
    = val_main_v110 (F := Ideal) (m ((c : Thread nD τ).loc main_arg0)) (m ((c : Thread nD τ).loc main_arg1)) (m ((c : Thread nD τ).loc main_arg2)) (m ((c : Thread nD τ).loc main_arg4)) (m ((c : Thread nD τ).loc main_arg6)) (m ((c : Thread nD τ).loc main_arg7)) (m ((c : Thread nD τ).loc main_arg8)) (m ((c : Thread nD τ).loc main_arg9)) (m ((c : Thread nD τ).loc main_arg10)) :=
  (W11_arr m ρ c 2).trans ((Project2.final (V10 m ρ) c).trans
    ((congrArg₂ (MM (A := 100000) (K := 128) (B := 40)) (act1 m ρ c) (Kept.W10_arg10 m ρ c)).trans (v110_eq _ _ _ _ _ _ _ _ _).symm))

set_option maxHeartbeats 4000000 in
/-- After the third stretch of host operations: the third layer's aggregation over the edges. -/
theorem conv2 : W14 m ρ c (Proc.devRef .tc main_v146)
    = val_main_v157 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  show StableHlo.after hostOps5_2 (StableHlo.after hostOps5_1 (StableHlo.after hostOps5 (W11 m ρ c))) (Proc.devRef .tc main_v146) = _
  simp only [hostOps5, hostOps5_1, hostOps5_2, cat2_eq]
  after_results_simp
  rw [proj2 m ρ c, Kept.W11_arg3 m ρ c, Kept.W11_arg5 m ρ c]
  try rw [toBuf_main_cst_27]
  try rw [ofBuf_main_cst_27]
  try rw [toBuf_main_call2_v0]
  try rw [ofBuf_main_call2_v0]
  try rw [toBuf_main_call2_v1]
  try rw [ofBuf_main_call2_v1]
  try rw [toBuf_main_v113]
  try rw [ofBuf_main_v113]
  try rw [toBuf_main_v116]
  try rw [ofBuf_main_v116]
  try rw [toBuf_main_v117]
  try rw [ofBuf_main_v117]
  simp only [val_main_v111, val_main_v112, val_main_v113, val_main_v114, val_main_v115, val_main_v116, val_main_v117, val_main_cst_25, val_main_v118, val_main_v119, val_main_cst_26, val_main_v120, val_main_v121, val_main_v122, val_main_cst_27, val_main_v123, val_main_v124, val_main_cst_28, val_main_v125, val_main_v126, val_main_v127, val_main_cst_29, val_main_call4_v0, val_main_call4_v1, val_main_v128, val_main_c_30, val_main_v129, val_main_v130, val_main_c_31, val_main_v131, val_main_v132, val_main_v133, val_main_v134, val_main_v135, val_main_v136, val_main_c_32, val_main_v137, val_main_v138, val_main_c_33, val_main_v139, val_main_v140, val_main_v141, val_main_v142, val_main_v143, val_main_v144, val_main_v145, val_main_c_34, val_main_v146, val_main_v147, val_main_c_35, val_main_v148, val_main_v149, val_main_v150, val_main_v151, val_main_v152, val_main_v153, val_main_v154, val_main_cst_36, val_main_v155, val_main_v156, val_main_v157, cat2_eq] <;> rfl

/-- After the sixth region: the result, the reference's last stage of the launch arguments. -/
theorem result : W15 m ρ c (Proc.devRef .tc main_v147)
    = val_main_v161 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) :=
  (W15_arr m ρ c 2).trans ((LogSoftmax.final (V14 m ρ) c).trans
    ((congrArg₂ (logSoftmaxRows (N := 100000) (D := 40)) (conv2 m ρ c) (Kept.W14_arg11 m ρ c)).trans (v161_eq _ _ _ _ _ _ _ _ _ _ _ _).symm))

end Cert.KernelIdeal.Chain

end
-- ==== Proof.lean ====
/-
  A three-layer graph convolution network on 100000 nodes: each layer multiplies the node features by a
  weight matrix, aggregates over the edges (with self loops) under the symmetric degree normalisation, and adds
  a bias row; the first layer's output passes through the positive part, the second is mixed half and half
  with the first layer's pre-activation before its positive part, and the third goes through the logarithm
  of the softmax along each row.  The kernel computes the three matrix products, the bias/activation steps
  and the final row-wise log-softmax in six tiled regions (twenty row blocks of 5000 each) and leaves the edge
  aggregation to the same host operations the reference uses.

  At the extended reals a region's row block of a matrix product is the same rows of the whole product (a sum
  over k in both programs); the bias, positive part, mix and log-softmax act row by row, so a block of the
  result is the block of the whole-array function; and the twenty blocks cover the array.  The host
  aggregation between the regions is operation for operation the reference's, so each boundary's result buffer
  is the reference's stage of the launch arguments (Proof/Chain.lean), and so is the final result; the reference's
  own run is read back in the same stages (Proof/RefRun.lean).  No law of
  arithmetic beyond regrouping the same sums is used, and the precondition is not needed.

  The three frames: the two kernels' by their generated frame certificates; the reference's by its run with the
  result dropped.  The idealization rewrote nothing, so its claim is trivial.
-/
import proofs.«109993_j29592324669623_1_alg».proof.Defs
import proofs.«109993_j29592324669623_1_alg».proof.Proof.Gen.Kernel
import proofs.«109993_j29592324669623_1_alg».proof.Proof.Gen.Kernel.Frame
import proofs.«109993_j29592324669623_1_alg».proof.Proof.Gen.KernelIdeal
import proofs.«109993_j29592324669623_1_alg».proof.Proof.Gen.KernelIdeal.Frame
import proofs.«109993_j29592324669623_1_alg».proof.Proof.Gen.ReferenceIdeal
import proofs.«109993_j29592324669623_1_alg».proof.Proof.Gen.Pre_finite_inputs
import proofs.«109993_j29592324669623_1_alg».proof.Proof.KernelRun
import proofs.«109993_j29592324669623_1_alg».proof.Proof.RefRun
import proofs.«109993_j29592324669623_1_alg».proof.Proof.Chain
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run with its result dropped. -/
theorem frame_reference : Cert.frame_ReferenceIdeal := fun m ρ _ =>
  (θ_run Cert.ReferenceIdeal.defs _ _).mono (fun _ h c => (h c).2) (Cert.ReferenceIdeal.RefRun.run m ρ)

/-- The idealization rewrote no operation. -/
theorem preserves : Cert.preserves_Kernel_KernelIdeal := trivial

/-- Both idealized programs end with the reference's result term of the (agreeing) arguments. -/
theorem algebraic : Cert.algebraic_KernelIdeal_ReferenceIdeal := by
  intro m ρ m' ρ' _ hagree
  refine ⟨fun c => Cert.KernelIdeal.Gen.W15 m ρ c (Proc.devRef .tc Cert.KernelIdeal.main_v147),
    Cert.KernelIdeal.Run.run (F := Ideal) m ρ, ?_⟩
  refine (θ_run Cert.ReferenceIdeal.defs _ _).mono (fun _ h c => ⟨(h c).1.trans ?_, (h c).2⟩)
    (Cert.ReferenceIdeal.RefRun.run m' ρ')
  rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2]
  exact (Cert.KernelIdeal.Chain.result m ρ c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
